-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64 .f32) (main_arg11 : FVec F S64 .f32) (main_arg12 : FVec F S64x64 .f32) (main_arg13 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x64 .f32) (main_arg1 : IVec S2x800000 32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 116
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .i32⟩
  | .hbm, ⟨39, _⟩ => ⟨S_, .f32⟩
  | .hbm, ⟨40, _⟩ => ⟨S64, .f32⟩
  | .hbm, ⟨41, _⟩ => ⟨S1x64, .f32⟩
  | .hbm, ⟨42, _⟩ => ⟨S_, .f32⟩
  | .hbm, ⟨43, _⟩ => ⟨S1x64, .f32⟩
  | .hbm, ⟨44, _⟩ => ⟨S1x64, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S50000x64, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S_, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S_, .i32⟩
  | .hbm, ⟨88, _⟩ => ⟨S_, .f32⟩
  | .hbm, ⟨89, _⟩ => ⟨S64, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S_, .f32⟩
  | .hbm, ⟨105, _⟩ => ⟨S_, .i1⟩
  | .hbm, ⟨106, _⟩ => ⟨S_, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_4 : Ref sig .tc := ⟨.hbm, 67, rfl⟩
abbrev main_v26 : Ref sig .tc := ⟨.hbm, 68, rfl⟩
abbrev main_v27 : Ref sig .tc := ⟨.hbm, 69, rfl⟩
abbrev main_c_5 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_6 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_7 : Ref sig .tc := ⟨.hbm, 82, rfl⟩
abbrev main_v38 : Ref sig .tc := ⟨.hbm, 83, rfl⟩
abbrev main_cst_8 : Ref sig .tc := ⟨.hbm, 84, rfl⟩
abbrev main_v39 : Ref sig .tc := ⟨.hbm, 85, rfl⟩
abbrev main_v40 : Ref sig .tc := ⟨.hbm, 86, rfl⟩
abbrev main_c_9 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_cst_3 : Ref sig .tc := ⟨.hbm, 104, rfl⟩
abbrev main_call1_v12 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 162
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64, .f32⟩
  | 11 => ⟨S64, .f32⟩
  | 12 => ⟨S64x64, .f32⟩
  | 13 => ⟨S64, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S64, .f32⟩
  | 38 => ⟨S_, .f32⟩
  | 39 => ⟨S64, .f32⟩
  | 40 => ⟨S64, .f32⟩
  | 41 => ⟨S_, .i32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S50000x64, .f32⟩
  | 49 => ⟨S50000x64, .f32⟩
  | 50 => ⟨S50000x64, .f32⟩
  | 51 => ⟨S_, .f32⟩
  | 52 => ⟨S_, .f32⟩
  | 53 => ⟨S_, .f32⟩
  | 54 => ⟨S_, .f32⟩
  | 55 => ⟨S64, .f32⟩
  | 56 => ⟨S64, .f32⟩
  | 57 => ⟨S64, .f32⟩
  | 58 => ⟨S_, .f32⟩
  | 59 => ⟨S_, .i1⟩
  | 60 => ⟨S_, .f32⟩
  | 61 => ⟨S_, .f32⟩
  | 62 => ⟨S64, .f32⟩
  | 63 => ⟨S64, .f32⟩
  | 64 => ⟨S1x64, .f32⟩
  | 65 => ⟨S50000x64, .f32⟩
  | 66 => ⟨S50000x64, .f32⟩
  | 67 => ⟨S_, .f32⟩
  | 68 => ⟨S64, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x64, .f32⟩
  | 99 => ⟨S_, .f32⟩
  | 100 => ⟨S50000x64, .f32⟩
  | 101 => ⟨S800000x1, .i32⟩
  | 102 => ⟨S50000x64, .f32⟩
  | 103 => ⟨S50000x64, .f32⟩
  | 104 => ⟨S50000x64, .f32⟩
  | 105 => ⟨S1x64, .f32⟩
  | 106 => ⟨S50000x64, .f32⟩
  | 107 => ⟨S50000x64, .f32⟩
  | 108 => ⟨S_, .f32⟩
  | 109 => ⟨S64, .f32⟩
  | 110 => ⟨S_, .f32⟩
  | 111 => ⟨S64, .f32⟩
  | 112 => ⟨S64, .f32⟩
  | 113 => ⟨S_, .i32⟩
  | 114 => ⟨S_, .f32⟩
  | 115 => ⟨S64, .f32⟩
  | 116 => ⟨S1x64, .f32⟩
  | 117 => ⟨S_, .f32⟩
  | 118 => ⟨S1x64, .f32⟩
  | 119 => ⟨S1x64, .f32⟩
  | 120 => ⟨S50000x64, .f32⟩
  | 121 => ⟨S50000x64, .f32⟩
  | 122 => ⟨S50000x64, .f32⟩
  | 123 => ⟨S_, .f32⟩
  | 124 => ⟨S_, .f32⟩
  | 125 => ⟨S_, .f32⟩
  | 126 => ⟨S_, .f32⟩
  | 127 => ⟨S64, .f32⟩
  | _ => ⟨S50000x64, .f32⟩

abbrev hbmTy0_1 (i : Nat) : BufTy := match i % 128 with
  | 0 => ⟨S64, .f32⟩
  | 1 => ⟨S64, .f32⟩
  | 2 => ⟨S_, .f32⟩
  | 3 => ⟨S_, .i1⟩
  | 4 => ⟨S_, .f32⟩
  | 5 => ⟨S_, .f32⟩
  | 6 => ⟨S64, .f32⟩
  | 7 => ⟨S64, .f32⟩
  | 8 => ⟨S1x64, .f32⟩
  | 9 => ⟨S50000x64, .f32⟩
  | 10 => ⟨S50000x64, .f32⟩
  | 11 => ⟨S_, .f32⟩
  | 12 => ⟨S64, .f32⟩
  | 13 => ⟨S64, .f32⟩
  | 14 => ⟨S64, .f32⟩
  | 15 => ⟨S1x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_4 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_call1_cst : Ref sig .tc := ⟨.hbm, 80, rfl⟩
abbrev main_call1_v0 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_call2_cst : Ref sig .tc := ⟨.hbm, 87, rfl⟩
abbrev main_call2_v0 : Ref sig .tc := ⟨.hbm, 88, rfl⟩
abbrev main_v43 : Ref sig .tc := ⟨.hbm, 89, rfl⟩
abbrev main_c_5 : Ref sig .tc := ⟨.hbm, 90, rfl⟩
abbrev main_v44 : Ref sig .tc := ⟨.hbm, 91, rfl⟩
abbrev main_v45 : Ref sig .tc := ⟨.hbm, 92, rfl⟩
abbrev main_c_6 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_7 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_8 : Ref sig .tc := ⟨.hbm, 108, rfl⟩
abbrev main_v59 : Ref sig .tc := ⟨.hbm, 109, rfl⟩
abbrev main_cst_9 : Ref sig .tc := ⟨.hbm, 110, rfl⟩
abbrev main_v60 : Ref sig .tc := ⟨.hbm, 111, rfl⟩
abbrev main_v61 : Ref sig .tc := ⟨.hbm, 112, rfl⟩
abbrev main_c_10 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_cst_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_cst_1 : Ref sig .tc := ⟨.hbm, 124, rfl⟩
abbrev main_call3_v8 : Ref sig .tc := ⟨.hbm, 125, rfl⟩
abbrev main_call3_cst_2 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_cst_3 : Ref sig .tc := ⟨.hbm, 130, rfl⟩
abbrev main_call3_v12 : Ref sig .tc := ⟨.hbm, 131, rfl⟩
abbrev main_call3_cst_4 : Ref sig .tc := ⟨.hbm, 132, rfl⟩
abbrev main_call3_call0_v0 : Ref sig .tc := ⟨.hbm, 133, rfl⟩
abbrev main_call3_call0_v1 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_cst_11 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_call4_cst : Ref sig .tc := ⟨.hbm, 152, rfl⟩
abbrev main_call4_v0 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_call5_cst : Ref sig .tc := ⟨.hbm, 159, rfl⟩
abbrev main_call5_v0 : Ref sig .tc := ⟨.hbm, 160, rfl⟩
abbrev main_v83 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run, with every buffer named at the end.

  The program is twelve segments: stretches of host operations and four tiled kernel regions. Its buffer contents at
  each segment boundary form a chain from the launch memory — a host stretch applies its operations to the contents
  before it, a region replaces each of its output arrays by what its tiles wrote back and leaves the rest — and the
  last link of that chain is what memory holds when the program ends. Every weakly fair execution terminates there:
  each unscoped buffer of every core ends at the chain's last contents. The two results and the fourteen arguments
  are then read off that one statement.
-/
import proofs.«102369_j9122510537161_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and each unscoped buffer of each core
    ends at the last boundary's contents. -/
theorem ends_at_last : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run read at the two results and the fourteen arguments: the results at the last boundary's contents, the
    arguments as launched. -/
theorem results_at_last : θ_run defs (onTc (τ := τ) (main (F := F))) ⟨m, fun _ => 0, ρ⟩ (fun r => ∀ c : Dev nD,
      r.2.mem ((c.tc : Thread nD τ).loc main_v25) = W12 m ρ c (Proc.devRef .tc main_v25)
      ∧ r.2.mem ((c.tc : Thread nD τ).loc main_v47) = W12 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v25 (by decide)),
       h c _ (mem_uc main_v47 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)
    (ends_at_last m ρ)

end Cert.KernelIdeal.Run

end
-- ==== Proof.RefStages.lean ====
/-
  The whole-array stages of the reference computation, at the ideal instance (a float an extended real).

  One graph layer takes the node features x (50000 rows of 64 numbers) and the edge list (source and destination
  node of each of 800000 edges), and computes

    a   = the sum, into each destination node's row, of its edges' source rows of x        (`agg`)
    h   = (a + x) · W₁ + b₁                                                                (`lin`)
    μ   = the column means of h,   σ² = the column variances of h                           (`colMean`, `colVar`)
    out = max( max( (h − μ) · rsqrt(σ² + ε) · γ + β, 0 ) · W₂ + b₂, 0 )                      (`bnHead`)

  Each stage is written as the composition of the array operations that compute it, in their order: a
  per-column vector is first laid out as one row, then repeated down the 50000 rows; a scalar constant is
  repeated over the whole array. The network is two such layers, the second fed the first's output.
-/
import proofs.«102369_j9122510537161_1_alg».proof.Proof.Gen.ReferenceIdeal
import Idealize.ShloMosaic.PureOps.Ideal

noncomputable section

namespace Cert.ReferenceIdeal.RefValue

open Cert.ReferenceIdeal Idealize.ShloMosaic
open Cert.ReferenceIdeal.Facts₀

/-- Node features: 50000 rows of 64. -/
abbrev Nodes := (⟨S50000x64, .f32⟩ : BufTy).Contents (Elt Ideal)
/-- A 64 × 64 weight matrix. -/
abbrev Sq := (⟨S64x64, .f32⟩ : BufTy).Contents (Elt Ideal)
/-- A vector with one entry per column. -/
abbrev Col := (⟨S64, .f32⟩ : BufTy).Contents (Elt Ideal)
/-- The edge list: row 0 the sources, row 1 the destinations. -/
abbrev Edges := (⟨S2x800000, .i32⟩ : BufTy).Contents (Elt Ideal)
/-- One node index per edge. -/
abbrev Ends := (⟨S800000, .i32⟩ : BufTy).Contents (Elt Ideal)
/-- A per-column vector laid out as one row. -/
abbrev Row := (⟨S1x64, .f32⟩ : BufTy).Contents (Elt Ideal)
/-- A scalar. -/
abbrev Scal := (⟨S_, .f32⟩ : BufTy).Contents (Elt Ideal)

/-- The float zero, as a scalar. -/
def zeroS : Scal := constant (F := Ideal) S_ .f32 0x00000000#32
/-- The number of rows, 50000, as a float scalar. -/
def rowsS : Scal := constant (F := Ideal) S_ .f32 0x47435000#32
/-- The variance guard ε, as a scalar. -/
def epsS : Scal := constant (F := Ideal) S_ .f32 0x3727C5AC#32

/-- A per-column vector as one row. -/
def asRow (v : Col) : Row := broadcastInDim S1x64 ![1] bcast_S64_S1x64_1 v
/-- A one-row matrix repeated down all rows. -/
def downRows (r : Row) : Nodes := broadcastInDim S50000x64 ![0, 1] bcast_S1x64_S50000x64_0_1 r
/-- A per-column vector repeated down all rows. -/
def rowBcast (v : Col) : Nodes := downRows (asRow v)
/-- A scalar repeated over the whole node array. -/
def fillNodes (c : Scal) : Nodes := broadcastInDim S50000x64 ![] bcast_S_S50000x64 c
/-- A scalar repeated over the columns. -/
def fillCol (c : Scal) : Col := broadcastInDim S64 ![] bcast_S_S64 c

/-- The entrywise maximum with zero. -/
def relu (a : Nodes) : Nodes := maximumf (F := Ideal) (φ := .f32) a (fillNodes zeroS)

/-- The sources of the edges: row 0 of the edge list, as a vector. -/
def srcOf (ei : Edges) : Ends :=
  shapeCast S800000 (extractStridedSlice S1x800000 ![0, 0] ei slices_S2x800000_S1x800000_0_0) shapeCasts_S1x800000_S800000
/-- The destinations of the edges: row 1 of the edge list, as a vector. -/
def dstOf (ei : Edges) : Ends :=
  shapeCast S800000 (extractStridedSlice S1x800000 ![1, 0] ei slices_S2x800000_S1x800000_1_0) shapeCasts_S1x800000_S800000

/-- A negative node index counted from the end: 50000 is added to it. -/
def wrapIdx (s : Ends) : Ends :=
  select (cmpi .slt s (broadcastInDim S800000 ![] bcast_S_S800000 (constantI S_ 32 0#32)))
    (addi s (broadcastInDim S800000 ![] bcast_S_S800000 (constantI S_ 32 50000#32))) s

/-- One index per edge as a one-column table of indices. -/
def asIdxCol (s : Ends) : (⟨S800000x1, .i32⟩ : BufTy).Contents (Elt Ideal) :=
  broadcastInDim S800000x1 ![0] bcast_S800000_S800000x1_0 s

/-- Neighbour aggregation: the rows of x at the edges' sources, added into zero rows at the edges' destinations. -/
def agg (x : Nodes) (s d : Ends) : Nodes :=
  Host.scatterAdd (F := Ideal) (φ := .f32) scatter_S50000x64_S800000x1_S800000x64_1_0_0_1 (fillNodes zeroS) (asIdxCol d)
    (Host.gather gather_S50000x64_S800000x1_S800000x64_1_0_n_n_0_1_164 x (asIdxCol (wrapIdx s)))

/-- The column means: the column sums over all rows, divided by the number of rows. -/
def colMean (h : Nodes) : Col :=
  Host.divf (F := Ideal) (φ := .f32) (Host.reduceAdd (F := Ideal) (φ := .f32) h zeroS reducesTo_S50000x64_S64_d0 h_S_) (fillCol rowsS)

/-- The column means laid out as one row (computed at that layout). -/
def rowMean (h : Nodes) : Row :=
  Host.divf (F := Ideal) (φ := .f32) (asRow (Host.reduceAdd (F := Ideal) (φ := .f32) h zeroS reducesTo_S50000x64_S64_d0 h_S_)) (broadcastInDim S1x64 ![] bcast_S_S1x64 rowsS)

/-- The squared deviations of each entry from its column's mean. -/
def sqDev (h : Nodes) : Nodes := mulf (F := Ideal) (φ := .f32) (subf (F := Ideal) (φ := .f32) h (downRows (rowMean h))) (subf (F := Ideal) (φ := .f32) h (downRows (rowMean h)))

/-- The divisor of the variance: the number of rows less the correction 0. -/
def varDenom : Scal := subf (F := Ideal) (φ := .f32) rowsS (sitofp (F := Ideal) .f32 (constantI S_ 32 0#32))

/-- The column variances: the column sums of the squared deviations from the column means, divided by the number of
    rows (less a correction of 0); were that divisor not positive, the quiet not-a-number word would stand in
    every column instead. -/
def colVar (h : Nodes) : Col :=
  select (broadcastInDim S64 ![] bcast_S_S64 (cmpf (F := Ideal) (φ := .f32) .ogt varDenom zeroS))
    (Host.divf (F := Ideal) (φ := .f32) (Host.reduceAdd (F := Ideal) (φ := .f32) (sqDev h) zeroS reducesTo_S50000x64_S64_d0 h_S_) (fillCol varDenom))
    (fillCol (id (constant (F := Ideal) S_ .f32 0x7FC00000#32)))

/-- The first dense stage: (a + x) · W + b. -/
def lin (a x : Nodes) (W : Sq) (b : Col) : Nodes :=
  addf (F := Ideal) (φ := .f32) (Host.dotGeneral (F := Ideal) (φ₁ := .f32) (φ₂ := .f32) dot_S50000x64_S64x64_S50000x64_1_0_0_1_n_n none (addf (F := Ideal) (φ := .f32) a x) W) (rowBcast b)

/-- Normalisation by the column statistics, scale and shift, clamp at zero; then the second dense stage, clamped
    at zero. -/
def bnHead (h : Nodes) (mu var g be : Col) (W : Sq) (b : Col) : Nodes :=
  relu (addf (F := Ideal) (φ := .f32) (Host.dotGeneral (F := Ideal) (φ₁ := .f32) (φ₂ := .f32) dot_S50000x64_S64x64_S50000x64_1_0_0_1_n_n none
      (relu (addf (F := Ideal) (φ := .f32) (mulf (F := Ideal) (φ := .f32) (mulf (F := Ideal) (φ := .f32) (subf (F := Ideal) (φ := .f32) h (rowBcast mu)) (rowBcast (Host.rsqrt (F := Ideal) (φ := .f32) (addf (F := Ideal) (φ := .f32) var (fillCol epsS))))) (rowBcast g)) (rowBcast be)))
      W) (rowBcast b))

/-- One layer. -/
def layer (x : Nodes) (s d : Ends) (W1 : Sq) (b1 g be : Col) (W2 : Sq) (b2 : Col) : Nodes :=
  let h := lin (agg x s d) x W1 b1
  bnHead h (colMean h) (colVar h) g be W2 b2

end Cert.ReferenceIdeal.RefValue

end
-- ==== Proof.LibLineCuts.lean ====
/-
  A long straight line of host operations, evaluated in parts.

  The contents of a buffer after a straight line of operations, written as one term of the line's inputs, repeats
  every shared intermediate value at each of its uses, and a line that uses its stages several times each (a
  softmax of scores of features of neighbour sums …) gives a term too large to compare in one step. Two facts let
  such a line be evaluated stage by stage instead. A line run from a valuation is its second part run from where
  its first part ends (the library's `StableHlo.after_append`), so it can be cut wherever a stage ends, and each part evaluated from an ARBITRARY valuation
  that is only assumed to hold the earlier stages' values at the buffers the part reads. And the operations of an
  outlined function carry their values to each buffer's own type and back; the two carriages go along one
  equation between the two types and cancel, which leaves the plain operations' term.
-/
import Idealize.ShloMosaic.Lib.StableHlo.Run

namespace Cert.LibLineCuts

open Idealize.ShloMosaic Idealize.ShloMosaic.StableHlo

variable {τ : Topo} {sig : RefSig} {Val : EltTy → Type}

/-- Contents carried to a buffer's own type and back are the contents. -/
theorem ofBuf_toBuf {T : BufTy} (x : TRef sig T) (v : T.Contents Val) : x.ofBuf (x.toBuf v) = v := by
  obtain ⟨r, h, _, _⟩ := x
  subst h
  rfl

/-- Contents of a buffer carried to the value's type and back are the contents. -/
theorem toBuf_ofBuf {T : BufTy} (x : TRef sig T) (v : x.ref.ty.Contents Val) : x.toBuf (x.ofBuf v) = v := by
  obtain ⟨r, h, _, _⟩ := x
  subst h
  rfl

end Cert.LibLineCuts
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.KernelStages.lean ====
/-
  The host stretches of the idealized kernel program, read as the stages of a graph layer.

  Between its tiled regions the kernel program runs the same array operations as the reference: the edge list cut into
  sources and destinations, the neighbour sum (rows gathered at the sources and added into zero rows at the
  destinations), the column means and the column variances of a region's output, and the per-column vectors (biases,
  statistics, scale, shift) laid out as one-row matrices for the tiles to read. Each stretch is read here from an
  ARBITRARY valuation of the buffers: the buffer it computes holds the corresponding stage function of the buffers it
  reads, and the buffers it does not write keep their contents. The stage functions are the reference's own
  (the two programs' dimension records are the same literal data); the only difference is that the kernel lays a
  vector out as a row by a reshape where the reference broadcasts it, which gives the same row.
-/
import proofs.«102369_j9122510537161_1_alg».proof.Proof.Gen.KernelIdeal.Frame
import proofs.«102369_j9122510537161_1_alg».proof.Proof.RefStages
import proofs.«102369_j9122510537161_1_alg».proof.Proof.LibLineCuts
import proofs.«102369_j9122510537161_1_alg».proof.Proof.LibLayout
import Idealize.ShloMosaic.Lib.StableHlo.Run

set_option maxRecDepth 16384
set_option maxHeartbeats 800000

noncomputable section

namespace Cert.KernelIdeal.Stages

open Cert.KernelIdeal Cert.KernelIdeal.Gen Idealize.ShloMosaic Idealize.ShloMosaic.TcCoe Idealize.ShloMosaic.StableHlo
open Cert.ReferenceIdeal.RefValue (Nodes Sq Col Edges Ends Row agg srcOf dstOf colMean colVar asRow)

/-- A per-column vector viewed as a matrix of one row (by a reshape). -/
def rowOf (v : Col) : Row := shapeCast S1x64 v shapeCasts_S64_S1x64

/-- The reshaped row is the broadcast row. -/
theorem rowOf_eq_asRow (v : Col) : rowOf v = asRow v :=
  Cert.LibLayout.shapeCast_eq_broadcastInDim_row v _ _

variable (W : Valuation τ sig (Elt Ideal))

/-! ## Layer 1 -/

/-- The first stretch computes the neighbour sum of the node features. -/
theorem s0_v13 : after (hostOps0 (F := Ideal)) W (Proc.devRef .tc main_v13)
    = agg (W (Proc.devRef .tc main_arg0)) (srcOf (W (Proc.devRef .tc main_arg1))) (dstOf (W (Proc.devRef .tc main_arg1))) := by
  after_results
  rfl
/-- … lays the first bias out as a row, -/
theorem s0_v14 : after (hostOps0 (F := Ideal)) W (Proc.devRef .tc main_v14) = rowOf (W (Proc.devRef .tc main_arg3)) := by
  after_results
  rfl
/-- … and leaves the edges' sources and destinations in their own buffers. -/
theorem s0_v1 : after (hostOps0 (F := Ideal)) W (Proc.devRef .tc main_v1) = srcOf (W (Proc.devRef .tc main_arg1)) := by
  after_results
  rfl
theorem s0_v3 : after (hostOps0 (F := Ideal)) W (Proc.devRef .tc main_v3) = dstOf (W (Proc.devRef .tc main_arg1)) := by
  after_results
  rfl

/-- The column means of the first region's output, and the zero correction the variance is called with. -/
theorem s1_v18 : after (hostOps1 (F := Ideal)) W (Proc.devRef .tc main_v18) = colMean (W (Proc.devRef .tc main_v15)) := by
  after_results
  rfl
theorem s1_c3 : after (hostOps1 (F := Ideal)) W (Proc.devRef .tc main_c_3) = constantI S_ 32 0#32 := by
  after_results

/-- The column variances of the first region's output (the outlined variance, called with correction zero). -/
theorem s11_v19 (hc : W (Proc.devRef .tc main_c_3) = constantI S_ 32 0#32) :
    after (hostOps1_1 (F := Ideal)) W (Proc.devRef .tc main_v19) = colVar (W (Proc.devRef .tc main_v15)) := by
  after_results
  simp only [Cert.LibLineCuts.ofBuf_toBuf]
  rw [hc]
  rfl

/-- The statistics, the scale, the shift and the second bias laid out as rows. -/
theorem s12_v20 : after (hostOps1_2 (F := Ideal)) W (Proc.devRef .tc main_v20) = rowOf (W (Proc.devRef .tc main_v18)) := by
  after_results
  rfl
theorem s12_v21 : after (hostOps1_2 (F := Ideal)) W (Proc.devRef .tc main_v21) = rowOf (W (Proc.devRef .tc main_v19)) := by
  after_results
  rfl
theorem s12_v22 : after (hostOps1_2 (F := Ideal)) W (Proc.devRef .tc main_v22) = rowOf (W (Proc.devRef .tc main_arg4)) := by
  after_results
  rfl
theorem s12_v23 : after (hostOps1_2 (F := Ideal)) W (Proc.devRef .tc main_v23) = rowOf (W (Proc.devRef .tc main_arg5)) := by
  after_results
  rfl
theorem s12_v24 : after (hostOps1_2 (F := Ideal)) W (Proc.devRef .tc main_v24) = rowOf (W (Proc.devRef .tc main_arg7)) := by
  after_results
  rfl

/-! ## Layer 2: the same stretches on the first layer's output -/

theorem s2_v35 : after (hostOps2 (F := Ideal)) W (Proc.devRef .tc main_v35)
    = agg (W (Proc.devRef .tc main_v25)) (W (Proc.devRef .tc main_v1)) (W (Proc.devRef .tc main_v3)) := by
  after_results
  rfl
theorem s2_v36 : after (hostOps2 (F := Ideal)) W (Proc.devRef .tc main_v36) = rowOf (W (Proc.devRef .tc main_arg9)) := by
  after_results
  rfl

theorem s3_v40 : after (hostOps3 (F := Ideal)) W (Proc.devRef .tc main_v40) = colMean (W (Proc.devRef .tc main_v37)) := by
  after_results
  rfl
theorem s3_c9 : after (hostOps3 (F := Ideal)) W (Proc.devRef .tc main_c_9) = constantI S_ 32 0#32 := by
  after_results

theorem s31_v41 (hc : W (Proc.devRef .tc main_c_9) = constantI S_ 32 0#32) :
    after (hostOps3_1 (F := Ideal)) W (Proc.devRef .tc main_v41) = colVar (W (Proc.devRef .tc main_v37)) := by
  after_results
  simp only [Cert.LibLineCuts.ofBuf_toBuf]
  rw [hc]
  rfl

theorem s32_v42 : after (hostOps3_2 (F := Ideal)) W (Proc.devRef .tc main_v42) = rowOf (W (Proc.devRef .tc main_v40)) := by
  after_results
  rfl
theorem s32_v43 : after (hostOps3_2 (F := Ideal)) W (Proc.devRef .tc main_v43) = rowOf (W (Proc.devRef .tc main_v41)) := by
  after_results
  rfl
theorem s32_v44 : after (hostOps3_2 (F := Ideal)) W (Proc.devRef .tc main_v44) = rowOf (W (Proc.devRef .tc main_arg10)) := by
  after_results
  rfl
theorem s32_v45 : after (hostOps3_2 (F := Ideal)) W (Proc.devRef .tc main_v45) = rowOf (W (Proc.devRef .tc main_arg11)) := by
  after_results
  rfl
theorem s32_v46 : after (hostOps3_2 (F := Ideal)) W (Proc.devRef .tc main_v46) = rowOf (W (Proc.devRef .tc main_arg13)) := by
  after_results
  rfl

/-! ## A stretch changes only the buffers it writes

Each lemma lists the buffers its stretch writes (in the operations' order); any other buffer holds after the stretch
what it held before. -/

macro "only_written " ops:ident hb:ident : tactic => `(tactic|
  exact after_of_forall_not_mem _ _ (List.forall_iff_forall_mem.mp (by
    simp only [$ops:ident, List.Forall, nullary_writes, unary_writes, binary_writes, ternary_writes, quaternary_writes,
      reshape_writes, binaryIndexed_writes, Finset.mem_singleton]
    repeat' apply And.intro
    all_goals exact devRef_ne_of_ne (fun e => $hb (by subst e; decide)))))

theorem s0_keep (b : Ref sig .tc)
    (hb : b ∉ ([main_v0, main_v1, main_v2, main_v3, main_c, main_v4, main_v5, main_c_0, main_v6, main_v7, main_v8,
      main_v9, main_v10, main_cst, main_v11, main_v12, main_v13, main_v14] : List (Ref sig .tc))) :
    after (hostOps0 (F := Ideal)) W (Proc.devRef .tc b) = W (Proc.devRef .tc b) := by
  only_written hostOps0 hb

theorem s1_keep (b : Ref sig .tc)
    (hb : b ∉ ([main_cst_1, main_v16, main_cst_2, main_v17, main_v18, main_c_3] : List (Ref sig .tc))) :
    after (hostOps1 (F := Ideal)) W (Proc.devRef .tc b) = W (Proc.devRef .tc b) := by
  only_written hostOps1 hb

theorem s11_keep (b : Ref sig .tc)
    (hb : b ∉ ([main_call0_cst, main_call0_v0, main_call0_v1, main_call0_cst_0, main_call0_v2, main_call0_v3,
      main_call0_v4, main_call0_v5, main_call0_v6, main_call0_v7, main_call0_cst_1, main_call0_v8, main_call0_cst_2,
      main_call0_v9, main_call0_v10, main_call0_v11, main_call0_cst_3, main_call0_v12, main_call0_cst_4,
      main_call0_call0_v0, main_call0_call0_v1, main_v19] : List (Ref sig .tc))) :
    after (hostOps1_1 (F := Ideal)) W (Proc.devRef .tc b) = W (Proc.devRef .tc b) := by
  only_written hostOps1_1 hb

theorem s12_keep (b : Ref sig .tc)
    (hb : b ∉ ([main_v20, main_v21, main_v22, main_v23, main_v24] : List (Ref sig .tc))) :
    after (hostOps1_2 (F := Ideal)) W (Proc.devRef .tc b) = W (Proc.devRef .tc b) := by
  only_written hostOps1_2 hb

theorem s2_keep (b : Ref sig .tc)
    (hb : b ∉ ([main_c_4, main_v26, main_v27, main_c_5, main_v28, main_v29, main_v30, main_v31, main_v32, main_cst_6,
      main_v33, main_v34, main_v35, main_v36] : List (Ref sig .tc))) :
    after (hostOps2 (F := Ideal)) W (Proc.devRef .tc b) = W (Proc.devRef .tc b) := by
  only_written hostOps2 hb

theorem s3_keep (b : Ref sig .tc)
    (hb : b ∉ ([main_cst_7, main_v38, main_cst_8, main_v39, main_v40, main_c_9] : List (Ref sig .tc))) :
    after (hostOps3 (F := Ideal)) W (Proc.devRef .tc b) = W (Proc.devRef .tc b) := by
  only_written hostOps3 hb

theorem s31_keep (b : Ref sig .tc)
    (hb : b ∉ ([main_call1_cst, main_call1_v0, main_call1_v1, main_call1_cst_0, main_call1_v2, main_call1_v3,
      main_call1_v4, main_call1_v5, main_call1_v6, main_call1_v7, main_call1_cst_1, main_call1_v8, main_call1_cst_2,
      main_call1_v9, main_call1_v10, main_call1_v11, main_call1_cst_3, main_call1_v12, main_call1_cst_4,
      main_call1_call0_v0, main_call1_call0_v1, main_v41] : List (Ref sig .tc))) :
    after (hostOps3_1 (F := Ideal)) W (Proc.devRef .tc b) = W (Proc.devRef .tc b) := by
  only_written hostOps3_1 hb

theorem s32_keep (b : Ref sig .tc)
    (hb : b ∉ ([main_v42, main_v43, main_v44, main_v45, main_v46] : List (Ref sig .tc))) :
    after (hostOps3_2 (F := Ideal)) W (Proc.devRef .tc b) = W (Proc.devRef .tc b) := by
  only_written hostOps3_2 hb

end Cert.KernelIdeal.Stages

end
-- ==== Proof.Entries.lean ====
/-
  The two stages of one graph-isomorphism layer, written entry by entry over the extended reals.

  A layer takes the node features x (one row of 64 numbers per node), adds to each node's row the sum a of
  its in-neighbours' rows, and applies a two-layer perceptron with a batch normalisation in between:

    h(p, c)  = Σ_q (a(p, q) + x(p, q)) · W₁(q, c) + b₁(c)                       (`affine`)
    y(p, q)  = max( (h(p, q) − μ(q)) · rsqrt(σ²(q) + ε) · γ(q) + β(q), 0 )        (`normed`)
    out(p,c) = max( Σ_q y(p, q) · W₂(q, c) + b₂(c), 0 )                          (`head`)

  where μ and σ² are the column means and variances of h over all nodes. The per-column vectors
  (b₁, μ, σ², γ, β, b₂) are taken here as one-row matrices [1, 64], read at (0, q). Nothing here depends on the
  number of rows: the same formulas read a tile of rows and the whole array.
-/
import Idealize.ShloMosaic.Lib.ValueIdx
import Idealize.ShloMosaic.PureOps.Ideal

noncomputable section

open scoped BigOperators

namespace Cert.GinEntries

open Idealize.ShloMosaic Idealize.ShloMosaic.ValueIdx

/-- The variance guard ε of the normalisation: the single-precision word nearest to 10⁻⁵, read exactly. -/
def eps : EReal := Ideal.ofBits .f32 0x3727C5AC#32

variable {n : ℕ}

/-- Entry (p, c) of the first stage: the row `a(p, ·) + x(p, ·)` against column c of `W`, plus the bias `b(0, c)`. -/
def affine (a x : (⟨2, ![n, 64]⟩ : Shape).Idx → EReal) (W : (⟨2, ![64, 64]⟩ : Shape).Idx → EReal)
    (b : (⟨2, ![1, 64]⟩ : Shape).Idx → EReal) (p : Fin n) (c : Fin 64) : EReal :=
  (∑ q : Fin 64, (a (ix2 p q) + x (ix2 p q)) * W (ix2 q c)) + b (ix2 0 c)

/-- Entry (p, q) after normalising column q by its mean `mu` and variance `var`, scaling by `g`, shifting by `be`
    and clamping at zero. -/
def normed (h : (⟨2, ![n, 64]⟩ : Shape).Idx → EReal) (mu var g be : (⟨2, ![1, 64]⟩ : Shape).Idx → EReal)
    (p : Fin n) (q : Fin 64) : EReal :=
  max ((h (ix2 p q) - mu (ix2 0 q)) * Ideal.rsqrt (var (ix2 0 q) + eps) * g (ix2 0 q) + be (ix2 0 q)) 0

/-- Entry (p, c) of the second stage: the normalised row p against column c of `W`, plus the bias, clamped at zero. -/
def head (h : (⟨2, ![n, 64]⟩ : Shape).Idx → EReal) (mu var g be : (⟨2, ![1, 64]⟩ : Shape).Idx → EReal)
    (W : (⟨2, ![64, 64]⟩ : Shape).Idx → EReal) (b : (⟨2, ![1, 64]⟩ : Shape).Idx → EReal) (p : Fin n) (c : Fin 64) : EReal :=
  max ((∑ q : Fin 64, normed h mu var g be p q * W (ix2 q c)) + b (ix2 0 c)) 0

/-- The first stage as a whole array. -/
def affineArr (a x : (⟨2, ![n, 64]⟩ : Shape).Idx → EReal) (W : (⟨2, ![64, 64]⟩ : Shape).Idx → EReal)
    (b : (⟨2, ![1, 64]⟩ : Shape).Idx → EReal) : (⟨2, ![n, 64]⟩ : Shape).Idx → EReal :=
  fun i => affine a x W b (i 0) (i 1)

/-- The second stage as a whole array. -/
def headArr (h : (⟨2, ![n, 64]⟩ : Shape).Idx → EReal) (mu var g be : (⟨2, ![1, 64]⟩ : Shape).Idx → EReal)
    (W : (⟨2, ![64, 64]⟩ : Shape).Idx → EReal) (b : (⟨2, ![1, 64]⟩ : Shape).Idx → EReal) :
    (⟨2, ![n, 64]⟩ : Shape).Idx → EReal :=
  fun i => head h mu var g be W b (i 0) (i 1)

end Cert.GinEntries

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«102369_j9122510537161_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.AffineTile.lean ====
/-
  One tile of the first stage of a layer, entry by entry.

  The tile program adds the aggregated rows to the node rows, multiplies the sum by the weight matrix on the
  matrix unit into a zero accumulator, and adds the bias row to every row of the product.  Over the extended
  reals the change of format on the way into the product is the identity, the product at (r, c) is the sum
  over q of the left operand's (r, q) times the right operand's (q, c), and a one-row array spread over the
  tile's rows reads its entry c at (r, c).  So entry (r, c) of the tile is
  Σ_q (a(r, q) + x(r, q)) · W(q, c) + b(0, c): the first stage of the layer, whatever the number of rows.

  The first stage reads, for row r, only row r of the two row operands.  Hence a tile whose row r is row p of
  the whole arrays has, in its row r, row p of the first stage of the whole arrays (`affine_of_rows`).
-/
import proofs.«102369_j9122510537161_1_alg».proof.Proof.Gen.KernelIdeal.Skeleton
import proofs.«102369_j9122510537161_1_alg».proof.Proof.Entries
import proofs.«102369_j9122510537161_1_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.Tiles

open Idealize.ShloMosaic Idealize.ShloMosaic.ValueIdx
open Cert.KernelIdeal

/-- The origin of a two-axis block. -/
theorem origin2 : (![0, 0] : Fin 2 → Nat) = fun _ => 0 := funext fun a => by fin_cases a <;> rfl

/-- The printed dimension numbers of the tile's product are the plain ones: rows × 64 times 64 × 64. -/
theorem dot_tile_plain : dot_S5000x64_S64x64_S5000x64_1_0_0_1_n_n = DotDims.plain 5000 64 64 := rfl

/-- Entry (r, c) of the first layer's affine tile is the first stage's entry (r, c) of the four blocks it loads. -/
theorem affine_tile0 (x0 x1 : Vec Ideal S5000x64 .f32) (x2 : Vec Ideal S64x64 .f32) (x3 : Vec Ideal S1x64 .f32)
    (r : Fin 5000) (c : Fin 64) :
    Gen.k0_pay1 (F := Ideal) x0 x1 x2 x3 (ix2 r c) = GinEntries.affine x0 x1 x2 x3 r c := by
  unfold Gen.k0_pay1 GinEntries.affine
  refine (addf_apply _ _ _).trans ?_
  refine congrArg₂ (· + ·) ?_ ?_
  · refine (Cert.LibPlainDot.matmul_zero_apply _ dot_tile_plain none _ _ r c).trans ?_
    refine Finset.sum_congr rfl fun q _ => ?_
    refine congrArg₂ (· * ·) ?_ rfl
    show shapeCast S5000x64 x0 Gen.shapeCasts_S5000x64_S5000x64 (ix2 r q) + x1 (ix2 r q) = _
    rw [shapeCast_self]
  · refine (broadcastTo_1b_ab_apply _ _ r c).trans ?_
    rw [shapeCast_self]

/-- Entry (r, c) of the second layer's affine tile: the same first stage (the tile program differs by one more
    cast of a block to its own shape). -/
theorem affine_tile2 (x0 x1 : Vec Ideal S5000x64 .f32) (x2 : Vec Ideal S64x64 .f32) (x3 : Vec Ideal S1x64 .f32)
    (r : Fin 5000) (c : Fin 64) :
    Gen.k2_pay1 (F := Ideal) x0 x1 x2 x3 (ix2 r c) = GinEntries.affine x0 x1 x2 x3 r c := by
  unfold Gen.k2_pay1 GinEntries.affine
  refine (addf_apply _ _ _).trans ?_
  refine congrArg₂ (· + ·) ?_ ?_
  · refine (Cert.LibPlainDot.matmul_zero_apply _ dot_tile_plain none _ _ r c).trans ?_
    refine Finset.sum_congr rfl fun q _ => ?_
    refine congrArg₂ (· * ·) ?_ rfl
    show shapeCast S5000x64 x0 Gen.shapeCasts_S5000x64_S5000x64 (ix2 r q)
      + shapeCast S5000x64 x1 Gen.shapeCasts_S5000x64_S5000x64 (ix2 r q) = _
    rw [shapeCast_self, shapeCast_self]
  · refine (broadcastTo_1b_ab_apply _ _ r c).trans ?_
    rw [shapeCast_self]

/-- Row r of the first stage depends on row r of the two row operands only: if row r of a tile's row blocks is
    row p of the whole arrays, and the tile's weight and bias blocks are the whole weight and bias, then the tile's
    entry (r, c) is the whole arrays' entry (p, c). -/
theorem affine_of_rows {n k : ℕ}
    (x0 x1 : (⟨2, ![k, 64]⟩ : Shape).Idx → EReal) (x2 : (⟨2, ![64, 64]⟩ : Shape).Idx → EReal)
    (x3 : (⟨2, ![1, 64]⟩ : Shape).Idx → EReal)
    (A X : (⟨2, ![n, 64]⟩ : Shape).Idx → EReal) (W : (⟨2, ![64, 64]⟩ : Shape).Idx → EReal)
    (B : (⟨2, ![1, 64]⟩ : Shape).Idx → EReal) (r : Fin k) (p : Fin n)
    (h0 : ∀ q : Fin 64, x0 (ix2 r q) = A (ix2 p q)) (h1 : ∀ q : Fin 64, x1 (ix2 r q) = X (ix2 p q))
    (h2 : ∀ q c : Fin 64, x2 (ix2 q c) = W (ix2 q c)) (h3 : ∀ c : Fin 64, x3 (ix2 0 c) = B (ix2 0 c)) (c : Fin 64) :
    GinEntries.affine x0 x1 x2 x3 r c = GinEntries.affine A X W B p c := by
  unfold GinEntries.affine
  refine congrArg₂ (· + ·) (Finset.sum_congr rfl fun q _ => ?_) (h3 c)
  rw [h0 q, h1 q, h2 q c]

end Cert.KernelIdeal.Tiles

end
-- ==== Proof.AffineRegion0.lean ====
/-
  The first layer's affine stage, from row tiles to the whole array.

  The stage runs over ten tiles of 5000 rows.  At tile t the two row operands' blocks are rows 5000·t … 5000·t + 4999
  of their arrays, the weight and bias blocks are the whole weight matrix and the whole bias row, and the tile's
  result is written back to the same rows of the output.  Row r of a tile's result is the first stage's row
  5000·t + r of the whole arrays, because that row depends on the same row of the row operands only.  Every row p
  lies in tile p / 5000, and every tile is written back, so the output array ends holding the first stage of the
  arrays the stage finds on entry, whatever they hold.
-/
import proofs.«102369_j9122510537161_1_alg».proof.Proof.Gen.KernelIdeal.Frame
import proofs.«102369_j9122510537161_1_alg».proof.Proof.AffineTile

noncomputable section

namespace Cert.KernelIdeal.Tiles

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the ten tiles: the row operands' and the output's block index is (t, 0), the weight's
    and the bias's is (0, 0). -/
theorem tile_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row r of tile t's block of the aggregated rows is row 5000·t + r of the array. -/
theorem agg_block0 (c : Dev nD) (t : Fin cfg0.N) (r : Fin 5000) (q : Fin 64) (p : Fin 50000) (hp : p.val = t.val * 5000 + r.val) :
    (iblk0 V c 0 t : Vec Ideal S5000x64 .f32) (ix2 r q) = (V c main_v13 : S50000x64.Idx → EReal) (ix2 p q) := by
  obtain ⟨e0, e1, -⟩ := tile_index0 t
  show (V c main_v13 : S50000x64.Idx → EReal) (((cfg0.win 0).blk t).view.emb (ix2 r q)) = _
  refine congrArg (V c main_v13 : S50000x64.Idx → EReal) (funext fun a => Fin.ext ?_)
  match a with
  | ⟨0, _⟩ => show win0_0.index t (0 : Fin 2) * 5000 + 1 * r.val = p.val; rw [e0, hp]; omega
  | ⟨1, _⟩ => show win0_0.index t (1 : Fin 2) * 64 + 1 * q.val = q.val; rw [e1]; omega

/-- Row r of tile t's block of the node rows is row 5000·t + r of the array. -/
theorem node_block0 (c : Dev nD) (t : Fin cfg0.N) (r : Fin 5000) (q : Fin 64) (p : Fin 50000) (hp : p.val = t.val * 5000 + r.val) :
    (iblk0 V c 1 t : Vec Ideal S5000x64 .f32) (ix2 r q) = (V c main_arg0 : S50000x64.Idx → EReal) (ix2 p q) := by
  obtain ⟨-, -, e0, e1, -⟩ := tile_index0 t
  show (V c main_arg0 : S50000x64.Idx → EReal) (((cfg0.win 1).blk t).view.emb (ix2 r q)) = _
  refine congrArg (V c main_arg0 : S50000x64.Idx → EReal) (funext fun a => Fin.ext ?_)
  match a with
  | ⟨0, _⟩ => show win0_1.index t (0 : Fin 2) * 5000 + 1 * r.val = p.val; rw [e0, hp]; omega
  | ⟨1, _⟩ => show win0_1.index t (1 : Fin 2) * 64 + 1 * q.val = q.val; rw [e1]; omega

/-- Every tile's weight block is the whole weight matrix. -/
theorem weight_block0 (c : Dev nD) (t : Fin cfg0.N) (q k : Fin 64) :
    (iblk0 V c 2 t : Vec Ideal S64x64 .f32) (ix2 q k) = (V c main_arg2 : S64x64.Idx → EReal) (ix2 q k) := by
  obtain ⟨-, -, -, -, e0, e1, -⟩ := tile_index0 t
  show (V c main_arg2 : S64x64.Idx → EReal) (((cfg0.win 2).blk t).view.emb (ix2 q k)) = _
  refine congrArg (V c main_arg2 : S64x64.Idx → EReal) (funext fun a => Fin.ext ?_)
  match a with
  | ⟨0, _⟩ => show win0_2.index t (0 : Fin 2) * 64 + 1 * q.val = q.val; rw [e0]; omega
  | ⟨1, _⟩ => show win0_2.index t (1 : Fin 2) * 64 + 1 * k.val = k.val; rw [e1]; omega

/-- Every tile's bias block is the whole bias row. -/
theorem bias_block0 (c : Dev nD) (t : Fin cfg0.N) (k : Fin 64) :
    (iblk0 V c 3 t : Vec Ideal S1x64 .f32) (ix2 0 k) = (V c main_v14 : S1x64.Idx → EReal) (ix2 0 k) := by
  obtain ⟨-, -, -, -, -, -, e0, e1, -⟩ := tile_index0 t
  show (V c main_v14 : S1x64.Idx → EReal) (((cfg0.win 3).blk t).view.emb (ix2 0 k)) = _
  refine congrArg (V c main_v14 : S1x64.Idx → EReal) (funext fun a => Fin.ext ?_)
  match a with
  | ⟨0, _⟩ => show win0_3.index t (0 : Fin 2) * 1 + 1 * (0 : Fin 1).val = (0 : Fin 1).val; rw [e0]; rfl
  | ⟨1, _⟩ => show win0_3.index t (1 : Fin 2) * 64 + 1 * k.val = k.val; rw [e1]; omega

/-- What tile t writes back is block t of the first stage of the arrays the stage finds on entry. -/
theorem affine_flushed0 (c : Dev nD) (t : Fin cfg0.N) :
    (dat0 (F := Ideal) V c).flushed 4 t = ((cfg0.win 4).blk t).view.read (Elt Ideal)
      (GinEntries.affineArr (V c main_v13) (V c main_arg0) (V c main_arg2) (V c main_v14)) := by
  show (cfg0.win 4).cut (grid0.coords t) ((dat0 (F := Ideal) V c).after 4 t) = _
  rw [after0_4]
  unfold out0_4
  rw [View.canon_unit_zero origin2]
  simp only [View.ld_unit_zero (S := S5000x64) origin2, View.ld_unit_zero (S := S64x64) origin2,
    View.ld_unit_zero (S := S1x64) origin2]
  obtain ⟨-, -, -, -, -, -, -, -, e0, e1⟩ := tile_index0 t
  funext j
  obtain ⟨r, k, rfl⟩ : ∃ (r : Fin 5000) (k : Fin 64), j = ix2 r k := ⟨j 0, j 1, eq_ix2 j⟩
  have hp : ((((cfg0.win 4).blk t).view.emb (ix2 r k) : S50000x64.Idx) 0).val = t.val * 5000 + r.val := by
    show win0_4.index t (0 : Fin 2) * 5000 + 1 * r.val = _
    rw [e0]; omega
  have hk : (((cfg0.win 4).blk t).view.emb (ix2 r k) : S50000x64.Idx) 1 = k := Fin.ext (by
    show win0_4.index t (1 : Fin 2) * 64 + 1 * k.val = k.val
    rw [e1]; omega)
  show k0_pay1 (F := Ideal) (iblk0 V c 0 t) (iblk0 V c 1 t) (iblk0 V c 2 t) (iblk0 V c 3 t) (ix2 r k)
    = GinEntries.affine (V c main_v13) (V c main_arg0) (V c main_arg2) (V c main_v14)
        ((((cfg0.win 4).blk t).view.emb (ix2 r k) : S50000x64.Idx) 0) ((((cfg0.win 4).blk t).view.emb (ix2 r k) : S50000x64.Idx) 1)
  rw [hk]
  refine (affine_tile0 (iblk0 V c 0 t) (iblk0 V c 1 t) (iblk0 V c 2 t) (iblk0 V c 3 t) r k).trans ?_
  exact affine_of_rows (iblk0 V c 0 t) (iblk0 V c 1 t) (iblk0 V c 2 t) (iblk0 V c 3 t)
    (V c main_v13) (V c main_arg0) (V c main_arg2) (V c main_v14) r _
    (fun q => agg_block0 V c t r q _ hp) (fun q => node_block0 V c t r q _ hp)
    (fun q k' => weight_block0 V c t q k') (fun k' => bias_block0 V c t k') k

/-- An index of the output array is in tile t's block iff each coordinate is in the block's range on its axis. -/
theorem mem_tile0 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v15).slice (win0_4.rect t)).set ↔ _
  rw [View.set_slice_whole, Rect.mem_set_unit]
  exact Iff.rfl

/-- Row p of the output lies in tile p / 5000, and every tile is written back. -/
theorem tiles_cover0 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, -, -, -, -, e0, e1⟩ := tile_index0 t
  refine ⟨t, flush0_4 t, ?_⟩
  rw [mem_tile0]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 64 ≤ (i 1).val ∧ (i 1).val < win0_4.index t (1 : Fin 2) * 64 + 64
    rw [e1]; omega

/-- After the stage has run over its ten tiles, the output array holds the first stage of the arrays found on entry. -/
theorem region0_out (c : Dev nD) :
    (dat0 (F := Ideal) V c).arrAt 4 cfg0.N
      = GinEntries.affineArr (V c main_v13) (V c main_arg0) (V c main_arg2) (V c main_v14) :=
  (dat0 (F := Ideal) V c).arrAt_eq_of_cover 4
    (GinEntries.affineArr (V c main_v13) (V c main_arg0) (V c main_arg2) (V c main_v14))
    (fun t _ => affine_flushed0 V c t) tiles_cover0

end Cert.KernelIdeal.Tiles

end
-- ==== Proof.AffineRegion2.lean ====
/-
  The second layer's affine stage, from row tiles to the whole array.

  The stage runs over ten tiles of 5000 rows.  At tile t the two row operands' blocks are rows 5000·t … 5000·t + 4999
  of their arrays, the weight and bias blocks are the whole weight matrix and the whole bias row, and the tile's
  result is written back to the same rows of the output.  Row r of a tile's result is the first stage's row
  5000·t + r of the whole arrays, because that row depends on the same row of the row operands only.  Every row p
  lies in tile p / 5000, and every tile is written back, so the output array ends holding the first stage of the
  arrays the stage finds on entry, whatever they hold.
-/
import proofs.«102369_j9122510537161_1_alg».proof.Proof.Gen.KernelIdeal.Frame
import proofs.«102369_j9122510537161_1_alg».proof.Proof.AffineTile

noncomputable section

namespace Cert.KernelIdeal.Tiles

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the ten tiles: the row operands' and the output's block index is (t, 0), the weight's
    and the bias's is (0, 0). -/
theorem tile_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row r of tile t's block of the aggregated rows is row 5000·t + r of the array. -/
theorem agg_block2 (c : Dev nD) (t : Fin cfg2.N) (r : Fin 5000) (q : Fin 64) (p : Fin 50000) (hp : p.val = t.val * 5000 + r.val) :
    (iblk2 V c 0 t : Vec Ideal S5000x64 .f32) (ix2 r q) = (V c main_v35 : S50000x64.Idx → EReal) (ix2 p q) := by
  obtain ⟨e0, e1, -⟩ := tile_index2 t
  show (V c main_v35 : S50000x64.Idx → EReal) (((cfg2.win 0).blk t).view.emb (ix2 r q)) = _
  refine congrArg (V c main_v35 : S50000x64.Idx → EReal) (funext fun a => Fin.ext ?_)
  match a with
  | ⟨0, _⟩ => show win2_0.index t (0 : Fin 2) * 5000 + 1 * r.val = p.val; rw [e0, hp]; omega
  | ⟨1, _⟩ => show win2_0.index t (1 : Fin 2) * 64 + 1 * q.val = q.val; rw [e1]; omega

/-- Row r of tile t's block of the node rows (the first layer's output) is row 5000·t + r of the array. -/
theorem node_block2 (c : Dev nD) (t : Fin cfg2.N) (r : Fin 5000) (q : Fin 64) (p : Fin 50000) (hp : p.val = t.val * 5000 + r.val) :
    (iblk2 V c 1 t : Vec Ideal S5000x64 .f32) (ix2 r q) = (V c main_v25 : S50000x64.Idx → EReal) (ix2 p q) := by
  obtain ⟨-, -, e0, e1, -⟩ := tile_index2 t
  show (V c main_v25 : S50000x64.Idx → EReal) (((cfg2.win 1).blk t).view.emb (ix2 r q)) = _
  refine congrArg (V c main_v25 : S50000x64.Idx → EReal) (funext fun a => Fin.ext ?_)
  match a with
  | ⟨0, _⟩ => show win2_1.index t (0 : Fin 2) * 5000 + 1 * r.val = p.val; rw [e0, hp]; omega
  | ⟨1, _⟩ => show win2_1.index t (1 : Fin 2) * 64 + 1 * q.val = q.val; rw [e1]; omega

/-- Every tile's weight block is the whole weight matrix. -/
theorem weight_block2 (c : Dev nD) (t : Fin cfg2.N) (q k : Fin 64) :
    (iblk2 V c 2 t : Vec Ideal S64x64 .f32) (ix2 q k) = (V c main_arg8 : S64x64.Idx → EReal) (ix2 q k) := by
  obtain ⟨-, -, -, -, e0, e1, -⟩ := tile_index2 t
  show (V c main_arg8 : S64x64.Idx → EReal) (((cfg2.win 2).blk t).view.emb (ix2 q k)) = _
  refine congrArg (V c main_arg8 : S64x64.Idx → EReal) (funext fun a => Fin.ext ?_)
  match a with
  | ⟨0, _⟩ => show win2_2.index t (0 : Fin 2) * 64 + 1 * q.val = q.val; rw [e0]; omega
  | ⟨1, _⟩ => show win2_2.index t (1 : Fin 2) * 64 + 1 * k.val = k.val; rw [e1]; omega

/-- Every tile's bias block is the whole bias row. -/
theorem bias_block2 (c : Dev nD) (t : Fin cfg2.N) (k : Fin 64) :
    (iblk2 V c 3 t : Vec Ideal S1x64 .f32) (ix2 0 k) = (V c main_v36 : S1x64.Idx → EReal) (ix2 0 k) := by
  obtain ⟨-, -, -, -, -, -, e0, e1, -⟩ := tile_index2 t
  show (V c main_v36 : S1x64.Idx → EReal) (((cfg2.win 3).blk t).view.emb (ix2 0 k)) = _
  refine congrArg (V c main_v36 : S1x64.Idx → EReal) (funext fun a => Fin.ext ?_)
  match a with
  | ⟨0, _⟩ => show win2_3.index t (0 : Fin 2) * 1 + 1 * (0 : Fin 1).val = (0 : Fin 1).val; rw [e0]; rfl
  | ⟨1, _⟩ => show win2_3.index t (1 : Fin 2) * 64 + 1 * k.val = k.val; rw [e1]; omega

/-- What tile t writes back is block t of the first stage of the arrays the stage finds on entry. -/
theorem affine_flushed2 (c : Dev nD) (t : Fin cfg2.N) :
    (dat2 (F := Ideal) V c).flushed 4 t = ((cfg2.win 4).blk t).view.read (Elt Ideal)
      (GinEntries.affineArr (V c main_v35) (V c main_v25) (V c main_arg8) (V c main_v36)) := by
  show (cfg2.win 4).cut (grid2.coords t) ((dat2 (F := Ideal) V c).after 4 t) = _
  rw [after2_4]
  unfold out2_4
  rw [View.canon_unit_zero origin2]
  simp only [View.ld_unit_zero (S := S5000x64) origin2, View.ld_unit_zero (S := S64x64) origin2,
    View.ld_unit_zero (S := S1x64) origin2]
  obtain ⟨-, -, -, -, -, -, -, -, e0, e1⟩ := tile_index2 t
  funext j
  obtain ⟨r, k, rfl⟩ : ∃ (r : Fin 5000) (k : Fin 64), j = ix2 r k := ⟨j 0, j 1, eq_ix2 j⟩
  have hp : ((((cfg2.win 4).blk t).view.emb (ix2 r k) : S50000x64.Idx) 0).val = t.val * 5000 + r.val := by
    show win2_4.index t (0 : Fin 2) * 5000 + 1 * r.val = _
    rw [e0]; omega
  have hk : (((cfg2.win 4).blk t).view.emb (ix2 r k) : S50000x64.Idx) 1 = k := Fin.ext (by
    show win2_4.index t (1 : Fin 2) * 64 + 1 * k.val = k.val
    rw [e1]; omega)
  show k2_pay1 (F := Ideal) (iblk2 V c 0 t) (iblk2 V c 1 t) (iblk2 V c 2 t) (iblk2 V c 3 t) (ix2 r k)
    = GinEntries.affine (V c main_v35) (V c main_v25) (V c main_arg8) (V c main_v36)
        ((((cfg2.win 4).blk t).view.emb (ix2 r k) : S50000x64.Idx) 0) ((((cfg2.win 4).blk t).view.emb (ix2 r k) : S50000x64.Idx) 1)
  rw [hk]
  refine (affine_tile2 (iblk2 V c 0 t) (iblk2 V c 1 t) (iblk2 V c 2 t) (iblk2 V c 3 t) r k).trans ?_
  exact affine_of_rows (iblk2 V c 0 t) (iblk2 V c 1 t) (iblk2 V c 2 t) (iblk2 V c 3 t)
    (V c main_v35) (V c main_v25) (V c main_arg8) (V c main_v36) r _
    (fun q => agg_block2 V c t r q _ hp) (fun q => node_block2 V c t r q _ hp)
    (fun q k' => weight_block2 V c t q k') (fun k' => bias_block2 V c t k') k

/-- An index of the output array is in tile t's block iff each coordinate is in the block's range on its axis. -/
theorem mem_tile2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v37).slice (win2_4.rect t)).set ↔ _
  rw [View.set_slice_whole, Rect.mem_set_unit]
  exact Iff.rfl

/-- Row p of the output lies in tile p / 5000, and every tile is written back. -/
theorem tiles_cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, -, -, -, -, e0, e1⟩ := tile_index2 t
  refine ⟨t, flush2_4 t, ?_⟩
  rw [mem_tile2]
  intro a
  match a with
  | ⟨0, _⟩ =>
    show win2_4.index t (0 : Fin 2) * 5000 ≤ (i 0).val ∧ (i 0).val < win2_4.index t (0 : Fin 2) * 5000 + 5000
    rw [e0, ht]; omega
  | ⟨1, _⟩ =>
    show win2_4.index t (1 : Fin 2) * 64 ≤ (i 1).val ∧ (i 1).val < win2_4.index t (1 : Fin 2) * 64 + 64
    rw [e1]; omega

/-- After the stage has run over its ten tiles, the output array holds the first stage of the arrays found on entry. -/
theorem region2_out (c : Dev nD) :
    (dat2 (F := Ideal) V c).arrAt 4 cfg2.N
      = GinEntries.affineArr (V c main_v35) (V c main_v25) (V c main_arg8) (V c main_v36) :=
  (dat2 (F := Ideal) V c).arrAt_eq_of_cover 4
    (GinEntries.affineArr (V c main_v35) (V c main_v25) (V c main_arg8) (V c main_v36))
    (fun t _ => affine_flushed2 V c t) tiles_cover2

end Cert.KernelIdeal.Tiles

end
-- ==== Proof.HeadTile.lean ====
/-
  One tile of a layer's second stage, read entry by entry.

  A tile holds 5000 rows of the stage's input h.  The body first normalises each column q of the tile by the
  column's mean and variance (one-row arrays spread over the tile's rows), scales, shifts and clamps at zero;
  then multiplies the result by the 64 × 64 weights into a zero accumulator, adds the bias row and clamps at
  zero again.  Over the extended reals every one of these operations is the exact one at each entry, a change
  of number format is the identity, and the product into the zero accumulator is the plain sum over the
  contracted index: so entry (r, c) of what the body stores is the specification's `head` at (r, c) of the tile.
-/
import proofs.«102369_j9122510537161_1_alg».proof.Proof.Gen.KernelIdeal.Skeleton
import proofs.«102369_j9122510537161_1_alg».proof.Proof.Entries
import proofs.«102369_j9122510537161_1_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.Heads

open Idealize.ShloMosaic Idealize.ShloMosaic.ValueIdx Cert.KernelIdeal Cert.KernelIdeal.Gen

/-- The printed dimension numbers of the tile's product are the plain ones: rows × inner times inner × columns. -/
theorem dot_eq_plain : dot_S5000x64_S64x64_S5000x64_1_0_0_1_n_n = DotDims.plain 5000 64 64 := rfl

/-- The tile before the product: every column normalised, scaled, shifted and clamped at zero. -/
def normedTile (x0 : Vec Ideal S5000x64 .f32) (x1 x2 x3 x4 : Vec Ideal S1x64 .f32) : FVec Ideal S5000x64 .f32 :=
  maximumf
    (addf
      (mulf
        (mulf (subf (shapeCast S5000x64 x0 shapeCasts_S5000x64_S5000x64)
            (broadcastTo S5000x64 (shapeCast S1x64 x1 shapeCasts_S1x64_S1x64) broadcasts_S1x64_S5000x64))
          (broadcastTo S5000x64
            (rsqrt (addf (shapeCast S1x64 x2 shapeCasts_S1x64_S1x64) (broadcast S1x64 (Scalar.ofBits (F := Ideal) .f32 0x3727C5AC#32))))
            broadcasts_S1x64_S5000x64))
        (broadcastTo S5000x64 (shapeCast S1x64 x3 shapeCasts_S1x64_S1x64) broadcasts_S1x64_S5000x64))
      (broadcastTo S5000x64 (shapeCast S1x64 x4 shapeCasts_S1x64_S1x64) broadcasts_S1x64_S5000x64))
    (broadcast S5000x64 (Scalar.ofBits (F := Ideal) .f32 0x00000000#32))

set_option maxHeartbeats 50000 in
/-- Entry (r, q) of the tile before the product is the specification's normalised entry. -/
theorem normedTile_apply (x0 : Vec Ideal S5000x64 .f32) (x1 x2 x3 x4 : Vec Ideal S1x64 .f32) (r : Fin 5000) (q : Fin 64) :
    normedTile x0 x1 x2 x3 x4 (ix2 r q) = GinEntries.normed x0 x1 x2 x3 x4 r q := by
  unfold normedTile GinEntries.normed
  simp only [shapeCast_self]
  show max ((x0 (ix2 r q) - broadcastTo S5000x64 x1 broadcasts_S1x64_S5000x64 (ix2 r q))
        * broadcastTo S5000x64 (rsqrt (addf x2 (broadcast S1x64 (Scalar.ofBits (F := Ideal) .f32 0x3727C5AC#32)))) broadcasts_S1x64_S5000x64 (ix2 r q)
        * broadcastTo S5000x64 x3 broadcasts_S1x64_S5000x64 (ix2 r q)
        + broadcastTo S5000x64 x4 broadcasts_S1x64_S5000x64 (ix2 r q)) (Ideal.ofBits .f32 0x00000000#32) = _
  rw [broadcastTo_1b_ab_apply, broadcastTo_1b_ab_apply, broadcastTo_1b_ab_apply, broadcastTo_1b_ab_apply, Ideal.ofBits_zero_f32]
  rfl

set_option maxHeartbeats 50000 in
/-- The body's stored value is the product of the normalised tile with the weights, plus the bias row, clamped. -/
theorem pay_eq (x0 : Vec Ideal S5000x64 .f32) (x1 x2 x3 x4 : Vec Ideal S1x64 .f32) (x5 : Vec Ideal S64x64 .f32) (x6 : Vec Ideal S1x64 .f32) :
    k1_pay1 x0 x1 x2 x3 x4 x5 x6
      = maximumf
          (addf
            (matmul dot_S5000x64_S64x64_S5000x64_1_0_0_1_n_n none (truncf .bf16 (normedTile x0 x1 x2 x3 x4) bitsLt_bf16_f32)
              (truncf .bf16 x5 bitsLt_bf16_f32) (constant (F := Ideal) S5000x64 .f32 0x00000000#32))
            (broadcastTo S5000x64 (shapeCast S1x64 x6 shapeCasts_S1x64_S1x64) broadcasts_S1x64_S5000x64))
          (broadcast S5000x64 (Scalar.ofBits (F := Ideal) .f32 0x00000000#32)) := rfl

set_option maxHeartbeats 50000 in
/-- Entry (r, c) of what the body stores is the specification's second stage at (r, c) of the tile. -/
theorem pay_apply (x0 : Vec Ideal S5000x64 .f32) (x1 x2 x3 x4 : Vec Ideal S1x64 .f32) (x5 : Vec Ideal S64x64 .f32) (x6 : Vec Ideal S1x64 .f32)
    (r : Fin 5000) (c : Fin 64) :
    k1_pay1 x0 x1 x2 x3 x4 x5 x6 (ix2 r c) = GinEntries.head x0 x1 x2 x3 x4 x5 x6 r c := by
  rw [pay_eq]
  unfold GinEntries.head
  simp only [shapeCast_self]
  show max (FloatOps.matmul dot_S5000x64_S64x64_S5000x64_1_0_0_1_n_n none (truncf .bf16 (normedTile x0 x1 x2 x3 x4) bitsLt_bf16_f32)
        (truncf .bf16 x5 bitsLt_bf16_f32) (constant (F := Ideal) S5000x64 .f32 0x00000000#32) (ix2 r c)
      + broadcastTo S5000x64 x6 broadcasts_S1x64_S5000x64 (ix2 r c)) (Ideal.ofBits .f32 0x00000000#32) = _
  rw [broadcastTo_1b_ab_apply, Ideal.ofBits_zero_f32,
    Cert.LibPlainDot.matmul_zero_apply _ dot_eq_plain]
  refine congrArg (fun s => max (s + x6 (ix2 (0 : Fin 1) c)) 0) (Finset.sum_congr rfl fun q _ => ?_)
  show normedTile x0 x1 x2 x3 x4 (ix2 r q) * x5 (ix2 q c) = _
  rw [normedTile_apply]

/-- The second layer's stage-two body is the first layer's, operation for operation. -/
theorem pay3_eq_pay1 : @k3_pay1 Ideal _ = @k1_pay1 Ideal _ := rfl

/-- So entry (r, c) of what the second layer's body stores is the specification's second stage at (r, c) of its tile. -/
theorem pay3_apply (x0 : Vec Ideal S5000x64 .f32) (x1 x2 x3 x4 : Vec Ideal S1x64 .f32) (x5 : Vec Ideal S64x64 .f32) (x6 : Vec Ideal S1x64 .f32)
    (r : Fin 5000) (c : Fin 64) :
    k3_pay1 x0 x1 x2 x3 x4 x5 x6 (ix2 r c) = GinEntries.head x0 x1 x2 x3 x4 x5 x6 r c := by
  rw [pay3_eq_pay1]
  exact pay_apply x0 x1 x2 x3 x4 x5 x6 r c

/-- The body's loads and its one store go through the whole buffer: the rectangle at offsets (0, 0). -/
theorem zero_offsets : (![0, 0] : Fin 2 → Nat) = fun _ => 0 := funext fun a => by fin_cases a <;> rfl

set_option maxHeartbeats 50000 in
/-- An entry of the second stage depends on its own row of h only: a tile that holds, at its row r, row p of the whole
    input has at (r, c) the whole array's second stage at (p, c). -/
theorem head_of_row {n k : ℕ} (x0 : (⟨2, ![n, 64]⟩ : Shape).Idx → EReal) (a0 : (⟨2, ![k, 64]⟩ : Shape).Idx → EReal)
    (x1 x2 x3 x4 a1 a2 a3 a4 : (⟨2, ![1, 64]⟩ : Shape).Idx → EReal) (x5 a5 : (⟨2, ![64, 64]⟩ : Shape).Idx → EReal)
    (x6 a6 : (⟨2, ![1, 64]⟩ : Shape).Idx → EReal) (r : Fin n) (p : Fin k) (c c' : Fin 64)
    (h0 : ∀ q : Fin 64, x0 (ix2 r q) = a0 (ix2 p q)) (h1 : x1 = a1) (h2 : x2 = a2) (h3 : x3 = a3) (h4 : x4 = a4)
    (h5 : x5 = a5) (h6 : x6 = a6) (hc : c = c') :
    GinEntries.head x0 x1 x2 x3 x4 x5 x6 r c = GinEntries.head a0 a1 a2 a3 a4 a5 a6 p c' := by
  subst h1 h2 h3 h4 h5 h6 hc
  unfold GinEntries.head GinEntries.normed
  simp only [h0]

end Cert.KernelIdeal.Heads

end
-- ==== Proof.Head1Array.lean ====
/-
  The first layer's second stage, from tiles to the whole array.

  The stage runs over ten tiles of 5000 rows.  At tile t the body reads rows 5000·t … 5000·t + 4999 of its input h
  and the whole of the six small arrays (mean, variance, scale, shift, weights, bias), and writes rows
  5000·t … 5000·t + 4999 of the output.  By the tile's entry-by-entry reading, what it writes at row r of the tile is
  the specification's second stage at row 5000·t + r of the whole input: an entry of the second stage depends on
  its own row of h only.  The ten tiles cover every row (row p lies in tile p / 5000), so the output array ends as
  the specification's second stage of the arrays the stage found.
-/
import proofs.«102369_j9122510537161_1_alg».proof.Proof.Gen.KernelIdeal.Frame
import proofs.«102369_j9122510537161_1_alg».proof.Proof.HeadTile
import Idealize.ShloMosaic.Lib.Pipeline.Value

noncomputable section

open scoped BigOperators

namespace Cert.KernelIdeal.Heads

open Idealize.ShloMosaic Idealize.ShloMosaic.TcCoe Idealize.ShloMosaic.ValueIdx Idealize.SL.Sem
open Idealize.ShloMosaic.Pipeline (Dat)
open Cert.KernelIdeal Cert.KernelIdeal.Gen

set_option maxHeartbeats 50000 in
/-- What the body leaves in the output's buffer, from the blocks it read: the second stage of the tile, entry by entry. -/
theorem out1_eq (x0 : Vec Ideal S5000x64 .f32) (x1 x2 x3 x4 : Vec Ideal S1x64 .f32) (x5 : Vec Ideal S64x64 .f32) (x6 : Vec Ideal S1x64 .f32) :
    out1_7 x0 x1 x2 x3 x4 x5 x6 = fun j => GinEntries.head x0 x1 x2 x3 x4 x5 x6 (j 0) (j 1) := by
  unfold out1_7
  rw [View.canon_unit_zero zero_offsets]
  simp only [View.ld_unit_zero (S := S5000x64) zero_offsets, View.ld_unit_zero (S := S1x64) zero_offsets,
    View.ld_unit_zero (S := S64x64) zero_offsets]
  funext j
  obtain ⟨r, q, rfl⟩ : ∃ (r : Fin 5000) (q : Fin 64), j = ix2 r q := ⟨j 0, j 1, eq_ix2 j⟩
  exact pay_apply x0 x1 x2 x3 x4 x5 x6 r q

/-- The printed index maps, decided over the ten tiles: the input h moves with the output, tile t at block row t, block
    column 0; each small array sits at block (0, 0) at every tile. -/
theorem idx_facts1 : ∀ t : Fin cfg1.N, win1_7.index t (0 : Fin 2) = t.val ∧ win1_7.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

variable (V : (c : Dev nD) → (b : Ref sig .tc) → Buf (Elt Ideal) ((c : Thread nD τ).loc b))

set_option maxHeartbeats 50000 in
/-- Row r of the input's block at tile t is row 5000·t + r of the input h. -/
theorem iblk1_0_apply (c : Dev nD) (t : Fin cfg1.N) (r : Fin 5000) (q : Fin 64) (p : Fin 50000) (hp : p.val = 5000 * t.val + r.val) :
    (iblk1 V c 0 t : Vec Ideal S5000x64 .f32) (ix2 r q) = (V c main_v15 : S50000x64.Idx → EReal) (ix2 p q) := by
  obtain ⟨e70, e71, e00, e01, -⟩ := idx_facts1 t
  unfold iblk1
  rw [View.read_apply]
  show V c main_v15 _ = V c main_v15 _
  refine congrArg (V c main_v15) (funext fun a => Fin.ext ?_)
  match a with
  | ⟨0, _⟩ => show win1_0.index t (0 : Fin 2) * 5000 + 1 * r.val = p.val; rw [e00, hp]; omega
  | ⟨1, _⟩ => show win1_0.index t (1 : Fin 2) * 64 + 1 * q.val = q.val; rw [e01]; omega

set_option maxHeartbeats 50000 in
/-- The stage reads the whole of `main_v20` at every tile. -/
theorem iblk1_1_eq (c : Dev nD) (t : Fin cfg1.N) : (iblk1 V c 1 t : Vec Ideal S1x64 .f32) = V c main_v20 := by
  obtain ⟨e70, e71, e00, e01, e10, e11, e20, e21, e30, e31, e40, e41, e50, e51, e60, e61⟩ := idx_facts1 t
  funext y
  unfold iblk1
  rw [View.read_apply]
  show V c main_v20 _ = V c main_v20 y
  refine congrArg (V c main_v20) (funext fun a => Fin.ext ?_)
  match a with
  | ⟨0, _⟩ => show win1_1.index t (0 : Fin 2) * 1 + 1 * (y 0).val = (y 0).val; rw [e10]; omega
  | ⟨1, _⟩ => show win1_1.index t (1 : Fin 2) * 64 + 1 * (y 1).val = (y 1).val; rw [e11]; omega

set_option maxHeartbeats 50000 in
/-- The stage reads the whole of `main_v21` at every tile. -/
theorem iblk1_2_eq (c : Dev nD) (t : Fin cfg1.N) : (iblk1 V c 2 t : Vec Ideal S1x64 .f32) = V c main_v21 := by
  obtain ⟨e70, e71, e00, e01, e10, e11, e20, e21, e30, e31, e40, e41, e50, e51, e60, e61⟩ := idx_facts1 t
  funext y
  unfold iblk1
  rw [View.read_apply]
  show V c main_v21 _ = V c main_v21 y
  refine congrArg (V c main_v21) (funext fun a => Fin.ext ?_)
  match a with
  | ⟨0, _⟩ => show win1_2.index t (0 : Fin 2) * 1 + 1 * (y 0).val = (y 0).val; rw [e20]; omega
  | ⟨1, _⟩ => show win1_2.index t (1 : Fin 2) * 64 + 1 * (y 1).val = (y 1).val; rw [e21]; omega

set_option maxHeartbeats 50000 in
/-- The stage reads the whole of `main_v22` at every tile. -/
theorem iblk1_3_eq (c : Dev nD) (t : Fin cfg1.N) : (iblk1 V c 3 t : Vec Ideal S1x64 .f32) = V c main_v22 := by
  obtain ⟨e70, e71, e00, e01, e10, e11, e20, e21, e30, e31, e40, e41, e50, e51, e60, e61⟩ := idx_facts1 t
  funext y
  unfold iblk1
  rw [View.read_apply]
  show V c main_v22 _ = V c main_v22 y
  refine congrArg (V c main_v22) (funext fun a => Fin.ext ?_)
  match a with
  | ⟨0, _⟩ => show win1_3.index t (0 : Fin 2) * 1 + 1 * (y 0).val = (y 0).val; rw [e30]; omega
  | ⟨1, _⟩ => show win1_3.index t (1 : Fin 2) * 64 + 1 * (y 1).val = (y 1).val; rw [e31]; omega

set_option maxHeartbeats 50000 in
/-- The stage reads the whole of `main_v23` at every tile. -/
theorem iblk1_4_eq (c : Dev nD) (t : Fin cfg1.N) : (iblk1 V c 4 t : Vec Ideal S1x64 .f32) = V c main_v23 := by
  obtain ⟨e70, e71, e00, e01, e10, e11, e20, e21, e30, e31, e40, e41, e50, e51, e60, e61⟩ := idx_facts1 t
  funext y
  unfold iblk1
  rw [View.read_apply]
  show V c main_v23 _ = V c main_v23 y
  refine congrArg (V c main_v23) (funext fun a => Fin.ext ?_)
  match a with
  | ⟨0, _⟩ => show win1_4.index t (0 : Fin 2) * 1 + 1 * (y 0).val = (y 0).val; rw [e40]; omega
  | ⟨1, _⟩ => show win1_4.index t (1 : Fin 2) * 64 + 1 * (y 1).val = (y 1).val; rw [e41]; omega

set_option maxHeartbeats 50000 in
/-- The stage reads the whole of `main_arg6` at every tile. -/
theorem iblk1_5_eq (c : Dev nD) (t : Fin cfg1.N) : (iblk1 V c 5 t : Vec Ideal S64x64 .f32) = V c main_arg6 := by
  obtain ⟨e70, e71, e00, e01, e10, e11, e20, e21, e30, e31, e40, e41, e50, e51, e60, e61⟩ := idx_facts1 t
  funext y
  unfold iblk1
  rw [View.read_apply]
  show V c main_arg6 _ = V c main_arg6 y
  refine congrArg (V c main_arg6) (funext fun a => Fin.ext ?_)
  match a with
  | ⟨0, _⟩ => show win1_5.index t (0 : Fin 2) * 64 + 1 * (y 0).val = (y 0).val; rw [e50]; omega
  | ⟨1, _⟩ => show win1_5.index t (1 : Fin 2) * 64 + 1 * (y 1).val = (y 1).val; rw [e51]; omega

set_option maxHeartbeats 50000 in
/-- The stage reads the whole of `main_v24` at every tile. -/
theorem iblk1_6_eq (c : Dev nD) (t : Fin cfg1.N) : (iblk1 V c 6 t : Vec Ideal S1x64 .f32) = V c main_v24 := by
  obtain ⟨e70, e71, e00, e01, e10, e11, e20, e21, e30, e31, e40, e41, e50, e51, e60, e61⟩ := idx_facts1 t
  funext y
  unfold iblk1
  rw [View.read_apply]
  show V c main_v24 _ = V c main_v24 y
  refine congrArg (V c main_v24) (funext fun a => Fin.ext ?_)
  match a with
  | ⟨0, _⟩ => show win1_6.index t (0 : Fin 2) * 1 + 1 * (y 0).val = (y 0).val; rw [e60]; omega
  | ⟨1, _⟩ => show win1_6.index t (1 : Fin 2) * 64 + 1 * (y 1).val = (y 1).val; rw [e61]; omega

set_option maxHeartbeats 100000 in
/-- What tile t writes back is block t of the second stage of the arrays the stage found. -/
theorem flushed1_eq (c : Dev nD) (t : Fin cfg1.N) :
    (dat1 (F := Ideal) V c).flushed 7 t = ((cfg1.win 7).blk t).view.read (Elt Ideal)
      (GinEntries.headArr (V c main_v15) (V c main_v20) (V c main_v21) (V c main_v22) (V c main_v23) (V c main_arg6) (V c main_v24)) := by
  show (cfg1.win 7).cut (grid1.coords t) ((dat1 (F := Ideal) V c).after 7 t) = _
  rw [after1_7, out1_eq]
  obtain ⟨e70, e71, -⟩ := idx_facts1 t
  funext j
  rw [View.read_apply]
  refine head_of_row (n := 5000) (k := 50000) (iblk1 V c 0 t) (V c main_v15)
    (iblk1 V c 1 t) (iblk1 V c 2 t) (iblk1 V c 3 t) (iblk1 V c 4 t) (V c main_v20) (V c main_v21) (V c main_v22) (V c main_v23)
    (iblk1 V c 5 t) (V c main_arg6) (iblk1 V c 6 t) (V c main_v24)
    (j 0) (((cfg1.win 7).blk t).view.emb j 0) (j 1) (((cfg1.win 7).blk t).view.emb j 1)
    (fun q => iblk1_0_apply V c t (j 0) q (((cfg1.win 7).blk t).view.emb j 0) ?_)
    (iblk1_1_eq V c t) (iblk1_2_eq V c t) (iblk1_3_eq V c t) (iblk1_4_eq V c t) (iblk1_5_eq V c t) (iblk1_6_eq V c t) (Fin.ext ?_)
  · show win1_7.index t (0 : Fin 2) * 5000 + 1 * (j 0).val = 5000 * t.val + (j 0).val
    rw [e70]; omega
  · show (j 1).val = win1_7.index t (1 : Fin 2) * 64 + 1 * (j 1).val
    rw [e71]; omega

/-- An index of the output array is in tile t's block iff each coordinate is in the block's range on its axis. -/
theorem mem_blk1 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v25).slice (win1_7.rect t)).set ↔ _
  rw [View.set_slice_whole, Rect.mem_set_unit]
  exact Iff.rfl

/-- Every row is in some tile: row p in tile p / 5000; and every tile is written back. -/
theorem cover1 (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e70, e71, -⟩ := idx_facts1 t
  refine ⟨t, flush1_7 t, ?_⟩
  rw [mem_blk1]
  intro a
  match a with
  | ⟨0, _⟩ =>
    show win1_7.index t (0 : Fin 2) * 5000 ≤ (i 0).val ∧ (i 0).val < win1_7.index t (0 : Fin 2) * 5000 + 5000
    rw [e70, ht]; omega
  | ⟨1, _⟩ =>
    show win1_7.index t (1 : Fin 2) * 64 ≤ (i 1).val ∧ (i 1).val < win1_7.index t (1 : Fin 2) * 64 + 64
    rw [e71]; omega

/-- After the ten tiles the stage's output array is the second stage of the arrays the stage found, whatever they hold. -/
theorem region1_out (c : Dev nD) :
    (dat1 (F := Ideal) V c).arrAt 7 cfg1.N
      = GinEntries.headArr (V c main_v15) (V c main_v20) (V c main_v21) (V c main_v22) (V c main_v23) (V c main_arg6) (V c main_v24) :=
  (dat1 (F := Ideal) V c).arrAt_eq_of_cover 7
    (GinEntries.headArr (V c main_v15) (V c main_v20) (V c main_v21) (V c main_v22) (V c main_v23) (V c main_arg6) (V c main_v24))
    (fun t _ => flushed1_eq V c t) cover1

end Cert.KernelIdeal.Heads

end
-- ==== Proof.Head3Array.lean ====
/-
  The second layer's second stage, from tiles to the whole array.

  The stage runs over ten tiles of 5000 rows.  At tile t the body reads rows 5000·t … 5000·t + 4999 of its input h
  and the whole of the six small arrays (mean, variance, scale, shift, weights, bias), and writes rows
  5000·t … 5000·t + 4999 of the output.  By the tile's entry-by-entry reading, what it writes at row r of the tile is
  the specification's second stage at row 5000·t + r of the whole input: an entry of the second stage depends on
  its own row of h only.  The ten tiles cover every row (row p lies in tile p / 5000), so the output array ends as
  the specification's second stage of the arrays the stage found.
-/
import proofs.«102369_j9122510537161_1_alg».proof.Proof.Gen.KernelIdeal.Frame
import proofs.«102369_j9122510537161_1_alg».proof.Proof.HeadTile
import Idealize.ShloMosaic.Lib.Pipeline.Value

noncomputable section

open scoped BigOperators

namespace Cert.KernelIdeal.Heads

open Idealize.ShloMosaic Idealize.ShloMosaic.TcCoe Idealize.ShloMosaic.ValueIdx Idealize.SL.Sem
open Idealize.ShloMosaic.Pipeline (Dat)
open Cert.KernelIdeal Cert.KernelIdeal.Gen

set_option maxHeartbeats 50000 in
/-- What the body leaves in the output's buffer, from the blocks it read: the second stage of the tile, entry by entry. -/
theorem out3_eq (x0 : Vec Ideal S5000x64 .f32) (x1 x2 x3 x4 : Vec Ideal S1x64 .f32) (x5 : Vec Ideal S64x64 .f32) (x6 : Vec Ideal S1x64 .f32) :
    out3_7 x0 x1 x2 x3 x4 x5 x6 = fun j => GinEntries.head x0 x1 x2 x3 x4 x5 x6 (j 0) (j 1) := by
  unfold out3_7
  rw [View.canon_unit_zero zero_offsets]
  simp only [View.ld_unit_zero (S := S5000x64) zero_offsets, View.ld_unit_zero (S := S1x64) zero_offsets,
    View.ld_unit_zero (S := S64x64) zero_offsets]
  funext j
  obtain ⟨r, q, rfl⟩ : ∃ (r : Fin 5000) (q : Fin 64), j = ix2 r q := ⟨j 0, j 1, eq_ix2 j⟩
  exact pay3_apply x0 x1 x2 x3 x4 x5 x6 r q

/-- The printed index maps, decided over the ten tiles: the input h moves with the output, tile t at block row t, block
    column 0; each small array sits at block (0, 0) at every tile. -/
theorem idx_facts3 : ∀ t : Fin cfg3.N, win3_7.index t (0 : Fin 2) = t.val ∧ win3_7.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

variable (V : (c : Dev nD) → (b : Ref sig .tc) → Buf (Elt Ideal) ((c : Thread nD τ).loc b))

set_option maxHeartbeats 50000 in
/-- Row r of the input's block at tile t is row 5000·t + r of the input h. -/
theorem iblk3_0_apply (c : Dev nD) (t : Fin cfg3.N) (r : Fin 5000) (q : Fin 64) (p : Fin 50000) (hp : p.val = 5000 * t.val + r.val) :
    (iblk3 V c 0 t : Vec Ideal S5000x64 .f32) (ix2 r q) = (V c main_v37 : S50000x64.Idx → EReal) (ix2 p q) := by
  obtain ⟨e70, e71, e00, e01, -⟩ := idx_facts3 t
  unfold iblk3
  rw [View.read_apply]
  show V c main_v37 _ = V c main_v37 _
  refine congrArg (V c main_v37) (funext fun a => Fin.ext ?_)
  match a with
  | ⟨0, _⟩ => show win3_0.index t (0 : Fin 2) * 5000 + 1 * r.val = p.val; rw [e00, hp]; omega
  | ⟨1, _⟩ => show win3_0.index t (1 : Fin 2) * 64 + 1 * q.val = q.val; rw [e01]; omega

set_option maxHeartbeats 50000 in
/-- The stage reads the whole of `main_v42` at every tile. -/
theorem iblk3_1_eq (c : Dev nD) (t : Fin cfg3.N) : (iblk3 V c 1 t : Vec Ideal S1x64 .f32) = V c main_v42 := by
  obtain ⟨e70, e71, e00, e01, e10, e11, e20, e21, e30, e31, e40, e41, e50, e51, e60, e61⟩ := idx_facts3 t
  funext y
  unfold iblk3
  rw [View.read_apply]
  show V c main_v42 _ = V c main_v42 y
  refine congrArg (V c main_v42) (funext fun a => Fin.ext ?_)
  match a with
  | ⟨0, _⟩ => show win3_1.index t (0 : Fin 2) * 1 + 1 * (y 0).val = (y 0).val; rw [e10]; omega
  | ⟨1, _⟩ => show win3_1.index t (1 : Fin 2) * 64 + 1 * (y 1).val = (y 1).val; rw [e11]; omega

set_option maxHeartbeats 50000 in
/-- The stage reads the whole of `main_v43` at every tile. -/
theorem iblk3_2_eq (c : Dev nD) (t : Fin cfg3.N) : (iblk3 V c 2 t : Vec Ideal S1x64 .f32) = V c main_v43 := by
  obtain ⟨e70, e71, e00, e01, e10, e11, e20, e21, e30, e31, e40, e41, e50, e51, e60, e61⟩ := idx_facts3 t
  funext y
  unfold iblk3
  rw [View.read_apply]
  show V c main_v43 _ = V c main_v43 y
  refine congrArg (V c main_v43) (funext fun a => Fin.ext ?_)
  match a with
  | ⟨0, _⟩ => show win3_2.index t (0 : Fin 2) * 1 + 1 * (y 0).val = (y 0).val; rw [e20]; omega
  | ⟨1, _⟩ => show win3_2.index t (1 : Fin 2) * 64 + 1 * (y 1).val = (y 1).val; rw [e21]; omega

set_option maxHeartbeats 50000 in
/-- The stage reads the whole of `main_v44` at every tile. -/
theorem iblk3_3_eq (c : Dev nD) (t : Fin cfg3.N) : (iblk3 V c 3 t : Vec Ideal S1x64 .f32) = V c main_v44 := by
  obtain ⟨e70, e71, e00, e01, e10, e11, e20, e21, e30, e31, e40, e41, e50, e51, e60, e61⟩ := idx_facts3 t
  funext y
  unfold iblk3
  rw [View.read_apply]
  show V c main_v44 _ = V c main_v44 y
  refine congrArg (V c main_v44) (funext fun a => Fin.ext ?_)
  match a with
  | ⟨0, _⟩ => show win3_3.index t (0 : Fin 2) * 1 + 1 * (y 0).val = (y 0).val; rw [e30]; omega
  | ⟨1, _⟩ => show win3_3.index t (1 : Fin 2) * 64 + 1 * (y 1).val = (y 1).val; rw [e31]; omega

set_option maxHeartbeats 50000 in
/-- The stage reads the whole of `main_v45` at every tile. -/
theorem iblk3_4_eq (c : Dev nD) (t : Fin cfg3.N) : (iblk3 V c 4 t : Vec Ideal S1x64 .f32) = V c main_v45 := by
  obtain ⟨e70, e71, e00, e01, e10, e11, e20, e21, e30, e31, e40, e41, e50, e51, e60, e61⟩ := idx_facts3 t
  funext y
  unfold iblk3
  rw [View.read_apply]
  show V c main_v45 _ = V c main_v45 y
  refine congrArg (V c main_v45) (funext fun a => Fin.ext ?_)
  match a with
  | ⟨0, _⟩ => show win3_4.index t (0 : Fin 2) * 1 + 1 * (y 0).val = (y 0).val; rw [e40]; omega
  | ⟨1, _⟩ => show win3_4.index t (1 : Fin 2) * 64 + 1 * (y 1).val = (y 1).val; rw [e41]; omega

set_option maxHeartbeats 50000 in
/-- The stage reads the whole of `main_arg12` at every tile. -/
theorem iblk3_5_eq (c : Dev nD) (t : Fin cfg3.N) : (iblk3 V c 5 t : Vec Ideal S64x64 .f32) = V c main_arg12 := by
  obtain ⟨e70, e71, e00, e01, e10, e11, e20, e21, e30, e31, e40, e41, e50, e51, e60, e61⟩ := idx_facts3 t
  funext y
  unfold iblk3
  rw [View.read_apply]
  show V c main_arg12 _ = V c main_arg12 y
  refine congrArg (V c main_arg12) (funext fun a => Fin.ext ?_)
  match a with
  | ⟨0, _⟩ => show win3_5.index t (0 : Fin 2) * 64 + 1 * (y 0).val = (y 0).val; rw [e50]; omega
  | ⟨1, _⟩ => show win3_5.index t (1 : Fin 2) * 64 + 1 * (y 1).val = (y 1).val; rw [e51]; omega

set_option maxHeartbeats 50000 in
/-- The stage reads the whole of `main_v46` at every tile. -/
theorem iblk3_6_eq (c : Dev nD) (t : Fin cfg3.N) : (iblk3 V c 6 t : Vec Ideal S1x64 .f32) = V c main_v46 := by
  obtain ⟨e70, e71, e00, e01, e10, e11, e20, e21, e30, e31, e40, e41, e50, e51, e60, e61⟩ := idx_facts3 t
  funext y
  unfold iblk3
  rw [View.read_apply]
  show V c main_v46 _ = V c main_v46 y
  refine congrArg (V c main_v46) (funext fun a => Fin.ext ?_)
  match a with
  | ⟨0, _⟩ => show win3_6.index t (0 : Fin 2) * 1 + 1 * (y 0).val = (y 0).val; rw [e60]; omega
  | ⟨1, _⟩ => show win3_6.index t (1 : Fin 2) * 64 + 1 * (y 1).val = (y 1).val; rw [e61]; omega

set_option maxHeartbeats 100000 in
/-- What tile t writes back is block t of the second stage of the arrays the stage found. -/
theorem flushed3_eq (c : Dev nD) (t : Fin cfg3.N) :
    (dat3 (F := Ideal) V c).flushed 7 t = ((cfg3.win 7).blk t).view.read (Elt Ideal)
      (GinEntries.headArr (V c main_v37) (V c main_v42) (V c main_v43) (V c main_v44) (V c main_v45) (V c main_arg12) (V c main_v46)) := by
  show (cfg3.win 7).cut (grid3.coords t) ((dat3 (F := Ideal) V c).after 7 t) = _
  rw [after3_7, out3_eq]
  obtain ⟨e70, e71, -⟩ := idx_facts3 t
  funext j
  rw [View.read_apply]
  refine head_of_row (n := 5000) (k := 50000) (iblk3 V c 0 t) (V c main_v37)
    (iblk3 V c 1 t) (iblk3 V c 2 t) (iblk3 V c 3 t) (iblk3 V c 4 t) (V c main_v42) (V c main_v43) (V c main_v44) (V c main_v45)
    (iblk3 V c 5 t) (V c main_arg12) (iblk3 V c 6 t) (V c main_v46)
    (j 0) (((cfg3.win 7).blk t).view.emb j 0) (j 1) (((cfg3.win 7).blk t).view.emb j 1)
    (fun q => iblk3_0_apply V c t (j 0) q (((cfg3.win 7).blk t).view.emb j 0) ?_)
    (iblk3_1_eq V c t) (iblk3_2_eq V c t) (iblk3_3_eq V c t) (iblk3_4_eq V c t) (iblk3_5_eq V c t) (iblk3_6_eq V c t) (Fin.ext ?_)
  · show win3_7.index t (0 : Fin 2) * 5000 + 1 * (j 0).val = 5000 * t.val + (j 0).val
    rw [e70]; omega
  · show (j 1).val = win3_7.index t (1 : Fin 2) * 64 + 1 * (j 1).val
    rw [e71]; omega

/-- An index of the output array is in tile t's block iff each coordinate is in the block's range on its axis. -/
theorem mem_blk3 (t : Fin cfg3.N) (i : S50000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v47).slice (win3_7.rect t)).set ↔ _
  rw [View.set_slice_whole, Rect.mem_set_unit]
  exact Iff.rfl

/-- Every row is in some tile: row p in tile p / 5000; and every tile is written back. -/
theorem cover3 (i : S50000x64.Idx) : ∃ t : Fin cfg3.N, (cfg3.win 7).flush t = true ∧ i ∈ ((cfg3.win 7).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e70, e71, -⟩ := idx_facts3 t
  refine ⟨t, flush3_7 t, ?_⟩
  rw [mem_blk3]
  intro a
  match a with
  | ⟨0, _⟩ =>
    show win3_7.index t (0 : Fin 2) * 5000 ≤ (i 0).val ∧ (i 0).val < win3_7.index t (0 : Fin 2) * 5000 + 5000
    rw [e70, ht]; omega
  | ⟨1, _⟩ =>
    show win3_7.index t (1 : Fin 2) * 64 ≤ (i 1).val ∧ (i 1).val < win3_7.index t (1 : Fin 2) * 64 + 64
    rw [e71]; omega

/-- After the ten tiles the stage's output array is the second stage of the arrays the stage found, whatever they hold. -/
theorem region3_out (c : Dev nD) :
    (dat3 (F := Ideal) V c).arrAt 7 cfg3.N
      = GinEntries.headArr (V c main_v37) (V c main_v42) (V c main_v43) (V c main_v44) (V c main_v45) (V c main_arg12) (V c main_v46) :=
  (dat3 (F := Ideal) V c).arrAt_eq_of_cover 7
    (GinEntries.headArr (V c main_v37) (V c main_v42) (V c main_v43) (V c main_v44) (V c main_v45) (V c main_arg12) (V c main_v46))
    (fun t _ => flushed3_eq V c t) cover3

end Cert.KernelIdeal.Heads

end
-- ==== Proof.LibBcastDim.lean ====
/-
  A host broadcast_in_dim read at an index, in the shapes a stack of per-position numbers and a per-channel vector take.

  A broadcast_in_dim sends operand axis `a` to result axis `dims a`; the result at `j` is the operand at `j`'s
  coordinates on those axes, with 0 on every operand axis of extent one.  So

  * a scalar spread over any shape holds the scalar everywhere;
  * an [a, b] array sent to [a, b, 1] (axes 0, 1) holds at (p, f, 0) the entry (p, f); sent to [a, 1, b] (axes 0, 2) it
    holds at (p, 0, k) the entry (p, k);
  * an [a, b, 1] array spread over [a, b, c] holds at (p, f, k) the entry (p, f, 0); an [a, 1, c] array spread over
    [a, b, c] holds at (p, f, k) the entry (p, 0, k);
  * an [a, b, c] array sent to [a, b, c, 1] holds at (p, f, k, 0) the entry (p, f, k), and that spread over [a, b, c, d]
    holds at (p, f, k, j) the entry (p, f, k, 0);
  * a length-d vector sent to [1, 1, 1, d] (axis 3) holds at (0, 0, 0, j) the entry j, and that spread over
    [a, b, c, d] holds at (p, f, k, j) the entry (0, 0, 0, j).
-/
import Idealize.ShloMosaic.Lib.Pipeline.Value
import Idealize.ShloMosaic.Lib.ValueIdx

noncomputable section

namespace Cert.LibBcastDim

open Idealize.ShloMosaic Idealize.ShloMosaic.ValueIdx

variable {α : Type} {a b c d : ℕ}

/-- A coordinate is kept on an axis that is not of extent one (and is 0 on one that is). -/
theorem keep {n : ℕ} (p : Fin n) : p.val = if n = 1 then 0 else p.val := by
  split
  · have := p.isLt; omega
  · rfl

/-- On an axis of extent one the operand is read at 0. -/
theorem unit0 (v : ℕ) : 0 = if (1 : ℕ) = 1 then 0 else v := by rw [if_pos rfl]

/-- A scalar spread over a shape holds the scalar at every index. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

/-- [a, b] sent to [a, b, 1] along axes 0, 1. -/
theorem ab_ab1_apply (x : (⟨2, ![a, b]⟩ : Shape).Idx → α)
    (h : (⟨2, ![a, b]⟩ : Shape).BroadcastsInDim ⟨3, ![a, b, 1]⟩ (![0, 1] : Fin 2 → Fin 3)) (p : Fin a) (f : Fin b) (z : Fin 1) :
    broadcastInDim ⟨3, ![a, b, 1]⟩ (![0, 1] : Fin 2 → Fin 3) h x (ix3 p f z) = x (ix2 p f) :=
  broadcastInDim_apply _ h x _ _ (fun ax => by
    match ax with
    | ⟨0, _⟩ => exact keep p
    | ⟨1, _⟩ => exact keep f)

/-- [a, c] sent to [a, 1, c] along axes 0, 2. -/
theorem ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1) (k : Fin c) :
    broadcastInDim ⟨3, ![a, 1, c]⟩ (![0, 2] : Fin 2 → Fin 3) h x (ix3 p u k) = x (ix2 p k) :=
  broadcastInDim_apply _ h x _ _ (fun ax => by
    match ax with
    | ⟨0, _⟩ => exact keep p
    | ⟨1, _⟩ => exact keep k)

/-- [a, b, 1] spread over [a, b, c]. -/
theorem ab1_abc_apply (x : (⟨3, ![a, b, 1]⟩ : Shape).Idx → α)
    (h : (⟨3, ![a, b, 1]⟩ : Shape).BroadcastsInDim ⟨3, ![a, b, c]⟩ (![0, 1, 2] : Fin 3 → Fin 3)) (p : Fin a) (f : Fin b) (k : Fin c) :
    broadcastInDim ⟨3, ![a, b, c]⟩ (![0, 1, 2] : Fin 3 → Fin 3) h x (ix3 p f k) = x (ix3 p f (0 : Fin 1)) :=
  broadcastInDim_apply _ h x _ _ (fun ax => by
    match ax with
    | ⟨0, _⟩ => exact keep p
    | ⟨1, _⟩ => exact keep f
    | ⟨2, _⟩ => exact unit0 _)

/-- [a, 1, c] spread over [a, b, c]. -/
theorem a1c_abc_apply (x : (⟨3, ![a, 1, c]⟩ : Shape).Idx → α)
    (h : (⟨3, ![a, 1, c]⟩ : Shape).BroadcastsInDim ⟨3, ![a, b, c]⟩ (![0, 1, 2] : Fin 3 → Fin 3)) (p : Fin a) (f : Fin b) (k : Fin c) :
    broadcastInDim ⟨3, ![a, b, c]⟩ (![0, 1, 2] : Fin 3 → Fin 3) h x (ix3 p f k) = x (ix3 p (0 : Fin 1) k) :=
  broadcastInDim_apply _ h x _ _ (fun ax => by
    match ax with
    | ⟨0, _⟩ => exact keep p
    | ⟨1, _⟩ => exact unit0 _
    | ⟨2, _⟩ => exact keep k)

/-- [a, b, c] sent to [a, b, c, 1] along axes 0, 1, 2. -/
theorem abc_abc1_apply (x : (⟨3, ![a, b, c]⟩ : Shape).Idx → α)
    (h : (⟨3, ![a, b, c]⟩ : Shape).BroadcastsInDim ⟨4, ![a, b, c, 1]⟩ (![0, 1, 2] : Fin 3 → Fin 4))
    (p : Fin a) (f : Fin b) (k : Fin c) (z : Fin 1) :
    broadcastInDim ⟨4, ![a, b, c, 1]⟩ (![0, 1, 2] : Fin 3 → Fin 4) h x (ix4 p f k z) = x (ix3 p f k) :=
  broadcastInDim_apply _ h x _ _ (fun ax => by
    match ax with
    | ⟨0, _⟩ => exact keep p
    | ⟨1, _⟩ => exact keep f
    | ⟨2, _⟩ => exact keep k)

/-- [a, b, c, 1] spread over [a, b, c, d]. -/
theorem abc1_abcd_apply (x : (⟨4, ![a, b, c, 1]⟩ : Shape).Idx → α)
    (h : (⟨4, ![a, b, c, 1]⟩ : Shape).BroadcastsInDim ⟨4, ![a, b, c, d]⟩ (![0, 1, 2, 3] : Fin 4 → Fin 4))
    (p : Fin a) (f : Fin b) (k : Fin c) (j : Fin d) :
    broadcastInDim ⟨4, ![a, b, c, d]⟩ (![0, 1, 2, 3] : Fin 4 → Fin 4) h x (ix4 p f k j) = x (ix4 p f k (0 : Fin 1)) :=
  broadcastInDim_apply _ h x _ _ (fun ax => by
    match ax with
    | ⟨0, _⟩ => exact keep p
    | ⟨1, _⟩ => exact keep f
    | ⟨2, _⟩ => exact keep k
    | ⟨3, _⟩ => exact unit0 _)

/-- A length-d vector sent to [1, 1, 1, d] along axis 3. -/
theorem d_111d_apply (x : (⟨1, ![d]⟩ : Shape).Idx → α)
    (h : (⟨1, ![d]⟩ : Shape).BroadcastsInDim ⟨4, ![1, 1, 1, d]⟩ (![3] : Fin 1 → Fin 4)) (u v w : Fin 1) (j : Fin d) :
    broadcastInDim ⟨4, ![1, 1, 1, d]⟩ (![3] : Fin 1 → Fin 4) h x (ix4 u v w j) = x (ix1 j) :=
  broadcastInDim_apply _ h x _ _ (fun ax => by
    match ax with
    | ⟨0, _⟩ => exact keep j)

/-- [1, 1, 1, d] spread over [a, b, c, d]. -/
theorem u111d_abcd_apply (x : (⟨4, ![1, 1, 1, d]⟩ : Shape).Idx → α)
    (h : (⟨4, ![1, 1, 1, d]⟩ : Shape).BroadcastsInDim ⟨4, ![a, b, c, d]⟩ (![0, 1, 2, 3] : Fin 4 → Fin 4))
    (p : Fin a) (f : Fin b) (k : Fin c) (j : Fin d) :
    broadcastInDim ⟨4, ![a, b, c, d]⟩ (![0, 1, 2, 3] : Fin 4 → Fin 4) h x (ix4 p f k j)
      = x (ix4 (0 : Fin 1) (0 : Fin 1) (0 : Fin 1) j) :=
  broadcastInDim_apply _ h x _ _ (fun ax => by
    match ax with
    | ⟨0, _⟩ => exact unit0 _
    | ⟨1, _⟩ => exact unit0 _
    | ⟨2, _⟩ => exact unit0 _
    | ⟨3, _⟩ => exact keep j)

end Cert.LibBcastDim

end
-- ==== Proof.RefEntries.lean ====
/-
  The reference's dense stages, entry by entry.

  The reference computes each stage on whole arrays: a per-column vector is laid out as one row and repeated down the
  50000 rows, a scalar is repeated over the array, and the two matrix products are host contractions of the columns of
  the left operand against the rows of the right. Read at entry (p, c) over the extended reals, the repeated row gives
  the vector's entry c, the repeated scalar the scalar, and the contraction the sum over q of left (p, q) · right (q, c);
  so the first stage is `GinEntries.affine` and the second `GinEntries.head` of the same arrays, the per-column
  vectors taken as rows.
-/
import proofs.«102369_j9122510537161_1_alg».proof.Proof.RefStages
import proofs.«102369_j9122510537161_1_alg».proof.Proof.Entries
import proofs.«102369_j9122510537161_1_alg».proof.Proof.LibPlainDot
import proofs.«102369_j9122510537161_1_alg».proof.Proof.LibLayout
import proofs.«102369_j9122510537161_1_alg».proof.Proof.LibBcastDim
import Idealize.ShloMosaic.PureOps.Ideal.Laws
import Idealize.ShloMosaic.Lib.ValueIdx

noncomputable section

open scoped BigOperators

namespace Cert.ReferenceIdeal.RefEntries

open Cert.ReferenceIdeal Cert.ReferenceIdeal.RefValue Idealize.ShloMosaic Idealize.ShloMosaic.ValueIdx

/-- A vector laid out as a row holds its entry c at (0, c). -/
theorem asRow_apply (v : Col) (c : Fin 64) : asRow v (ix2 (0 : Fin 1) c) = v (ix1 c) :=
  Cert.LibLayout.broadcastInDim_a_1a_apply v _ 0 c

/-- A row repeated down the rows holds, at (p, c), the row's entry c. -/
theorem downRows_apply (r : Row) (p : Fin 50000) (c : Fin 64) : downRows r (ix2 p c) = r (ix2 (0 : Fin 1) c) :=
  Cert.LibLayout.broadcastInDim_1b_ab_apply r _ p c

/-- A scalar repeated over the node array holds the scalar everywhere. -/
theorem fillNodes_apply (s : Scal) (i : S50000x64.Idx) : fillNodes s i = s ix0 :=
  Cert.LibBcastDim.scalar_apply s _ i

/-- A scalar repeated over the columns holds the scalar everywhere. -/
theorem fillCol_apply (s : Scal) (i : S64.Idx) : fillCol s i = s ix0 :=
  Cert.LibBcastDim.scalar_apply s _ i

/-- The reference's contraction is the plain product of a 50000 × 64 by a 64 × 64 matrix. -/
theorem dot_plain : dot_S50000x64_S64x64_S50000x64_1_0_0_1_n_n = DotDims.plain 50000 64 64 := rfl

/-- The clamp at zero, at an entry. -/
theorem relu_apply (a : Nodes) (i : S50000x64.Idx) : relu a i = max (a i) 0 := by
  show max (a i) (fillNodes zeroS i) = _
  rw [fillNodes_apply]
  show max (a i) (Ideal.ofBits .f32 0x00000000#32) = _
  rw [Ideal.ofBits_zero_f32]

/-- A dense step at entry (p, c): the contraction of row p of the left operand with column c of the weights, plus the
    bias vector's entry c. -/
theorem dense_apply (L : Nodes) (W : Sq) (b : Col) (p : Fin 50000) (c : Fin 64) :
    addf (F := Ideal) (φ := .f32) (Host.dotGeneral (F := Ideal) (φ₁ := .f32) (φ₂ := .f32) dot_S50000x64_S64x64_S50000x64_1_0_0_1_n_n none L W)
        (rowBcast b) (ix2 p c)
      = (∑ q : Fin 64, L (ix2 p q) * W (ix2 q c)) + asRow b (ix2 (0 : Fin 1) c) := by
  show FloatOps.dotGeneral (F := Ideal) (φ₁ := .f32) (φ₂ := .f32) dot_S50000x64_S64x64_S50000x64_1_0_0_1_n_n none _ L W (ix2 p c)
      + downRows (asRow b) (ix2 p c) = _
  rw [Cert.LibPlainDot.dotGeneral_apply _ dot_plain, downRows_apply]

/-- The first dense stage is `affine`, entry by entry. -/
theorem lin_eq (a x : Nodes) (W : Sq) (b : Col) : lin a x W b = GinEntries.affineArr a x W (asRow b) := by
  funext i
  obtain ⟨p, c, rfl⟩ : ∃ (p : Fin 50000) (c : Fin 64), i = ix2 p c := ⟨i 0, i 1, eq_ix2 i⟩
  unfold lin
  rw [dense_apply]
  rfl

/-- The normalised, scaled, shifted and clamped entry of the second stage. -/
theorem normed_eq (h : Nodes) (mu var g be : Col) (p : Fin 50000) (q : Fin 64) :
    relu (addf (F := Ideal) (φ := .f32) (mulf (F := Ideal) (φ := .f32) (mulf (F := Ideal) (φ := .f32) (subf (F := Ideal) (φ := .f32) h (rowBcast mu))
        (rowBcast (Host.rsqrt (F := Ideal) (φ := .f32) (addf (F := Ideal) (φ := .f32) var (fillCol epsS))))) (rowBcast g)) (rowBcast be)) (ix2 p q)
      = GinEntries.normed h (asRow mu) (asRow var) (asRow g) (asRow be) p q := by
  rw [relu_apply]
  show max ((h (ix2 p q) - downRows (asRow mu) (ix2 p q)) * downRows (asRow (Host.rsqrt (F := Ideal) (φ := .f32) (addf (F := Ideal) (φ := .f32) var (fillCol epsS)))) (ix2 p q)
      * downRows (asRow g) (ix2 p q) + downRows (asRow be) (ix2 p q)) 0 = _
  rw [downRows_apply, downRows_apply, downRows_apply, downRows_apply, asRow_apply (Host.rsqrt (F := Ideal) (φ := .f32) _)]
  show max ((h (ix2 p q) - asRow mu (ix2 0 q)) * Ideal.rsqrt (var (ix1 q) + fillCol epsS (ix1 q)) * asRow g (ix2 0 q) + asRow be (ix2 0 q)) 0 = _
  rw [fillCol_apply, ← asRow_apply var q]
  rfl

/-- The second dense stage is `head`, entry by entry. -/
theorem bnHead_eq (h : Nodes) (mu var g be : Col) (W : Sq) (b : Col) :
    bnHead h mu var g be W b = GinEntries.headArr h (asRow mu) (asRow var) (asRow g) (asRow be) W (asRow b) := by
  funext i
  obtain ⟨p, c, rfl⟩ : ∃ (p : Fin 50000) (c : Fin 64), i = ix2 p c := ⟨i 0, i 1, eq_ix2 i⟩
  unfold bnHead
  rw [relu_apply, dense_apply]
  show _ = GinEntries.head h (asRow mu) (asRow var) (asRow g) (asRow be) W (asRow b) p c
  unfold GinEntries.head
  refine congrArg (fun s => max (s + asRow b (ix2 (0 : Fin 1) c)) 0) (Finset.sum_congr rfl fun q _ => ?_)
  rw [normed_eq]

end Cert.ReferenceIdeal.RefEntries

end
-- ==== Proof.KernelFold.lean ====
/-
  The idealized kernel program's two results, read back through its chain of boundary contents.

  The contents of the buffers at the program's segment boundaries form a chain from the launch memory: a host stretch
  computes its stage functions of the contents before it and changes no other buffer; a tiled region replaces its output
  array by the stage of its input arrays, entry by entry, and changes no other buffer. Walking the chain, the first
  layer's output is the second stage of the first stage of the neighbour sum of the node features, with the column
  statistics of the first stage; the second layer's is the same of the first layer's output; and these are the
  reference's layers.
-/
import proofs.«102369_j9122510537161_1_alg».proof.Proof.Gen.KernelIdeal.Frame
import proofs.«102369_j9122510537161_1_alg».proof.Proof.KernelStages
import proofs.«102369_j9122510537161_1_alg».proof.Proof.AffineRegion0
import proofs.«102369_j9122510537161_1_alg».proof.Proof.AffineRegion2
import proofs.«102369_j9122510537161_1_alg».proof.Proof.Head1Array
import proofs.«102369_j9122510537161_1_alg».proof.Proof.Head3Array
import proofs.«102369_j9122510537161_1_alg».proof.Proof.RefEntries

set_option maxRecDepth 16384

noncomputable section

namespace Cert.KernelIdeal.Fold

open Cert.KernelIdeal Cert.KernelIdeal.Gen Cert.KernelIdeal.Stages Idealize.ShloMosaic Idealize.ShloMosaic.TcCoe
open Cert.ReferenceIdeal.RefValue (Nodes Sq Col Edges Ends Row agg srcOf dstOf colMean colVar asRow lin bnHead layer)

variable (m : (ℓ : Loc nD τ sig) → Buf (Elt Ideal) ℓ) (ρ : Dev nD → PrngReg) (c : Dev nD)

/-- The launch contents of a buffer on core `c`. -/
abbrev L (b : Ref sig .tc) : Buf (Elt Ideal) ((c : Thread nD τ).loc b) := m ((c : Thread nD τ).loc b)

/-- The fourteen argument arrays. -/
abbrev launched : List (Ref sig .tc) :=
  [main_arg0, main_arg1, main_arg2, main_arg3, main_arg4, main_arg5, main_arg6, main_arg7, main_arg8, main_arg9,
    main_arg10, main_arg11, main_arg12, main_arg13]

/-! ## The buffers each host stretch writes -/

abbrev wr0 : List (Ref sig .tc) := [main_v0, main_v1, main_v2, main_v3, main_c, main_v4, main_v5, main_c_0, main_v6, main_v7, main_v8,
      main_v9, main_v10, main_cst, main_v11, main_v12, main_v13, main_v14]
abbrev wr1 : List (Ref sig .tc) := [main_cst_1, main_v16, main_cst_2, main_v17, main_v18, main_c_3]
abbrev wr11 : List (Ref sig .tc) := [main_call0_cst, main_call0_v0, main_call0_v1, main_call0_cst_0, main_call0_v2, main_call0_v3,
      main_call0_v4, main_call0_v5, main_call0_v6, main_call0_v7, main_call0_cst_1, main_call0_v8, main_call0_cst_2,
      main_call0_v9, main_call0_v10, main_call0_v11, main_call0_cst_3, main_call0_v12, main_call0_cst_4,
      main_call0_call0_v0, main_call0_call0_v1, main_v19]
abbrev wr12 : List (Ref sig .tc) := [main_v20, main_v21, main_v22, main_v23, main_v24]
abbrev wr2 : List (Ref sig .tc) := [main_c_4, main_v26, main_v27, main_c_5, main_v28, main_v29, main_v30, main_v31, main_v32, main_cst_6,
      main_v33, main_v34, main_v35, main_v36]
abbrev wr3 : List (Ref sig .tc) := [main_cst_7, main_v38, main_cst_8, main_v39, main_v40, main_c_9]
abbrev wr31 : List (Ref sig .tc) := [main_call1_cst, main_call1_v0, main_call1_v1, main_call1_cst_0, main_call1_v2, main_call1_v3,
      main_call1_v4, main_call1_v5, main_call1_v6, main_call1_v7, main_call1_cst_1, main_call1_v8, main_call1_cst_2,
      main_call1_v9, main_call1_v10, main_call1_v11, main_call1_cst_3, main_call1_v12, main_call1_cst_4,
      main_call1_call0_v0, main_call1_call0_v1, main_v41]
abbrev wr32 : List (Ref sig .tc) := [main_v42, main_v43, main_v44, main_v45, main_v46]

/-! ## A region changes only its output array -/

/-- Region 0 changes only its output array. -/
theorem W2_keep (b : Ref sig .tc) (hb : b ≠ main_v15) : W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    obtain rfl := not_not.mp hw
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact (W2_arr m ρ c 3).trans (((dat0 (V1 m ρ) c).arrAt_in 3 rfl _).trans (A_eq0 (V1 m ρ) c 3))
    · exact absurd rfl hb

/-- Region 1 changes only its output array. -/
theorem W6_keep (b : Ref sig .tc) (hb : b ≠ main_v25) : W6 m ρ c (Proc.devRef .tc b) = W5 m ρ c (Proc.devRef .tc b) := by
  by_cases h : ∀ w, Pipeline.arrRef spec1 w ≠ b
  · exact W6_of_ne m ρ c b h
  · obtain ⟨w, hw⟩ := not_forall.mp h
    obtain rfl := not_not.mp hw
    fin_cases w
    · exact (W6_arr m ρ c 0).trans (((dat1 (V5 m ρ) c).arrAt_in 0 rfl _).trans (A_eq1 (V5 m ρ) c 0))
    · exact (W6_arr m ρ c 1).trans (((dat1 (V5 m ρ) c).arrAt_in 1 rfl _).trans (A_eq1 (V5 m ρ) c 1))
    · exact (W6_arr m ρ c 2).trans (((dat1 (V5 m ρ) c).arrAt_in 2 rfl _).trans (A_eq1 (V5 m ρ) c 2))
    · exact (W6_arr m ρ c 3).trans (((dat1 (V5 m ρ) c).arrAt_in 3 rfl _).trans (A_eq1 (V5 m ρ) c 3))
    · exact (W6_arr m ρ c 4).trans (((dat1 (V5 m ρ) c).arrAt_in 4 rfl _).trans (A_eq1 (V5 m ρ) c 4))
    · exact (W6_arr m ρ c 5).trans (((dat1 (V5 m ρ) c).arrAt_in 5 rfl _).trans (A_eq1 (V5 m ρ) c 5))
    · exact (W6_arr m ρ c 6).trans (((dat1 (V5 m ρ) c).arrAt_in 6 rfl _).trans (A_eq1 (V5 m ρ) c 6))
    · exact absurd rfl hb

/-- Region 2 changes only its output array. -/
theorem W8_keep (b : Ref sig .tc) (hb : b ≠ main_v37) : W8 m ρ c (Proc.devRef .tc b) = W7 m ρ c (Proc.devRef .tc b) := by
  by_cases h : ∀ w, Pipeline.arrRef spec2 w ≠ b
  · exact W8_of_ne m ρ c b h
  · obtain ⟨w, hw⟩ := not_forall.mp h
    obtain rfl := not_not.mp hw
    fin_cases w
    · exact (W8_arr m ρ c 0).trans (((dat2 (V7 m ρ) c).arrAt_in 0 rfl _).trans (A_eq2 (V7 m ρ) c 0))
    · exact (W8_arr m ρ c 1).trans (((dat2 (V7 m ρ) c).arrAt_in 1 rfl _).trans (A_eq2 (V7 m ρ) c 1))
    · exact (W8_arr m ρ c 2).trans (((dat2 (V7 m ρ) c).arrAt_in 2 rfl _).trans (A_eq2 (V7 m ρ) c 2))
    · exact (W8_arr m ρ c 3).trans (((dat2 (V7 m ρ) c).arrAt_in 3 rfl _).trans (A_eq2 (V7 m ρ) c 3))
    · exact absurd rfl hb

/-! ## Buffers that nothing writes between two boundaries -/

theorem W1_launch (b : Ref sig .tc) (hb : b ∉ wr0) : W1 m ρ c (Proc.devRef .tc b) = L m c b :=
  s0_keep (W0 m ρ c) b hb

theorem W3_from_W1 (b : Ref sig .tc) (h2 : b ≠ main_v15) (h3 : b ∉ wr1) :
    W3 m ρ c (Proc.devRef .tc b) = W1 m ρ c (Proc.devRef .tc b) :=
  (s1_keep (W2 m ρ c) b h3).trans (W2_keep m ρ c b h2)

theorem W4_from_W1 (b : Ref sig .tc) (h2 : b ≠ main_v15) (h3 : b ∉ wr1) (h4 : b ∉ wr11) :
    W4 m ρ c (Proc.devRef .tc b) = W1 m ρ c (Proc.devRef .tc b) :=
  (s11_keep (W3 m ρ c) b h4).trans (W3_from_W1 m ρ c b h2 h3)

theorem W5_from_W1 (b : Ref sig .tc) (h2 : b ≠ main_v15) (h3 : b ∉ wr1) (h4 : b ∉ wr11) (h5 : b ∉ wr12) :
    W5 m ρ c (Proc.devRef .tc b) = W1 m ρ c (Proc.devRef .tc b) :=
  (s12_keep (W4 m ρ c) b h5).trans (W4_from_W1 m ρ c b h2 h3 h4)

theorem W6_from_W1 (b : Ref sig .tc) (h2 : b ≠ main_v15) (h3 : b ∉ wr1) (h4 : b ∉ wr11) (h5 : b ∉ wr12) (h6 : b ≠ main_v25) :
    W6 m ρ c (Proc.devRef .tc b) = W1 m ρ c (Proc.devRef .tc b) :=
  (W6_keep m ρ c b h6).trans (W5_from_W1 m ρ c b h2 h3 h4 h5)

theorem W7_from_W6 (b : Ref sig .tc) (h7 : b ∉ wr2) : W7 m ρ c (Proc.devRef .tc b) = W6 m ρ c (Proc.devRef .tc b) :=
  s2_keep (W6 m ρ c) b h7

theorem W8_from_W6 (b : Ref sig .tc) (h7 : b ∉ wr2) (h8 : b ≠ main_v37) : W8 m ρ c (Proc.devRef .tc b) = W6 m ρ c (Proc.devRef .tc b) :=
  (W8_keep m ρ c b h8).trans (W7_from_W6 m ρ c b h7)

theorem W9_from_W6 (b : Ref sig .tc) (h7 : b ∉ wr2) (h8 : b ≠ main_v37) (h9 : b ∉ wr3) :
    W9 m ρ c (Proc.devRef .tc b) = W6 m ρ c (Proc.devRef .tc b) :=
  (s3_keep (W8 m ρ c) b h9).trans (W8_from_W6 m ρ c b h7 h8)

theorem W10_from_W6 (b : Ref sig .tc) (h7 : b ∉ wr2) (h8 : b ≠ main_v37) (h9 : b ∉ wr3) (h10 : b ∉ wr31) :
    W10 m ρ c (Proc.devRef .tc b) = W6 m ρ c (Proc.devRef .tc b) :=
  (s31_keep (W9 m ρ c) b h10).trans (W9_from_W6 m ρ c b h7 h8 h9)

theorem W11_from_W6 (b : Ref sig .tc) (h7 : b ∉ wr2) (h8 : b ≠ main_v37) (h9 : b ∉ wr3) (h10 : b ∉ wr31) (h11 : b ∉ wr32) :
    W11 m ρ c (Proc.devRef .tc b) = W6 m ρ c (Proc.devRef .tc b) :=
  (s32_keep (W10 m ρ c) b h11).trans (W10_from_W6 m ρ c b h7 h8 h9 h10)

/-- An argument array holds its launch contents when the second layer starts. -/
theorem W6_launch (b : Ref sig .tc) (h0 : b ∉ wr0) (h2 : b ≠ main_v15) (h3 : b ∉ wr1) (h4 : b ∉ wr11) (h5 : b ∉ wr12)
    (h6 : b ≠ main_v25) : W6 m ρ c (Proc.devRef .tc b) = L m c b :=
  (W6_from_W1 m ρ c b h2 h3 h4 h5 h6).trans (W1_launch m ρ c b h0)

/-! ## Layer 1 -/

/-- The edges' sources and destinations. -/
abbrev src : Ends := srcOf (L m c main_arg1)
abbrev dst : Ends := dstOf (L m c main_arg1)

theorem W1_v13 : W1 m ρ c (Proc.devRef .tc main_v13) = agg (L m c main_arg0) (src m c) (dst m c) := s0_v13 (W0 m ρ c)
theorem W1_v14 : W1 m ρ c (Proc.devRef .tc main_v14) = rowOf (L m c main_arg3) := s0_v14 (W0 m ρ c)
theorem W1_v1 : W1 m ρ c (Proc.devRef .tc main_v1) = src m c := s0_v1 (W0 m ρ c)
theorem W1_v3 : W1 m ρ c (Proc.devRef .tc main_v3) = dst m c := s0_v3 (W0 m ρ c)

/-- The first stage of layer 1. -/
def H1 : Nodes := GinEntries.affineArr (agg (L m c main_arg0) (src m c) (dst m c)) (L m c main_arg0) (L m c main_arg2) (rowOf (L m c main_arg3))

theorem W2_v15 : W2 m ρ c (Proc.devRef .tc main_v15) = H1 m c :=
  (W2_arr m ρ c 4).trans ((Tiles.region0_out (V1 m ρ) c).trans (by
    show GinEntries.affineArr (W1 m ρ c (Proc.devRef .tc main_v13)) (W1 m ρ c (Proc.devRef .tc main_arg0)) (W1 m ρ c (Proc.devRef .tc main_arg2)) (W1 m ρ c (Proc.devRef .tc main_v14)) = _
    rw [W1_v13, W1_launch m ρ c main_arg0 (by decide), W1_launch m ρ c main_arg2 (by decide), W1_v14]
    rfl))

theorem W3_v15 : W3 m ρ c (Proc.devRef .tc main_v15) = H1 m c := (s1_keep (W2 m ρ c) main_v15 (by decide)).trans (W2_v15 m ρ c)
theorem W3_v18 : W3 m ρ c (Proc.devRef .tc main_v18) = colMean (H1 m c) := (s1_v18 (W2 m ρ c)).trans (congrArg colMean (W2_v15 m ρ c))
theorem W3_c3 : W3 m ρ c (Proc.devRef .tc main_c_3) = constantI S_ 32 0#32 := s1_c3 (W2 m ρ c)

theorem W4_v15 : W4 m ρ c (Proc.devRef .tc main_v15) = H1 m c := (s11_keep (W3 m ρ c) main_v15 (by decide)).trans (W3_v15 m ρ c)
theorem W4_v18 : W4 m ρ c (Proc.devRef .tc main_v18) = colMean (H1 m c) := (s11_keep (W3 m ρ c) main_v18 (by decide)).trans (W3_v18 m ρ c)
theorem W4_v19 : W4 m ρ c (Proc.devRef .tc main_v19) = colVar (H1 m c) :=
  (s11_v19 (W3 m ρ c) (W3_c3 m ρ c)).trans (congrArg colVar (W3_v15 m ρ c))

/-- An argument array before the row reshapes of layer 1. -/
theorem W4_launch (b : Ref sig .tc) (h0 : b ∉ wr0) (h2 : b ≠ main_v15) (h3 : b ∉ wr1) (h4 : b ∉ wr11) :
    W4 m ρ c (Proc.devRef .tc b) = L m c b :=
  (W4_from_W1 m ρ c b h2 h3 h4).trans (W1_launch m ρ c b h0)

theorem V5_v15 : V5 m ρ c main_v15 = H1 m c := (s12_keep (W4 m ρ c) main_v15 (by decide)).trans (W4_v15 m ρ c)
theorem V5_v20 : V5 m ρ c main_v20 = rowOf (colMean (H1 m c)) := (s12_v20 (W4 m ρ c)).trans (congrArg rowOf (W4_v18 m ρ c))
theorem V5_v21 : V5 m ρ c main_v21 = rowOf (colVar (H1 m c)) := (s12_v21 (W4 m ρ c)).trans (congrArg rowOf (W4_v19 m ρ c))
theorem V5_v22 : V5 m ρ c main_v22 = rowOf (L m c main_arg4) :=
  (s12_v22 (W4 m ρ c)).trans (congrArg rowOf (W4_launch m ρ c main_arg4 (by decide) (by decide) (by decide) (by decide)))
theorem V5_v23 : V5 m ρ c main_v23 = rowOf (L m c main_arg5) :=
  (s12_v23 (W4 m ρ c)).trans (congrArg rowOf (W4_launch m ρ c main_arg5 (by decide) (by decide) (by decide) (by decide)))
theorem V5_v24 : V5 m ρ c main_v24 = rowOf (L m c main_arg7) :=
  (s12_v24 (W4 m ρ c)).trans (congrArg rowOf (W4_launch m ρ c main_arg7 (by decide) (by decide) (by decide) (by decide)))
theorem V5_arg6 : V5 m ρ c main_arg6 = L m c main_arg6 :=
  (W5_from_W1 m ρ c main_arg6 (by decide) (by decide) (by decide) (by decide)).trans (W1_launch m ρ c main_arg6 (by decide))

/-- The output of layer 1, in the kernel's arrangement. -/
def Y1 : Nodes := GinEntries.headArr (H1 m c) (rowOf (colMean (H1 m c))) (rowOf (colVar (H1 m c))) (rowOf (L m c main_arg4))
  (rowOf (L m c main_arg5)) (L m c main_arg6) (rowOf (L m c main_arg7))

theorem W6_v25 : W6 m ρ c (Proc.devRef .tc main_v25) = Y1 m c :=
  (W6_arr m ρ c 7).trans ((Heads.region1_out (V5 m ρ) c).trans (by
    rw [V5_v15, V5_v20, V5_v21, V5_v22, V5_v23, V5_arg6, V5_v24]
    rfl))

/-! ## Layer 2 -/

theorem W6_v1 : W6 m ρ c (Proc.devRef .tc main_v1) = src m c :=
  (W6_from_W1 m ρ c main_v1 (by decide) (by decide) (by decide) (by decide) (by decide)).trans (W1_v1 m ρ c)
theorem W6_v3 : W6 m ρ c (Proc.devRef .tc main_v3) = dst m c :=
  (W6_from_W1 m ρ c main_v3 (by decide) (by decide) (by decide) (by decide) (by decide)).trans (W1_v3 m ρ c)

theorem V7_v35 : V7 m ρ c main_v35 = agg (Y1 m c) (src m c) (dst m c) :=
  (s2_v35 (W6 m ρ c)).trans (by rw [W6_v25, W6_v1, W6_v3])
theorem V7_v36 : V7 m ρ c main_v36 = rowOf (L m c main_arg9) :=
  (s2_v36 (W6 m ρ c)).trans (congrArg rowOf (W6_launch m ρ c main_arg9 (by decide) (by decide) (by decide) (by decide) (by decide) (by decide)))
theorem V7_v25 : V7 m ρ c main_v25 = Y1 m c := (s2_keep (W6 m ρ c) main_v25 (by decide)).trans (W6_v25 m ρ c)
theorem V7_arg8 : V7 m ρ c main_arg8 = L m c main_arg8 :=
  (s2_keep (W6 m ρ c) main_arg8 (by decide)).trans (W6_launch m ρ c main_arg8 (by decide) (by decide) (by decide) (by decide) (by decide) (by decide))

/-- The first stage of layer 2. -/
def H2 : Nodes := GinEntries.affineArr (agg (Y1 m c) (src m c) (dst m c)) (Y1 m c) (L m c main_arg8) (rowOf (L m c main_arg9))

theorem W8_v37 : W8 m ρ c (Proc.devRef .tc main_v37) = H2 m c :=
  (W8_arr m ρ c 4).trans ((Tiles.region2_out (V7 m ρ) c).trans (by
    rw [V7_v35, V7_v25, V7_arg8, V7_v36]
    rfl))
theorem W8_v25 : W8 m ρ c (Proc.devRef .tc main_v25) = Y1 m c := (W8_keep m ρ c main_v25 (by decide)).trans (V7_v25 m ρ c)

theorem W9_v37 : W9 m ρ c (Proc.devRef .tc main_v37) = H2 m c := (s3_keep (W8 m ρ c) main_v37 (by decide)).trans (W8_v37 m ρ c)
theorem W9_v40 : W9 m ρ c (Proc.devRef .tc main_v40) = colMean (H2 m c) := (s3_v40 (W8 m ρ c)).trans (congrArg colMean (W8_v37 m ρ c))
theorem W9_c9 : W9 m ρ c (Proc.devRef .tc main_c_9) = constantI S_ 32 0#32 := s3_c9 (W8 m ρ c)

theorem W10_v37 : W10 m ρ c (Proc.devRef .tc main_v37) = H2 m c := (s31_keep (W9 m ρ c) main_v37 (by decide)).trans (W9_v37 m ρ c)
theorem W10_v40 : W10 m ρ c (Proc.devRef .tc main_v40) = colMean (H2 m c) := (s31_keep (W9 m ρ c) main_v40 (by decide)).trans (W9_v40 m ρ c)
theorem W10_v41 : W10 m ρ c (Proc.devRef .tc main_v41) = colVar (H2 m c) :=
  (s31_v41 (W9 m ρ c) (W9_c9 m ρ c)).trans (congrArg colVar (W9_v37 m ρ c))

/-- An argument array before the row reshapes of layer 2. -/
theorem W10_launch (b : Ref sig .tc) (h0 : b ∉ wr0) (h2 : b ≠ main_v15) (h3 : b ∉ wr1) (h4 : b ∉ wr11) (h5 : b ∉ wr12)
    (h6 : b ≠ main_v25) (h7 : b ∉ wr2) (h8 : b ≠ main_v37) (h9 : b ∉ wr3) (h10 : b ∉ wr31) :
    W10 m ρ c (Proc.devRef .tc b) = L m c b :=
  (W10_from_W6 m ρ c b h7 h8 h9 h10).trans (W6_launch m ρ c b h0 h2 h3 h4 h5 h6)

theorem V11_v37 : V11 m ρ c main_v37 = H2 m c := (s32_keep (W10 m ρ c) main_v37 (by decide)).trans (W10_v37 m ρ c)
theorem V11_v42 : V11 m ρ c main_v42 = rowOf (colMean (H2 m c)) := (s32_v42 (W10 m ρ c)).trans (congrArg rowOf (W10_v40 m ρ c))
theorem V11_v43 : V11 m ρ c main_v43 = rowOf (colVar (H2 m c)) := (s32_v43 (W10 m ρ c)).trans (congrArg rowOf (W10_v41 m ρ c))
theorem V11_v44 : V11 m ρ c main_v44 = rowOf (L m c main_arg10) :=
  (s32_v44 (W10 m ρ c)).trans (congrArg rowOf (W10_launch m ρ c main_arg10 (by decide) (by decide) (by decide) (by decide) (by decide) (by decide) (by decide) (by decide) (by decide) (by decide)))
theorem V11_v45 : V11 m ρ c main_v45 = rowOf (L m c main_arg11) :=
  (s32_v45 (W10 m ρ c)).trans (congrArg rowOf (W10_launch m ρ c main_arg11 (by decide) (by decide) (by decide) (by decide) (by decide) (by decide) (by decide) (by decide) (by decide) (by decide)))
theorem V11_v46 : V11 m ρ c main_v46 = rowOf (L m c main_arg13) :=
  (s32_v46 (W10 m ρ c)).trans (congrArg rowOf (W10_launch m ρ c main_arg13 (by decide) (by decide) (by decide) (by decide) (by decide) (by decide) (by decide) (by decide) (by decide) (by decide)))
theorem V11_arg12 : V11 m ρ c main_arg12 = L m c main_arg12 :=
  (s32_keep (W10 m ρ c) main_arg12 (by decide)).trans (W10_launch m ρ c main_arg12 (by decide) (by decide) (by decide) (by decide) (by decide) (by decide) (by decide) (by decide) (by decide) (by decide))

/-- The output of layer 2, in the kernel's arrangement. -/
def Y2 : Nodes := GinEntries.headArr (H2 m c) (rowOf (colMean (H2 m c))) (rowOf (colVar (H2 m c))) (rowOf (L m c main_arg10))
  (rowOf (L m c main_arg11)) (L m c main_arg12) (rowOf (L m c main_arg13))

/-- The second result at the end: layer 2's output. -/
theorem W12_v47 : W12 m ρ c (Proc.devRef .tc main_v47) = Y2 m c :=
  (W12_arr m ρ c 7).trans ((Heads.region3_out (V11 m ρ) c).trans (by
    rw [V11_v37, V11_v42, V11_v43, V11_v44, V11_v45, V11_arg12, V11_v46]
    rfl))

/-- The first result at the end: layer 1's output, which nothing after region 1 writes. -/
theorem W12_v25 : W12 m ρ c (Proc.devRef .tc main_v25) = Y1 m c :=
  (W12_of_ne m ρ c main_v25 (by decide)).trans
    ((s32_keep (W10 m ρ c) main_v25 (by decide)).trans
      ((s31_keep (W9 m ρ c) main_v25 (by decide)).trans
        ((s3_keep (W8 m ρ c) main_v25 (by decide)).trans (W8_v25 m ρ c))))

/-! ## The kernel's arrangement of a layer is the reference's layer -/

/-- A layer computed as the kernel computes it — the stages entry by entry, the per-column vectors reshaped into rows — is
    the reference's layer. -/
theorem layer_eq (x : Nodes) (s d : Ends) (W1 : Sq) (b1 g be : Col) (W2 : Sq) (b2 : Col) :
    GinEntries.headArr (GinEntries.affineArr (agg x s d) x W1 (rowOf b1))
        (rowOf (colMean (GinEntries.affineArr (agg x s d) x W1 (rowOf b1))))
        (rowOf (colVar (GinEntries.affineArr (agg x s d) x W1 (rowOf b1)))) (rowOf g) (rowOf be) W2 (rowOf b2)
      = layer x s d W1 b1 g be W2 b2 := by
  simp only [rowOf_eq_asRow]
  rw [← Cert.ReferenceIdeal.RefEntries.lin_eq, ← Cert.ReferenceIdeal.RefEntries.bnHead_eq]
  rfl

theorem Y1_eq : Y1 m c = layer (L m c main_arg0) (src m c) (dst m c) (L m c main_arg2) (L m c main_arg3) (L m c main_arg4)
    (L m c main_arg5) (L m c main_arg6) (L m c main_arg7) :=
  layer_eq _ _ _ _ _ _ _ _ _

theorem Y2_eq : Y2 m c = layer (Y1 m c) (src m c) (dst m c) (L m c main_arg8) (L m c main_arg9) (L m c main_arg10)
    (L m c main_arg11) (L m c main_arg12) (L m c main_arg13) :=
  layer_eq _ _ _ _ _ _ _ _ _

end Cert.KernelIdeal.Fold

end
-- ==== Proof.RefOps.lean ====
/-
  The reference computation as a straight line of array operations, and its run.

  The program is two windows of statements run in order; three helper functions (a column variance, which itself
  calls a guarded choice, and a clamp at zero) are called at six places. Written out with each call replaced by the
  callee's operations over that call's own buffers, the two windows are straight lines of 85 and 63 operations.
  The line is also given cut into the stretches that compute one stage each (`opsA0` … `opsB5`), which is how it
  is read afterwards: the contents after a line `a ++ b` are those after `b` from those after `a`.

  `run_main`: from any memory with zero counters every weakly fair execution terminates with every buffer at
  the line's fold over the launch contents.
-/
import proofs.«102369_j9122510537161_1_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-! ## The stretches, one per stage -/

/-- The edge list's two rows as vectors: the sources, then the destinations. -/
def opsA0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- First layer, neighbour aggregation: negative source indices wrapped, the source rows gathered, and added into zero rows at the destinations. -/
def opsA1 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- First layer, first dense stage: the aggregate plus the features, times the weights, plus the bias repeated down the rows. -/
def opsA2 : List (HloOp τ sig (Elt F)) :=
  [ binary main_v13 main_arg0 main_v14 (addf : (⟨S50000x64, .f32⟩ : BufTy).Contents (Elt F) → (⟨S50000x64, .f32⟩ : BufTy).Contents (Elt F) → (⟨S50000x64, .f32⟩ : BufTy).Contents (Elt F)),
    binary main_v14 main_arg2 main_v15 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S50000x64 ![0, 1] bcast_S1x64_S50000x64_0_1 : (⟨S1x64, .f32⟩ : BufTy).Contents (Elt F) → (⟨S50000x64, .f32⟩ : BufTy).Contents (Elt F)),
    binary main_v15 main_v17 main_v18 (addf : (⟨S50000x64, .f32⟩ : BufTy).Contents (Elt F) → (⟨S50000x64, .f32⟩ : BufTy).Contents (Elt F) → (⟨S50000x64, .f32⟩ : BufTy).Contents (Elt F)) ]

/-- First layer, the column means: the column sums divided by the number of rows. -/
def opsA3 : List (HloOp τ sig (Elt F)) :=
  [ nullary main_cst_1 (constant S_ .f32 0x00000000#32),
    binary main_v18 main_cst_1 main_v19 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_2 (constant S_ .f32 0x47435000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)) ]

/-- First layer, the column variances: the correction 0, the squared deviations from the column means summed and divided, guarded by the sign of the divisor. -/
def opsA4 : List (HloOp τ sig (Elt F)) :=
  [ nullary main_c_3 (constantI S_ 32 0#32),
    TRef.nullary main_call0.cst (constant S_ .f32 0x00000000#32),
    TRef.binary (.of main_v18) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- First layer: normalisation, scale, shift, clamp at zero, the second dense stage, clamp at zero. -/
def opsA5 : List (HloOp τ sig (Elt F)) :=
  [ unary main_v21 main_v23 (broadcastInDim S1x64 ![1] bcast_S64_S1x64_1 : (⟨S64, .f32⟩ : BufTy).Contents (Elt F) → (⟨S1x64, .f32⟩ : BufTy).Contents (Elt F)),
    unary main_v23 main_v24 (broadcastInDim S50000x64 ![0, 1] bcast_S1x64_S50000x64_0_1 : (⟨S1x64, .f32⟩ : BufTy).Contents (Elt F) → (⟨S50000x64, .f32⟩ : BufTy).Contents (Elt F)),
    binary main_v18 main_v24 main_v25 (subf : (⟨S50000x64, .f32⟩ : BufTy).Contents (Elt F) → (⟨S50000x64, .f32⟩ : BufTy).Contents (Elt F) → (⟨S50000x64, .f32⟩ : BufTy).Contents (Elt F)),
    nullary main_cst_4 (constant S_ .f32 0x3727C5AC#32),
    unary main_cst_4 main_v26 (broadcastInDim S64 ![] bcast_S_S64 : (⟨S_, .f32⟩ : BufTy).Contents (Elt F) → (⟨S64, .f32⟩ : BufTy).Contents (Elt F)),
    binary main_v22 main_v26 main_v27 (addf : (⟨S64, .f32⟩ : BufTy).Contents (Elt F) → (⟨S64, .f32⟩ : BufTy).Contents (Elt F) → (⟨S64, .f32⟩ : BufTy).Contents (Elt F)),
    unary main_v27 main_v28 (Host.rsqrt : (⟨S64, .f32⟩ : BufTy).Contents (Elt F) → (⟨S64, .f32⟩ : BufTy).Contents (Elt F)),
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S50000x64 ![0, 1] bcast_S1x64_S50000x64_0_1 : (⟨S1x64, .f32⟩ : BufTy).Contents (Elt F) → (⟨S50000x64, .f32⟩ : BufTy).Contents (Elt F)),
    binary main_v25 main_v30 main_v31 (mulf : (⟨S50000x64, .f32⟩ : BufTy).Contents (Elt F) → (⟨S50000x64, .f32⟩ : BufTy).Contents (Elt F) → (⟨S50000x64, .f32⟩ : BufTy).Contents (Elt F)),
    unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S50000x64 ![0, 1] bcast_S1x64_S50000x64_0_1 : (⟨S1x64, .f32⟩ : BufTy).Contents (Elt F) → (⟨S50000x64, .f32⟩ : BufTy).Contents (Elt F)),
    binary main_v31 main_v33 main_v34 (mulf : (⟨S50000x64, .f32⟩ : BufTy).Contents (Elt F) → (⟨S50000x64, .f32⟩ : BufTy).Contents (Elt F) → (⟨S50000x64, .f32⟩ : BufTy).Contents (Elt F)),
    unary main_arg5 main_v35 (broadcastInDim S1x64 ![1] bcast_S64_S1x64_1 : (⟨S64, .f32⟩ : BufTy).Contents (Elt F) → (⟨S1x64, .f32⟩ : BufTy).Contents (Elt F)),
    unary main_v35 main_v36 (broadcastInDim S50000x64 ![0, 1] bcast_S1x64_S50000x64_0_1 : (⟨S1x64, .f32⟩ : BufTy).Contents (Elt F) → (⟨S50000x64, .f32⟩ : BufTy).Contents (Elt F)),
    binary main_v34 main_v36 main_v37 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v37) main_call1.v0 main_call1.v1 maximumf,
    binary main_v38 main_arg6 main_v39 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v40 (broadcastInDim S1x64 ![1] bcast_S64_S1x64_1 : (⟨S64, .f32⟩ : BufTy).Contents (Elt F) → (⟨S1x64, .f32⟩ : BufTy).Contents (Elt F)),
    unary main_v40 main_v41 (broadcastInDim S50000x64 ![0, 1] bcast_S1x64_S50000x64_0_1 : (⟨S1x64, .f32⟩ : BufTy).Contents (Elt F) → (⟨S50000x64, .f32⟩ : BufTy).Contents (Elt F)),
    binary main_v39 main_v41 main_v42 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (.of main_v42) main_call2.v0 main_call2.v1 maximumf ]

/-- Second layer, neighbour aggregation, up to the gathered source rows. -/
def opsB1a : List (HloOp τ sig (Elt F)) :=
  [ nullary main_c_5 (constantI S_ 32 0#32),
    unary main_c_5 main_v44 (broadcastInDim S800000 ![] bcast_S_S800000 : (⟨S_, .i32⟩ : BufTy).Contents (Elt F) → (⟨S800000, .i32⟩ : BufTy).Contents (Elt F)),
    binary main_v1 main_v44 main_v45 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v46 (broadcastInDim S800000 ![] bcast_S_S800000 : (⟨S_, .i32⟩ : BufTy).Contents (Elt F) → (⟨S800000, .i32⟩ : BufTy).Contents (Elt F)),
    binary main_v1 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v43 main_v49 main_v50 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Second layer, neighbour aggregation, the sum into zero rows at the destinations. -/
def opsB1b : List (HloOp τ sig (Elt F)) :=
  [ nullary main_cst_7 (constant S_ .f32 0x00000000#32),
    unary main_cst_7 main_v51 (broadcastInDim S50000x64 ![] bcast_S_S50000x64 : (⟨S_, .f32⟩ : BufTy).Contents (Elt F) → (⟨S50000x64, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Second layer, first dense stage. -/
def opsB2 : List (HloOp τ sig (Elt F)) :=
  [ binary main_v53 main_v43 main_v54 (addf : (⟨S50000x64, .f32⟩ : BufTy).Contents (Elt F) → (⟨S50000x64, .f32⟩ : BufTy).Contents (Elt F) → (⟨S50000x64, .f32⟩ : BufTy).Contents (Elt F)),
    binary main_v54 main_arg8 main_v55 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v56 (broadcastInDim S1x64 ![1] bcast_S64_S1x64_1 : (⟨S64, .f32⟩ : BufTy).Contents (Elt F) → (⟨S1x64, .f32⟩ : BufTy).Contents (Elt F)),
    unary main_v56 main_v57 (broadcastInDim S50000x64 ![0, 1] bcast_S1x64_S50000x64_0_1 : (⟨S1x64, .f32⟩ : BufTy).Contents (Elt F) → (⟨S50000x64, .f32⟩ : BufTy).Contents (Elt F)),
    binary main_v55 main_v57 main_v58 (addf : (⟨S50000x64, .f32⟩ : BufTy).Contents (Elt F) → (⟨S50000x64, .f32⟩ : BufTy).Contents (Elt F) → (⟨S50000x64, .f32⟩ : BufTy).Contents (Elt F)) ]

/-- Second layer, the column means. -/
def opsB3 : List (HloOp τ sig (Elt F)) :=
  [ nullary main_cst_8 (constant S_ .f32 0x00000000#32),
    binary main_v58 main_cst_8 main_v59 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_9 (constant S_ .f32 0x47435000#32),
    unary main_cst_9 main_v60 (broadcastInDim S64 ![] bcast_S_S64 : (⟨S_, .f32⟩ : BufTy).Contents (Elt F) → (⟨S64, .f32⟩ : BufTy).Contents (Elt F)),
    binary main_v59 main_v60 main_v61 (Host.divf : (⟨S64, .f32⟩ : BufTy).Contents (Elt F) → (⟨S64, .f32⟩ : BufTy).Contents (Elt F) → (⟨S64, .f32⟩ : BufTy).Contents (Elt F)) ]

/-- Second layer, the column variances. -/
def opsB4 : List (HloOp τ sig (Elt F)) :=
  [ nullary main_c_10 (constantI S_ 32 0#32),
    TRef.nullary main_call3.cst (constant S_ .f32 0x00000000#32),
    TRef.binary (.of main_v58) main_call3.cst main_call3.v0 (fun x v => Host.reduceAdd x v reducesTo_S50000x64_S64_d0 h_S_),
    TRef.unary main_call3.v0 main_call3.v1 (broadcastInDim S1x64 ![1] bcast_S64_S1x64_1),
    TRef.nullary main_call3.cst_0 (constant S_ .f32 0x47435000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S50000x64 ![0, 1] bcast_S1x64_S50000x64_0_1),
    TRef.binary (.of main_v58) main_call3.v4 main_call3.v5 subf,
    TRef.binary main_call3.v5 main_call3.v5 main_call3.v6 mulf,
    TRef.unary (.of main_c_10) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b) ]

/-- Second layer: normalisation, scale, shift, clamp at zero, the second dense stage, clamp at zero. -/
def opsB5 : List (HloOp τ sig (Elt F)) :=
  [ unary main_v61 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v58 main_v64 main_v65 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S50000x64 ![0, 1] bcast_S1x64_S50000x64_0_1 : (⟨S1x64, .f32⟩ : BufTy).Contents (Elt F) → (⟨S50000x64, .f32⟩ : BufTy).Contents (Elt F)),
    binary main_v65 main_v70 main_v71 (mulf : (⟨S50000x64, .f32⟩ : BufTy).Contents (Elt F) → (⟨S50000x64, .f32⟩ : BufTy).Contents (Elt F) → (⟨S50000x64, .f32⟩ : BufTy).Contents (Elt F)),
    unary main_arg10 main_v72 (broadcastInDim S1x64 ![1] bcast_S64_S1x64_1 : (⟨S64, .f32⟩ : BufTy).Contents (Elt F) → (⟨S1x64, .f32⟩ : BufTy).Contents (Elt F)),
    unary main_v72 main_v73 (broadcastInDim S50000x64 ![0, 1] bcast_S1x64_S50000x64_0_1 : (⟨S1x64, .f32⟩ : BufTy).Contents (Elt F) → (⟨S50000x64, .f32⟩ : BufTy).Contents (Elt F)),
    binary main_v71 main_v73 main_v74 (mulf : (⟨S50000x64, .f32⟩ : BufTy).Contents (Elt F) → (⟨S50000x64, .f32⟩ : BufTy).Contents (Elt F) → (⟨S50000x64, .f32⟩ : BufTy).Contents (Elt F)),
    unary main_arg11 main_v75 (broadcastInDim S1x64 ![1] bcast_S64_S1x64_1 : (⟨S64, .f32⟩ : BufTy).Contents (Elt F) → (⟨S1x64, .f32⟩ : BufTy).Contents (Elt F)),
    unary main_v75 main_v76 (broadcastInDim S50000x64 ![0, 1] bcast_S1x64_S50000x64_0_1 : (⟨S1x64, .f32⟩ : BufTy).Contents (Elt F) → (⟨S50000x64, .f32⟩ : BufTy).Contents (Elt F)),
    binary main_v74 main_v76 main_v77 (addf : (⟨S50000x64, .f32⟩ : BufTy).Contents (Elt F) → (⟨S50000x64, .f32⟩ : BufTy).Contents (Elt F) → (⟨S50000x64, .f32⟩ : BufTy).Contents (Elt F)),
    TRef.nullary main_call4.cst (constant S_ .f32 0x00000000#32),
    TRef.unary main_call4.cst main_call4.v0 (broadcastInDim S50000x64 ![] bcast_S_S50000x64),
    TRef.binary (.of main_v77) main_call4.v0 main_call4.v1 maximumf,
    binary main_v78 main_arg12 main_v79 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg13 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v79 main_v81 main_v82 (addf : (⟨S50000x64, .f32⟩ : BufTy).Contents (Elt F) → (⟨S50000x64, .f32⟩ : BufTy).Contents (Elt F) → (⟨S50000x64, .f32⟩ : BufTy).Contents (Elt F)),
    TRef.nullary main_call5.cst (constant S_ .f32 0x00000000#32),
    TRef.unary main_call5.cst main_call5.v0 (broadcastInDim S50000x64 ![] bcast_S_S50000x64),
    TRef.binary (.of main_v82) main_call5.v0 main_call5.v1 maximumf ]

/-! ## The two windows as straight lines -/

/-- The first window's 85 operations, the calls written out. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v13 main_arg0 main_v14 (addf : (⟨S50000x64, .f32⟩ : BufTy).Contents (Elt F) → (⟨S50000x64, .f32⟩ : BufTy).Contents (Elt F) → (⟨S50000x64, .f32⟩ : BufTy).Contents (Elt F)),
    binary main_v14 main_arg2 main_v15 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S50000x64 ![0, 1] bcast_S1x64_S50000x64_0_1 : (⟨S1x64, .f32⟩ : BufTy).Contents (Elt F) → (⟨S50000x64, .f32⟩ : BufTy).Contents (Elt F)),
    binary main_v15 main_v17 main_v18 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x00000000#32),
    binary main_v18 main_cst_1 main_v19 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_2 (constant S_ .f32 0x47435000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v18) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v21 main_v23 (broadcastInDim S1x64 ![1] bcast_S64_S1x64_1 : (⟨S64, .f32⟩ : BufTy).Contents (Elt F) → (⟨S1x64, .f32⟩ : BufTy).Contents (Elt F)),
    unary main_v23 main_v24 (broadcastInDim S50000x64 ![0, 1] bcast_S1x64_S50000x64_0_1 : (⟨S1x64, .f32⟩ : BufTy).Contents (Elt F) → (⟨S50000x64, .f32⟩ : BufTy).Contents (Elt F)),
    binary main_v18 main_v24 main_v25 (subf : (⟨S50000x64, .f32⟩ : BufTy).Contents (Elt F) → (⟨S50000x64, .f32⟩ : BufTy).Contents (Elt F) → (⟨S50000x64, .f32⟩ : BufTy).Contents (Elt F)),
    nullary main_cst_4 (constant S_ .f32 0x3727C5AC#32),
    unary main_cst_4 main_v26 (broadcastInDim S64 ![] bcast_S_S64 : (⟨S_, .f32⟩ : BufTy).Contents (Elt F) → (⟨S64, .f32⟩ : BufTy).Contents (Elt F)),
    binary main_v22 main_v26 main_v27 (addf : (⟨S64, .f32⟩ : BufTy).Contents (Elt F) → (⟨S64, .f32⟩ : BufTy).Contents (Elt F) → (⟨S64, .f32⟩ : BufTy).Contents (Elt F)),
    unary main_v27 main_v28 (Host.rsqrt : (⟨S64, .f32⟩ : BufTy).Contents (Elt F) → (⟨S64, .f32⟩ : BufTy).Contents (Elt F)),
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S50000x64 ![0, 1] bcast_S1x64_S50000x64_0_1 : (⟨S1x64, .f32⟩ : BufTy).Contents (Elt F) → (⟨S50000x64, .f32⟩ : BufTy).Contents (Elt F)),
    binary main_v25 main_v30 main_v31 (mulf : (⟨S50000x64, .f32⟩ : BufTy).Contents (Elt F) → (⟨S50000x64, .f32⟩ : BufTy).Contents (Elt F) → (⟨S50000x64, .f32⟩ : BufTy).Contents (Elt F)),
    unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S50000x64 ![0, 1] bcast_S1x64_S50000x64_0_1 : (⟨S1x64, .f32⟩ : BufTy).Contents (Elt F) → (⟨S50000x64, .f32⟩ : BufTy).Contents (Elt F)),
    binary main_v31 main_v33 main_v34 (mulf : (⟨S50000x64, .f32⟩ : BufTy).Contents (Elt F) → (⟨S50000x64, .f32⟩ : BufTy).Contents (Elt F) → (⟨S50000x64, .f32⟩ : BufTy).Contents (Elt F)),
    unary main_arg5 main_v35 (broadcastInDim S1x64 ![1] bcast_S64_S1x64_1 : (⟨S64, .f32⟩ : BufTy).Contents (Elt F) → (⟨S1x64, .f32⟩ : BufTy).Contents (Elt F)),
    unary main_v35 main_v36 (broadcastInDim S50000x64 ![0, 1] bcast_S1x64_S50000x64_0_1 : (⟨S1x64, .f32⟩ : BufTy).Contents (Elt F) → (⟨S50000x64, .f32⟩ : BufTy).Contents (Elt F)),
    binary main_v34 main_v36 main_v37 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v37) main_call1.v0 main_call1.v1 maximumf,
    binary main_v38 main_arg6 main_v39 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v40 (broadcastInDim S1x64 ![1] bcast_S64_S1x64_1 : (⟨S64, .f32⟩ : BufTy).Contents (Elt F) → (⟨S1x64, .f32⟩ : BufTy).Contents (Elt F)),
    unary main_v40 main_v41 (broadcastInDim S50000x64 ![0, 1] bcast_S1x64_S50000x64_0_1 : (⟨S1x64, .f32⟩ : BufTy).Contents (Elt F) → (⟨S50000x64, .f32⟩ : BufTy).Contents (Elt F)),
    binary main_v39 main_v41 main_v42 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (.of main_v42) main_call2.v0 main_call2.v1 maximumf,
    nullary main_c_5 (constantI S_ 32 0#32),
    unary main_c_5 main_v44 (broadcastInDim S800000 ![] bcast_S_S800000 : (⟨S_, .i32⟩ : BufTy).Contents (Elt F) → (⟨S800000, .i32⟩ : BufTy).Contents (Elt F)),
    binary main_v1 main_v44 main_v45 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v46 (broadcastInDim S800000 ![] bcast_S_S800000 : (⟨S_, .i32⟩ : BufTy).Contents (Elt F) → (⟨S800000, .i32⟩ : BufTy).Contents (Elt F)),
    binary main_v1 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v43 main_v49 main_v50 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The second window's 63 operations, the calls written out. -/
abbrev ops1 : List (HloOp τ sig (Elt F)) :=
  [ nullary main_cst_7 (constant S_ .f32 0x00000000#32),
    unary main_cst_7 main_v51 (broadcastInDim S50000x64 ![] bcast_S_S50000x64 : (⟨S_, .f32⟩ : BufTy).Contents (Elt F) → (⟨S50000x64, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v53 main_v43 main_v54 (addf : (⟨S50000x64, .f32⟩ : BufTy).Contents (Elt F) → (⟨S50000x64, .f32⟩ : BufTy).Contents (Elt F) → (⟨S50000x64, .f32⟩ : BufTy).Contents (Elt F)),
    binary main_v54 main_arg8 main_v55 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v56 (broadcastInDim S1x64 ![1] bcast_S64_S1x64_1 : (⟨S64, .f32⟩ : BufTy).Contents (Elt F) → (⟨S1x64, .f32⟩ : BufTy).Contents (Elt F)),
    unary main_v56 main_v57 (broadcastInDim S50000x64 ![0, 1] bcast_S1x64_S50000x64_0_1 : (⟨S1x64, .f32⟩ : BufTy).Contents (Elt F) → (⟨S50000x64, .f32⟩ : BufTy).Contents (Elt F)),
    binary main_v55 main_v57 main_v58 (addf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x00000000#32),
    binary main_v58 main_cst_8 main_v59 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_9 (constant S_ .f32 0x47435000#32),
    unary main_cst_9 main_v60 (broadcastInDim S64 ![] bcast_S_S64 : (⟨S_, .f32⟩ : BufTy).Contents (Elt F) → (⟨S64, .f32⟩ : BufTy).Contents (Elt F)),
    binary main_v59 main_v60 main_v61 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call3.cst (constant S_ .f32 0x00000000#32),
    TRef.binary (.of main_v58) main_call3.cst main_call3.v0 (fun x v => Host.reduceAdd x v reducesTo_S50000x64_S64_d0 h_S_),
    TRef.unary main_call3.v0 main_call3.v1 (broadcastInDim S1x64 ![1] bcast_S64_S1x64_1),
    TRef.nullary main_call3.cst_0 (constant S_ .f32 0x47435000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S50000x64 ![0, 1] bcast_S1x64_S50000x64_0_1),
    TRef.binary (.of main_v58) main_call3.v4 main_call3.v5 subf,
    TRef.binary main_call3.v5 main_call3.v5 main_call3.v6 mulf,
    TRef.unary (.of main_c_10) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v61 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v58 main_v64 main_v65 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S50000x64 ![0, 1] bcast_S1x64_S50000x64_0_1 : (⟨S1x64, .f32⟩ : BufTy).Contents (Elt F) → (⟨S50000x64, .f32⟩ : BufTy).Contents (Elt F)),
    binary main_v65 main_v70 main_v71 (mulf : (⟨S50000x64, .f32⟩ : BufTy).Contents (Elt F) → (⟨S50000x64, .f32⟩ : BufTy).Contents (Elt F) → (⟨S50000x64, .f32⟩ : BufTy).Contents (Elt F)),
    unary main_arg10 main_v72 (broadcastInDim S1x64 ![1] bcast_S64_S1x64_1 : (⟨S64, .f32⟩ : BufTy).Contents (Elt F) → (⟨S1x64, .f32⟩ : BufTy).Contents (Elt F)),
    unary main_v72 main_v73 (broadcastInDim S50000x64 ![0, 1] bcast_S1x64_S50000x64_0_1 : (⟨S1x64, .f32⟩ : BufTy).Contents (Elt F) → (⟨S50000x64, .f32⟩ : BufTy).Contents (Elt F)),
    binary main_v71 main_v73 main_v74 (mulf : (⟨S50000x64, .f32⟩ : BufTy).Contents (Elt F) → (⟨S50000x64, .f32⟩ : BufTy).Contents (Elt F) → (⟨S50000x64, .f32⟩ : BufTy).Contents (Elt F)),
    unary main_arg11 main_v75 (broadcastInDim S1x64 ![1] bcast_S64_S1x64_1 : (⟨S64, .f32⟩ : BufTy).Contents (Elt F) → (⟨S1x64, .f32⟩ : BufTy).Contents (Elt F)),
    unary main_v75 main_v76 (broadcastInDim S50000x64 ![0, 1] bcast_S1x64_S50000x64_0_1 : (⟨S1x64, .f32⟩ : BufTy).Contents (Elt F) → (⟨S50000x64, .f32⟩ : BufTy).Contents (Elt F)),
    binary main_v74 main_v76 main_v77 (addf : (⟨S50000x64, .f32⟩ : BufTy).Contents (Elt F) → (⟨S50000x64, .f32⟩ : BufTy).Contents (Elt F) → (⟨S50000x64, .f32⟩ : BufTy).Contents (Elt F)),
    TRef.nullary main_call4.cst (constant S_ .f32 0x00000000#32),
    TRef.unary main_call4.cst main_call4.v0 (broadcastInDim S50000x64 ![] bcast_S_S50000x64),
    TRef.binary (.of main_v77) main_call4.v0 main_call4.v1 maximumf,
    binary main_v78 main_arg12 main_v79 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg13 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v79 main_v81 main_v82 (addf : (⟨S50000x64, .f32⟩ : BufTy).Contents (Elt F) → (⟨S50000x64, .f32⟩ : BufTy).Contents (Elt F) → (⟨S50000x64, .f32⟩ : BufTy).Contents (Elt F)),
    TRef.nullary main_call5.cst (constant S_ .f32 0x00000000#32),
    TRef.unary main_call5.cst main_call5.v0 (broadcastInDim S50000x64 ![] bcast_S_S50000x64),
    TRef.binary (.of main_v82) main_call5.v0 main_call5.v1 maximumf ]

/-- The whole line. -/
def ops : List (HloOp τ sig (Elt F)) := ops0 ++ ops1

/-- The first window is its stretches in order. -/
theorem ops0_eq : (ops0 : List (HloOp τ sig (Elt F))) = opsA0 ++ (opsA1 ++ (opsA2 ++ (opsA3 ++ (opsA4 ++ (opsA5 ++ opsB1a))))) := rfl
/-- The second window is its stretches in order. -/
theorem ops1_eq : (ops1 : List (HloOp τ sig (Elt F))) = opsB1b ++ (opsB2 ++ (opsB3 ++ (opsB4 ++ opsB5))) := rfl

-- eighty-five binds re-associated: the rewrite under the chain recurses once per statement
set_option maxRecDepth 4096 in
set_option maxHeartbeats 1000000 in
/-- The first window is that straight line: the helpers' definitions unfolded at their calls, both sides are one
    chain of steps once sequencing is re-associated. -/
theorem part0_eq (c : Dev nD) : main_part0 (F := F) c = seq ops0 := by
  simp only [main_part0, fn_var.body, fn_where.body, fn_relu.body, seq, bind_assoc, pure_bind]
  rfl

set_option maxRecDepth 4096 in
set_option maxHeartbeats 1000000 in
/-- The second window likewise. -/
theorem part1_eq (c : Dev nD) : main_part1 (F := F) c = seq ops1 := by
  simp only [main_part1, fn_var.body, fn_where.body, fn_relu.body, seq, bind_assoc, pure_bind]

/-- The program is the whole line. -/
theorem main_eq (c : Dev nD) : main (F := F) c = seq ops := by
  unfold ops
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops1_sub : (ops1 : List (HloOp τ sig (Elt F))).Forall fun op => op.bufs ⊆ tcRefs τ sig :=
  ⟨nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

/-- Every operation of the line touches buffers of the core only. -/
theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line determines what it writes. -/
theorem ops_fresh : ∀ op ∈ (ops : List (HloOp τ sig (Elt F))), op.fresh = ∅ :=
  fun op h => (List.mem_append.mp h).elim
    (List.forall_iff_forall_mem.mp ops0_fresh op) (List.forall_iff_forall_mem.mp ops1_fresh op)

/-- At the compiled mesh, for any float values, from any memory with zero counters: every weakly fair execution of
    the program terminates, and every final state has each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefLayer1.lean ====
/-
  The first layer's stretches of the reference line, read one by one.

  For each stretch: the buffers it writes; that every other buffer keeps its contents; and that the stretch's result
  buffer ends at the stage's function of the contents, BEFORE the stretch, of the buffers the stage reads. The
  starting contents are arbitrary, so the stretches compose.
-/
import proofs.«102369_j9122510537161_1_alg».proof.Proof.RefStages
import proofs.«102369_j9122510537161_1_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

/-- An operation that writes the one buffer `y` writes inside any list of buffers holding `y`. -/
theorem writes_sub_of_mem {τ : Topo} {sig : RefSig} {Val : EltTy → Type} {op : HloOp τ sig Val} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

-- sums, gathers and scatters over a whole array stay folded while a stretch's contents are compared
attribute [local irreducible] Host.gather Host.scatterAdd Host.reduceAdd

/-- Buffer contents at the ideal instance. -/
abbrev VI := Valuation τ sig (Elt Ideal)

/-- The buffers the stretch `opsA0` writes. -/
def WA0 : List (Ref sig .tc) := [main_v0, main_v1, main_v2, main_v3]

theorem A0_writes {F : FTy → Type} [FloatOps F] :
    (opsA0 : List (HloOp τ sig (Elt F))).Forall fun op => op.writes ⊆ (WA0.map (Proc.devRef (τ := τ) .tc)).toFinset := by
  unfold opsA0
  exact ⟨writes_sub_of_mem (y := main_v0) rfl (by decide),
    writes_sub_of_mem (y := main_v1) rfl (by decide),
    writes_sub_of_mem (y := main_v2) rfl (by decide),
    writes_sub_of_mem (y := main_v3) rfl (by decide)⟩

/-- A buffer the stretch `opsA0` does not write keeps its contents. -/
theorem A0_frame {F : FTy → Type} [FloatOps F] (V : Valuation τ sig (Elt F)) {r : Ref sig .tc} (hr : r ∉ WA0) :
    after opsA0 V (no_index (Proc.devRef .tc r)) = V (Proc.devRef .tc r) :=
  after_of_writes_sub opsA0 V A0_writes hr

/-- The buffers the stretch `opsA1` writes. -/
def WA1 : List (Ref sig .tc) := [main_c, main_v4, main_v5, main_c_0, main_v6, main_v7, main_v8, main_v9, main_v10, main_cst, main_v11, main_v12, main_v13]

theorem A1_writes {F : FTy → Type} [FloatOps F] :
    (opsA1 : List (HloOp τ sig (Elt F))).Forall fun op => op.writes ⊆ (WA1.map (Proc.devRef (τ := τ) .tc)).toFinset := by
  unfold opsA1
  exact ⟨writes_sub_of_mem (y := main_c) rfl (by decide),
    writes_sub_of_mem (y := main_v4) rfl (by decide),
    writes_sub_of_mem (y := main_v5) rfl (by decide),
    writes_sub_of_mem (y := main_c_0) rfl (by decide),
    writes_sub_of_mem (y := main_v6) rfl (by decide),
    writes_sub_of_mem (y := main_v7) rfl (by decide),
    writes_sub_of_mem (y := main_v8) rfl (by decide),
    writes_sub_of_mem (y := main_v9) rfl (by decide),
    writes_sub_of_mem (y := main_v10) rfl (by decide),
    writes_sub_of_mem (y := main_cst) rfl (by decide),
    writes_sub_of_mem (y := main_v11) rfl (by decide),
    writes_sub_of_mem (y := main_v12) rfl (by decide),
    writes_sub_of_mem (y := main_v13) rfl (by decide)⟩

/-- A buffer the stretch `opsA1` does not write keeps its contents. -/
theorem A1_frame {F : FTy → Type} [FloatOps F] (V : Valuation τ sig (Elt F)) {r : Ref sig .tc} (hr : r ∉ WA1) :
    after opsA1 V (no_index (Proc.devRef .tc r)) = V (Proc.devRef .tc r) :=
  after_of_writes_sub opsA1 V A1_writes hr

/-- The buffers the stretch `opsA2` writes. -/
def WA2 : List (Ref sig .tc) := [main_v14, main_v15, main_v16, main_v17, main_v18]

theorem A2_writes {F : FTy → Type} [FloatOps F] :
    (opsA2 : List (HloOp τ sig (Elt F))).Forall fun op => op.writes ⊆ (WA2.map (Proc.devRef (τ := τ) .tc)).toFinset := by
  unfold opsA2
  exact ⟨writes_sub_of_mem (y := main_v14) rfl (by decide),
    writes_sub_of_mem (y := main_v15) rfl (by decide),
    writes_sub_of_mem (y := main_v16) rfl (by decide),
    writes_sub_of_mem (y := main_v17) rfl (by decide),
    writes_sub_of_mem (y := main_v18) rfl (by decide)⟩

/-- A buffer the stretch `opsA2` does not write keeps its contents. -/
theorem A2_frame {F : FTy → Type} [FloatOps F] (V : Valuation τ sig (Elt F)) {r : Ref sig .tc} (hr : r ∉ WA2) :
    after opsA2 V (no_index (Proc.devRef .tc r)) = V (Proc.devRef .tc r) :=
  after_of_writes_sub opsA2 V A2_writes hr

/-- The buffers the stretch `opsA3` writes. -/
def WA3 : List (Ref sig .tc) := [main_cst_1, main_v19, main_cst_2, main_v20, main_v21]

theorem A3_writes {F : FTy → Type} [FloatOps F] :
    (opsA3 : List (HloOp τ sig (Elt F))).Forall fun op => op.writes ⊆ (WA3.map (Proc.devRef (τ := τ) .tc)).toFinset := by
  unfold opsA3
  exact ⟨writes_sub_of_mem (y := main_cst_1) rfl (by decide),
    writes_sub_of_mem (y := main_v19) rfl (by decide),
    writes_sub_of_mem (y := main_cst_2) rfl (by decide),
    writes_sub_of_mem (y := main_v20) rfl (by decide),
    writes_sub_of_mem (y := main_v21) rfl (by decide)⟩

/-- A buffer the stretch `opsA3` does not write keeps its contents. -/
theorem A3_frame {F : FTy → Type} [FloatOps F] (V : Valuation τ sig (Elt F)) {r : Ref sig .tc} (hr : r ∉ WA3) :
    after opsA3 V (no_index (Proc.devRef .tc r)) = V (Proc.devRef .tc r) :=
  after_of_writes_sub opsA3 V A3_writes hr

/-- The buffers the stretch `opsA4` writes. -/
def WA4 : List (Ref sig .tc) := [main_c_3, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]

theorem A4_writes {F : FTy → Type} [FloatOps F] :
    (opsA4 : List (HloOp τ sig (Elt F))).Forall fun op => op.writes ⊆ (WA4.map (Proc.devRef (τ := τ) .tc)).toFinset := by
  unfold opsA4
  exact ⟨writes_sub_of_mem (y := main_c_3) rfl (by decide),
    writes_sub_of_mem (y := main_call0.cst.ref) rfl (by decide),
    writes_sub_of_mem (y := main_call0.v0.ref) rfl (by decide),
    writes_sub_of_mem (y := main_call0.v1.ref) rfl (by decide),
    writes_sub_of_mem (y := main_call0.cst_0.ref) rfl (by decide),
    writes_sub_of_mem (y := main_call0.v2.ref) rfl (by decide),
    writes_sub_of_mem (y := main_call0.v3.ref) rfl (by decide),
    writes_sub_of_mem (y := main_call0.v4.ref) rfl (by decide),
    writes_sub_of_mem (y := main_call0.v5.ref) rfl (by decide),
    writes_sub_of_mem (y := main_call0.v6.ref) rfl (by decide),
    writes_sub_of_mem (y := main_call0.v7.ref) rfl (by decide),
    writes_sub_of_mem (y := main_call0.cst_1.ref) rfl (by decide),
    writes_sub_of_mem (y := main_call0.v8.ref) rfl (by decide),
    writes_sub_of_mem (y := main_call0.cst_2.ref) rfl (by decide),
    writes_sub_of_mem (y := main_call0.v9.ref) rfl (by decide),
    writes_sub_of_mem (y := main_call0.v10.ref) rfl (by decide),
    writes_sub_of_mem (y := main_call0.v11.ref) rfl (by decide),
    writes_sub_of_mem (y := main_call0.cst_3.ref) rfl (by decide),
    writes_sub_of_mem (y := main_call0.v12.ref) rfl (by decide),
    writes_sub_of_mem (y := main_call0.cst_4.ref) rfl (by decide),
    writes_sub_of_mem (y := main_call0.call0.v0.ref) rfl (by decide),
    writes_sub_of_mem (y := main_call0.call0.v1.ref) rfl (by decide),
    writes_sub_of_mem (y := main_call0.call0.v2.ref) rfl (by decide)⟩

/-- A buffer the stretch `opsA4` does not write keeps its contents. -/
theorem A4_frame {F : FTy → Type} [FloatOps F] (V : Valuation τ sig (Elt F)) {r : Ref sig .tc} (hr : r ∉ WA4) :
    after opsA4 V (no_index (Proc.devRef .tc r)) = V (Proc.devRef .tc r) :=
  after_of_writes_sub opsA4 V A4_writes hr

/-- The buffers the stretch `opsA5` writes. -/
def WA5 : List (Ref sig .tc) := [main_v23, main_v24, main_v25, main_cst_4, main_v26, main_v27, main_v28, main_v29, main_v30, main_v31, main_v32, main_v33, main_v34, main_v35, main_v36, main_v37, main_call1.cst.ref, main_call1.v0.ref, main_call1.v1.ref, main_v39, main_v40, main_v41, main_v42, main_call2.cst.ref, main_call2.v0.ref, main_call2.v1.ref]

theorem A5_writes {F : FTy → Type} [FloatOps F] :
    (opsA5 : List (HloOp τ sig (Elt F))).Forall fun op => op.writes ⊆ (WA5.map (Proc.devRef (τ := τ) .tc)).toFinset := by
  unfold opsA5
  exact ⟨writes_sub_of_mem (y := main_v23) rfl (by decide),
    writes_sub_of_mem (y := main_v24) rfl (by decide),
    writes_sub_of_mem (y := main_v25) rfl (by decide),
    writes_sub_of_mem (y := main_cst_4) rfl (by decide),
    writes_sub_of_mem (y := main_v26) rfl (by decide),
    writes_sub_of_mem (y := main_v27) rfl (by decide),
    writes_sub_of_mem (y := main_v28) rfl (by decide),
    writes_sub_of_mem (y := main_v29) rfl (by decide),
    writes_sub_of_mem (y := main_v30) rfl (by decide),
    writes_sub_of_mem (y := main_v31) rfl (by decide),
    writes_sub_of_mem (y := main_v32) rfl (by decide),
    writes_sub_of_mem (y := main_v33) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_call1.cst.ref) rfl (by decide),
    writes_sub_of_mem (y := main_call1.v0.ref) rfl (by decide),
    writes_sub_of_mem (y := main_call1.v1.ref) rfl (by decide),
    writes_sub_of_mem (y := main_v39) rfl (by decide),
    writes_sub_of_mem (y := main_v40) rfl (by decide),
    writes_sub_of_mem (y := main_v41) rfl (by decide),
    writes_sub_of_mem (y := main_v42) rfl (by decide),
    writes_sub_of_mem (y := main_call2.cst.ref) rfl (by decide),
    writes_sub_of_mem (y := main_call2.v0.ref) rfl (by decide),
    writes_sub_of_mem (y := main_call2.v1.ref) rfl (by decide)⟩

/-- A buffer the stretch `opsA5` does not write keeps its contents. -/
theorem A5_frame {F : FTy → Type} [FloatOps F] (V : Valuation τ sig (Elt F)) {r : Ref sig .tc} (hr : r ∉ WA5) :
    after opsA5 V (no_index (Proc.devRef .tc r)) = V (Proc.devRef .tc r) :=
  after_of_writes_sub opsA5 V A5_writes hr

/-! ## What each stretch computes -/

set_option maxHeartbeats 400000 in
theorem A0_v1 (V : VI) :
    after (opsA0 (F := Ideal)) V (no_index (Proc.devRef .tc main_v1))
      = srcOf (V (Proc.devRef .tc main_arg1)) := by
  unfold opsA0
  after_results_simp
  rfl

set_option maxHeartbeats 400000 in
theorem A0_v3 (V : VI) :
    after (opsA0 (F := Ideal)) V (no_index (Proc.devRef .tc main_v3))
      = dstOf (V (Proc.devRef .tc main_arg1)) := by
  unfold opsA0
  after_results_simp
  rfl

set_option maxHeartbeats 400000 in
theorem A1_v13 (V : VI) :
    after (opsA1 (F := Ideal)) V (no_index (Proc.devRef .tc main_v13))
      = agg (V (Proc.devRef .tc main_arg0)) (V (Proc.devRef .tc main_v1)) (V (Proc.devRef .tc main_v3)) := by
  unfold opsA1
  after_results_simp
  rfl

set_option maxHeartbeats 400000 in
theorem A2_v18 (V : VI) :
    after (opsA2 (F := Ideal)) V (no_index (Proc.devRef .tc main_v18))
      = lin (V (Proc.devRef .tc main_v13)) (V (Proc.devRef .tc main_arg0)) (V (Proc.devRef .tc main_arg2)) (V (Proc.devRef .tc main_arg3)) := by
  unfold opsA2
  after_results_simp
  rfl

set_option maxHeartbeats 400000 in
theorem A3_v21 (V : VI) :
    after (opsA3 (F := Ideal)) V (no_index (Proc.devRef .tc main_v21))
      = colMean (V (Proc.devRef .tc main_v18)) := by
  unfold opsA3
  after_results_simp
  rfl

set_option maxHeartbeats 1000000 in
theorem A4_v22 (V : VI) :
    after (opsA4 (F := Ideal)) V (no_index (Proc.devRef .tc main_v22))
      = colVar (V (Proc.devRef .tc main_v18)) := by
  unfold opsA4
  after_results_simp
  rfl

set_option maxHeartbeats 1000000 in
theorem A5_v43 (V : VI) :
    after (opsA5 (F := Ideal)) V (no_index (Proc.devRef .tc main_v43))
      = bnHead (V (Proc.devRef .tc main_v18)) (V (Proc.devRef .tc main_v21)) (V (Proc.devRef .tc main_v22)) (V (Proc.devRef .tc main_arg4)) (V (Proc.devRef .tc main_arg5)) (V (Proc.devRef .tc main_arg6)) (V (Proc.devRef .tc main_arg7)) := by
  unfold opsA5
  after_results_simp
  rfl

end Cert.ReferenceIdeal.RefValue

end
-- ==== Proof.RefLayer2.lean ====
/-
  The second layer's stretches of the reference line, read one by one, as the first layer's are.
-/
import proofs.«102369_j9122510537161_1_alg».proof.Proof.RefLayer1

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

-- sums, gathers and scatters over a whole array stay folded while a stretch's contents are compared
attribute [local irreducible] Host.gather Host.scatterAdd Host.reduceAdd

/-- The buffers the stretch `opsB1a` writes. -/
def WB1a : List (Ref sig .tc) := [main_c_5, main_v44, main_v45, main_c_6, main_v46, main_v47, main_v48, main_v49, main_v50]

theorem B1a_writes {F : FTy → Type} [FloatOps F] :
    (opsB1a : List (HloOp τ sig (Elt F))).Forall fun op => op.writes ⊆ (WB1a.map (Proc.devRef (τ := τ) .tc)).toFinset := by
  unfold opsB1a
  exact ⟨writes_sub_of_mem (y := main_c_5) rfl (by decide),
    writes_sub_of_mem (y := main_v44) rfl (by decide),
    writes_sub_of_mem (y := main_v45) rfl (by decide),
    writes_sub_of_mem (y := main_c_6) rfl (by decide),
    writes_sub_of_mem (y := main_v46) rfl (by decide),
    writes_sub_of_mem (y := main_v47) rfl (by decide),
    writes_sub_of_mem (y := main_v48) rfl (by decide),
    writes_sub_of_mem (y := main_v49) rfl (by decide),
    writes_sub_of_mem (y := main_v50) rfl (by decide)⟩

/-- A buffer the stretch `opsB1a` does not write keeps its contents. -/
theorem B1a_frame {F : FTy → Type} [FloatOps F] (V : Valuation τ sig (Elt F)) {r : Ref sig .tc} (hr : r ∉ WB1a) :
    after opsB1a V (no_index (Proc.devRef .tc r)) = V (Proc.devRef .tc r) :=
  after_of_writes_sub opsB1a V B1a_writes hr

/-- The buffers the stretch `opsB1b` writes. -/
def WB1b : List (Ref sig .tc) := [main_cst_7, main_v51, main_v52, main_v53]

theorem B1b_writes {F : FTy → Type} [FloatOps F] :
    (opsB1b : List (HloOp τ sig (Elt F))).Forall fun op => op.writes ⊆ (WB1b.map (Proc.devRef (τ := τ) .tc)).toFinset := by
  unfold opsB1b
  exact ⟨writes_sub_of_mem (y := main_cst_7) rfl (by decide),
    writes_sub_of_mem (y := main_v51) rfl (by decide),
    writes_sub_of_mem (y := main_v52) rfl (by decide),
    writes_sub_of_mem (y := main_v53) rfl (by decide)⟩

/-- A buffer the stretch `opsB1b` does not write keeps its contents. -/
theorem B1b_frame {F : FTy → Type} [FloatOps F] (V : Valuation τ sig (Elt F)) {r : Ref sig .tc} (hr : r ∉ WB1b) :
    after opsB1b V (no_index (Proc.devRef .tc r)) = V (Proc.devRef .tc r) :=
  after_of_writes_sub opsB1b V B1b_writes hr

/-- The buffers the stretch `opsB2` writes. -/
def WB2 : List (Ref sig .tc) := [main_v54, main_v55, main_v56, main_v57, main_v58]

theorem B2_writes {F : FTy → Type} [FloatOps F] :
    (opsB2 : List (HloOp τ sig (Elt F))).Forall fun op => op.writes ⊆ (WB2.map (Proc.devRef (τ := τ) .tc)).toFinset := by
  unfold opsB2
  exact ⟨writes_sub_of_mem (y := main_v54) rfl (by decide),
    writes_sub_of_mem (y := main_v55) rfl (by decide),
    writes_sub_of_mem (y := main_v56) rfl (by decide),
    writes_sub_of_mem (y := main_v57) rfl (by decide),
    writes_sub_of_mem (y := main_v58) rfl (by decide)⟩

/-- A buffer the stretch `opsB2` does not write keeps its contents. -/
theorem B2_frame {F : FTy → Type} [FloatOps F] (V : Valuation τ sig (Elt F)) {r : Ref sig .tc} (hr : r ∉ WB2) :
    after opsB2 V (no_index (Proc.devRef .tc r)) = V (Proc.devRef .tc r) :=
  after_of_writes_sub opsB2 V B2_writes hr

/-- The buffers the stretch `opsB3` writes. -/
def WB3 : List (Ref sig .tc) := [main_cst_8, main_v59, main_cst_9, main_v60, main_v61]

theorem B3_writes {F : FTy → Type} [FloatOps F] :
    (opsB3 : List (HloOp τ sig (Elt F))).Forall fun op => op.writes ⊆ (WB3.map (Proc.devRef (τ := τ) .tc)).toFinset := by
  unfold opsB3
  exact ⟨writes_sub_of_mem (y := main_cst_8) rfl (by decide),
    writes_sub_of_mem (y := main_v59) rfl (by decide),
    writes_sub_of_mem (y := main_cst_9) rfl (by decide),
    writes_sub_of_mem (y := main_v60) rfl (by decide),
    writes_sub_of_mem (y := main_v61) rfl (by decide)⟩

/-- A buffer the stretch `opsB3` does not write keeps its contents. -/
theorem B3_frame {F : FTy → Type} [FloatOps F] (V : Valuation τ sig (Elt F)) {r : Ref sig .tc} (hr : r ∉ WB3) :
    after opsB3 V (no_index (Proc.devRef .tc r)) = V (Proc.devRef .tc r) :=
  after_of_writes_sub opsB3 V B3_writes hr

/-- The buffers the stretch `opsB4` writes. -/
def WB4 : List (Ref sig .tc) := [main_c_10, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref]

theorem B4_writes {F : FTy → Type} [FloatOps F] :
    (opsB4 : List (HloOp τ sig (Elt F))).Forall fun op => op.writes ⊆ (WB4.map (Proc.devRef (τ := τ) .tc)).toFinset := by
  unfold opsB4
  exact ⟨writes_sub_of_mem (y := main_c_10) rfl (by decide),
    writes_sub_of_mem (y := main_call3.cst.ref) rfl (by decide),
    writes_sub_of_mem (y := main_call3.v0.ref) rfl (by decide),
    writes_sub_of_mem (y := main_call3.v1.ref) rfl (by decide),
    writes_sub_of_mem (y := main_call3.cst_0.ref) rfl (by decide),
    writes_sub_of_mem (y := main_call3.v2.ref) rfl (by decide),
    writes_sub_of_mem (y := main_call3.v3.ref) rfl (by decide),
    writes_sub_of_mem (y := main_call3.v4.ref) rfl (by decide),
    writes_sub_of_mem (y := main_call3.v5.ref) rfl (by decide),
    writes_sub_of_mem (y := main_call3.v6.ref) rfl (by decide),
    writes_sub_of_mem (y := main_call3.v7.ref) rfl (by decide),
    writes_sub_of_mem (y := main_call3.cst_1.ref) rfl (by decide),
    writes_sub_of_mem (y := main_call3.v8.ref) rfl (by decide),
    writes_sub_of_mem (y := main_call3.cst_2.ref) rfl (by decide),
    writes_sub_of_mem (y := main_call3.v9.ref) rfl (by decide),
    writes_sub_of_mem (y := main_call3.v10.ref) rfl (by decide),
    writes_sub_of_mem (y := main_call3.v11.ref) rfl (by decide),
    writes_sub_of_mem (y := main_call3.cst_3.ref) rfl (by decide),
    writes_sub_of_mem (y := main_call3.v12.ref) rfl (by decide),
    writes_sub_of_mem (y := main_call3.cst_4.ref) rfl (by decide),
    writes_sub_of_mem (y := main_call3.call0.v0.ref) rfl (by decide),
    writes_sub_of_mem (y := main_call3.call0.v1.ref) rfl (by decide),
    writes_sub_of_mem (y := main_call3.call0.v2.ref) rfl (by decide)⟩

/-- A buffer the stretch `opsB4` does not write keeps its contents. -/
theorem B4_frame {F : FTy → Type} [FloatOps F] (V : Valuation τ sig (Elt F)) {r : Ref sig .tc} (hr : r ∉ WB4) :
    after opsB4 V (no_index (Proc.devRef .tc r)) = V (Proc.devRef .tc r) :=
  after_of_writes_sub opsB4 V B4_writes hr

/-- The buffers the stretch `opsB5` writes. -/
def WB5 : List (Ref sig .tc) := [main_v63, main_v64, main_v65, main_cst_11, main_v66, main_v67, main_v68, main_v69, main_v70, main_v71, main_v72, main_v73, main_v74, main_v75, main_v76, main_v77, main_call4.cst.ref, main_call4.v0.ref, main_call4.v1.ref, main_v79, main_v80, main_v81, main_v82, main_call5.cst.ref, main_call5.v0.ref, main_call5.v1.ref]

theorem B5_writes {F : FTy → Type} [FloatOps F] :
    (opsB5 : List (HloOp τ sig (Elt F))).Forall fun op => op.writes ⊆ (WB5.map (Proc.devRef (τ := τ) .tc)).toFinset := by
  unfold opsB5
  exact ⟨writes_sub_of_mem (y := main_v63) rfl (by decide),
    writes_sub_of_mem (y := main_v64) rfl (by decide),
    writes_sub_of_mem (y := main_v65) rfl (by decide),
    writes_sub_of_mem (y := main_cst_11) rfl (by decide),
    writes_sub_of_mem (y := main_v66) rfl (by decide),
    writes_sub_of_mem (y := main_v67) rfl (by decide),
    writes_sub_of_mem (y := main_v68) rfl (by decide),
    writes_sub_of_mem (y := main_v69) rfl (by decide),
    writes_sub_of_mem (y := main_v70) rfl (by decide),
    writes_sub_of_mem (y := main_v71) rfl (by decide),
    writes_sub_of_mem (y := main_v72) rfl (by decide),
    writes_sub_of_mem (y := main_v73) rfl (by decide),
    writes_sub_of_mem (y := main_v74) rfl (by decide),
    writes_sub_of_mem (y := main_v75) rfl (by decide),
    writes_sub_of_mem (y := main_v76) rfl (by decide),
    writes_sub_of_mem (y := main_v77) rfl (by decide),
    writes_sub_of_mem (y := main_call4.cst.ref) rfl (by decide),
    writes_sub_of_mem (y := main_call4.v0.ref) rfl (by decide),
    writes_sub_of_mem (y := main_call4.v1.ref) rfl (by decide),
    writes_sub_of_mem (y := main_v79) rfl (by decide),
    writes_sub_of_mem (y := main_v80) rfl (by decide),
    writes_sub_of_mem (y := main_v81) rfl (by decide),
    writes_sub_of_mem (y := main_v82) rfl (by decide),
    writes_sub_of_mem (y := main_call5.cst.ref) rfl (by decide),
    writes_sub_of_mem (y := main_call5.v0.ref) rfl (by decide),
    writes_sub_of_mem (y := main_call5.v1.ref) rfl (by decide)⟩

/-- A buffer the stretch `opsB5` does not write keeps its contents. -/
theorem B5_frame {F : FTy → Type} [FloatOps F] (V : Valuation τ sig (Elt F)) {r : Ref sig .tc} (hr : r ∉ WB5) :
    after opsB5 V (no_index (Proc.devRef .tc r)) = V (Proc.devRef .tc r) :=
  after_of_writes_sub opsB5 V B5_writes hr

/-! ## What each stretch computes -/

set_option maxHeartbeats 400000 in
theorem B1a_v50 (V : VI) :
    after (opsB1a (F := Ideal)) V (no_index (Proc.devRef .tc main_v50))
      = Host.gather gather_S50000x64_S800000x1_S800000x64_1_0_n_n_0_1_164 (V (Proc.devRef .tc main_v43)) (asIdxCol (wrapIdx (V (Proc.devRef .tc main_v1)))) := by
  unfold opsB1a
  after_results_simp
  rfl

set_option maxHeartbeats 400000 in
theorem B1b_v53 (V : VI) :
    after (opsB1b (F := Ideal)) V (no_index (Proc.devRef .tc main_v53))
      = Host.scatterAdd (F := Ideal) (φ := .f32) scatter_S50000x64_S800000x1_S800000x64_1_0_0_1 (fillNodes zeroS) (asIdxCol (V (Proc.devRef .tc main_v3))) (V (Proc.devRef .tc main_v50)) := by
  unfold opsB1b
  after_results_simp
  rfl

set_option maxHeartbeats 400000 in
theorem B2_v58 (V : VI) :
    after (opsB2 (F := Ideal)) V (no_index (Proc.devRef .tc main_v58))
      = lin (V (Proc.devRef .tc main_v53)) (V (Proc.devRef .tc main_v43)) (V (Proc.devRef .tc main_arg8)) (V (Proc.devRef .tc main_arg9)) := by
  unfold opsB2
  after_results_simp
  rfl

set_option maxHeartbeats 400000 in
theorem B3_v61 (V : VI) :
    after (opsB3 (F := Ideal)) V (no_index (Proc.devRef .tc main_v61))
      = colMean (V (Proc.devRef .tc main_v58)) := by
  unfold opsB3
  after_results_simp
  rfl

set_option maxHeartbeats 1000000 in
theorem B4_v62 (V : VI) :
    after (opsB4 (F := Ideal)) V (no_index (Proc.devRef .tc main_v62))
      = colVar (V (Proc.devRef .tc main_v58)) := by
  unfold opsB4
  after_results_simp
  rfl

set_option maxHeartbeats 1000000 in
theorem B5_v83 (V : VI) :
    after (opsB5 (F := Ideal)) V (no_index (Proc.devRef .tc main_v83))
      = bnHead (V (Proc.devRef .tc main_v58)) (V (Proc.devRef .tc main_v61)) (V (Proc.devRef .tc main_v62)) (V (Proc.devRef .tc main_arg10)) (V (Proc.devRef .tc main_arg11)) (V (Proc.devRef .tc main_arg12)) (V (Proc.devRef .tc main_arg13)) := by
  unfold opsB5
  after_results_simp
  rfl

end Cert.ReferenceIdeal.RefValue

end
-- ==== Proof.LibLineParts.lean ====
/-
  A straight line of host operations run in parts, and contents carried through a typed reference.

  * `after_append`: the buffer contents after a line `a ++ b` of host operations are the contents after `b` run from the
    contents after `a`.  A long line can so be read in stretches — the first up to the values a later stretch needs, the
    later stretch over ANY contents of those buffers — which keeps each stretch's composed term small.
  * `ofBuf_toBuf`: an outlined helper's lines address their buffers through typed references, moving a value to the
    buffer's own type when it is written and back when it is read; the value moved there and back is the value.  (For a
    single move at a literal reference, state `(TRef.of r).toBuf Y = Y` over a variable `Y` and prove it by `rfl`.)
-/
import Idealize.ShloMosaic.Lib.StableHlo.Run

namespace Cert.LibLineParts

open Idealize.ShloMosaic Idealize.ShloMosaic.StableHlo

variable {τ : Topo} {sig : RefSig} {Val : EltTy → Type}

/-- A line run in two parts. -/
theorem after_append : ∀ (a b : List (HloOp τ sig Val)) (V : Valuation τ sig Val),
    after (a ++ b) V = after b (after a V)
  | [], _, _ => rfl
  | o :: a, b, V => after_append a b (o.result V)

/-- Contents moved to a typed reference's buffer type and back are the contents. -/
theorem ofBuf_toBuf {T : BufTy} (x : TRef sig T) (Y : T.Contents Val) : x.ofBuf (x.toBuf Y) = Y := by
  obtain ⟨r, h, h2, h3⟩ := x
  subst h
  rfl

end Cert.LibLineParts
-- ==== Proof.RefRun.lean ====
/-
  The reference computation's run, stage by stage.

  The line of 148 operations is its twelve stretches in order, so the contents after it are the stretches' folds
  composed. Reading the result buffers back through the stretches — each stretch either leaves a buffer alone or
  ends it at its stage's function of earlier buffers — the first output is one layer of the inputs and the second
  output is a layer of the first, and no input buffer is written.
-/
import proofs.«102369_j9122510537161_1_alg».proof.Proof.RefLayer2
import proofs.«102369_j9122510537161_1_alg».proof.Proof.LibLineParts

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

open Cert.LibLineParts (after_append)

variable {F : FTy → Type} [FloatOps F]

/-- The whole line is its twelve stretches in order. -/
theorem ops_eq : (ops : List (HloOp τ sig (Elt F))) = opsA0 ++ (opsA1 ++ (opsA2 ++ (opsA3 ++ (opsA4 ++ (opsA5 ++ (opsB1a ++ (opsB1b ++ (opsB2 ++ (opsB3 ++ (opsB4 ++ (opsB5))))))))))) := by
  unfold ops
  rw [ops0_eq, ops1_eq]
  simp only [List.append_assoc]

/-- The contents after the whole line: the stretches' folds composed. -/
theorem after_ops (V : Valuation τ sig (Elt F)) :
    after ops V = after opsB5 (after opsB4 (after opsB3 (after opsB2 (after opsB1b (after opsB1a (after opsA5 (after opsA4 (after opsA3 (after opsA2 (after opsA1 (after opsA0 (V)))))))))))) := by
  rw [ops_eq]
  simp only [after_append]

/-- A buffer no stretch writes keeps its contents through the whole line. -/
theorem ops_keep (V : Valuation τ sig (Elt F)) {r : Ref sig .tc} (hA0 : r ∉ WA0) (hA1 : r ∉ WA1) (hA2 : r ∉ WA2) (hA3 : r ∉ WA3) (hA4 : r ∉ WA4) (hA5 : r ∉ WA5) (hB1a : r ∉ WB1a) (hB1b : r ∉ WB1b) (hB2 : r ∉ WB2) (hB3 : r ∉ WB3) (hB4 : r ∉ WB4) (hB5 : r ∉ WB5) :
    after ops V (Proc.devRef .tc r) = V (Proc.devRef .tc r) := by
  rw [after_ops, B5_frame _ hB5, B4_frame _ hB4, B3_frame _ hB3, B2_frame _ hB2, B1b_frame _ hB1b, B1a_frame _ hB1a, A5_frame _ hA5, A4_frame _ hA4, A3_frame _ hA3, A2_frame _ hA2, A1_frame _ hA1, A0_frame _ hA0]

set_option maxHeartbeats 1000000 in
/-- The first output after the whole line: one layer of the inputs. -/
theorem ops_v43 (V : VI) :
    after (ops (F := Ideal)) V (Proc.devRef .tc main_v43)
      = layer (V (Proc.devRef .tc main_arg0)) (srcOf (V (Proc.devRef .tc main_arg1))) (dstOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]
  simp (disch := decide) only [A0_frame, A1_frame, A2_frame, A3_frame, A4_frame, A5_frame, B1a_frame, B1b_frame, B2_frame, B3_frame, B4_frame, B5_frame,
    A0_v1, A0_v3, A1_v13, A2_v18, A3_v21, A4_v22, A5_v43, B1a_v50, B1b_v53, B2_v58, B3_v61, B4_v62, B5_v83]
  rfl

set_option maxHeartbeats 2000000 in
/-- The second output after the whole line: a layer of the first output, over the same edges. -/
theorem ops_v83 (V : VI) :
    after (ops (F := Ideal)) V (Proc.devRef .tc main_v83)
      = layer (layer (V (Proc.devRef .tc main_arg0)) (srcOf (V (Proc.devRef .tc main_arg1))) (dstOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7))) (srcOf (V (Proc.devRef .tc main_arg1))) (dstOf (V (Proc.devRef .tc main_arg1))) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  simp (disch := decide) only [A0_frame, A1_frame, A2_frame, A3_frame, A4_frame, A5_frame, B1a_frame, B1b_frame, B2_frame, B3_frame, B4_frame, B5_frame,
    A0_v1, A0_v3, A1_v13, A2_v18, A3_v21, A4_v22, A5_v43, B1a_v50, B1b_v53, B2_v58, B3_v61, B4_v62, B5_v83]
  rfl

/-- On the one device, from any memory with zero counters: every weakly fair execution of the reference terminates
    with the first output one layer of the inputs, the second output a layer of the first, and the fourteen inputs
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = layer (m ((c.tc : Thread nD τ).loc main_arg0)) (srcOf (m ((c.tc : Thread nD τ).loc main_arg1))) (dstOf (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v83)
          = layer (layer (m ((c.tc : Thread nD τ).loc main_arg0)) (srcOf (m ((c.tc : Thread nD τ).loc main_arg1))) (dstOf (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (srcOf (m ((c.tc : Thread nD τ).loc main_arg1))) (dstOf (m ((c.tc : Thread nD τ).loc main_arg1))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v43).trans (ops_v43 _), (h c main_v83).trans (ops_v83 _),
      (h c main_arg0).trans (ops_keep _ (by decide) (by decide) (by decide) (by decide) (by decide) (by decide) (by decide) (by decide) (by decide) (by decide) (by decide) (by decide)),
      (h c main_arg1).trans (ops_keep _ (by decide) (by decide) (by decide) (by decide) (by decide) (by decide) (by decide) (by decide) (by decide) (by decide) (by decide) (by decide)),
      (h c main_arg2).trans (ops_keep _ (by decide) (by decide) (by decide) (by decide) (by decide) (by decide) (by decide) (by decide) (by decide) (by decide) (by decide) (by decide)),
      (h c main_arg3).trans (ops_keep _ (by decide) (by decide) (by decide) (by decide) (by decide) (by decide) (by decide) (by decide) (by decide) (by decide) (by decide) (by decide)),
      (h c main_arg4).trans (ops_keep _ (by decide) (by decide) (by decide) (by decide) (by decide) (by decide) (by decide) (by decide) (by decide) (by decide) (by decide) (by decide)),
      (h c main_arg5).trans (ops_keep _ (by decide) (by decide) (by decide) (by decide) (by decide) (by decide) (by decide) (by decide) (by decide) (by decide) (by decide) (by decide)),
      (h c main_arg6).trans (ops_keep _ (by decide) (by decide) (by decide) (by decide) (by decide) (by decide) (by decide) (by decide) (by decide) (by decide) (by decide) (by decide)),
      (h c main_arg7).trans (ops_keep _ (by decide) (by decide) (by decide) (by decide) (by decide) (by decide) (by decide) (by decide) (by decide) (by decide) (by decide) (by decide)),
      (h c main_arg8).trans (ops_keep _ (by decide) (by decide) (by decide) (by decide) (by decide) (by decide) (by decide) (by decide) (by decide) (by decide) (by decide) (by decide)),
      (h c main_arg9).trans (ops_keep _ (by decide) (by decide) (by decide) (by decide) (by decide) (by decide) (by decide) (by decide) (by decide) (by decide) (by decide) (by decide)),
      (h c main_arg10).trans (ops_keep _ (by decide) (by decide) (by decide) (by decide) (by decide) (by decide) (by decide) (by decide) (by decide) (by decide) (by decide) (by decide)),
      (h c main_arg11).trans (ops_keep _ (by decide) (by decide) (by decide) (by decide) (by decide) (by decide) (by decide) (by decide) (by decide) (by decide) (by decide) (by decide)),
      (h c main_arg12).trans (ops_keep _ (by decide) (by decide) (by decide) (by decide) (by decide) (by decide) (by decide) (by decide) (by decide) (by decide) (by decide) (by decide)),
      (h c main_arg13).trans (ops_keep _ (by decide) (by decide) (by decide) (by decide) (by decide) (by decide) (by decide) (by decide) (by decide) (by decide) (by decide) (by decide))⟩)
    (run_main m ρ)

end Cert.ReferenceIdeal.RefValue

end
-- ==== Proof.lean ====
/-
  A two-layer graph-isomorphism network, tiled for the matrix unit, against its plain array form.

  Each layer adds to every node's features the sum of its in-neighbours' features, applies an affine map, normalises
  each column by its mean and variance over all nodes, scales, shifts and clamps at zero, applies a second affine map
  and clamps again. The kernel program computes the neighbour sums and the column statistics with the same array
  operations as the reference, and the two affine stages in tiles of 5000 rows on the matrix unit, with the operands
  narrowed to a shorter float format first. Over the extended reals a change of format is the identity, a matrix-unit
  product into a zero accumulator and a host contraction are both the sum over the inner index of the operands'
  products, and a vector reshaped into a row is the vector broadcast into a row; so each tile holds the rows of the
  reference's stage that it covers, the tiles cover the array, and the two programs' layers are one function of the
  arguments. No law beyond reading each operation at an entry is used, and the inputs' finiteness is not needed.

  The three frames: the two kernel programs' are their launch through twelve segments; the reference's is its run with
  the results dropped. The kernel's idealization rewrote no operation, so there is nothing to preserve.
-/
import proofs.«102369_j9122510537161_1_alg».proof.Defs
import proofs.«102369_j9122510537161_1_alg».proof.Proof.Gen.Kernel
import proofs.«102369_j9122510537161_1_alg».proof.Proof.Gen.Kernel.Frame
import proofs.«102369_j9122510537161_1_alg».proof.Proof.Gen.KernelIdeal
import proofs.«102369_j9122510537161_1_alg».proof.Proof.Gen.KernelIdeal.Frame
import proofs.«102369_j9122510537161_1_alg».proof.Proof.Gen.ReferenceIdeal
import proofs.«102369_j9122510537161_1_alg».proof.Proof.Gen.Pre_finite_inputs
import proofs.«102369_j9122510537161_1_alg».proof.Proof.KernelRun
import proofs.«102369_j9122510537161_1_alg».proof.Proof.KernelFold
import proofs.«102369_j9122510537161_1_alg».proof.Proof.RefRun
import Idealize.ShloMosaic.Adequacy
import Idealize.ShloMosaic.Init

noncomputable section

namespace Cert.Proof

open Idealize.ShloMosaic Idealize.SL.Sem

/-- The kernel program as printed terminates without a fault and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefValue.run m ρ)

/-- The idealization rewrote no operation. -/
theorem preserves : Cert.preserves_Kernel_KernelIdeal := trivial

/-- From memories that agree on the arguments both programs end with the first layer's output in their first result
    and the second layer's in their second: the kernel's results read back through its segments are the reference's
    layers of the kernel's arguments, and the reference's run gives the same layers of its own arguments, which are the
    kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fold.Y1 m c, fun c => Cert.KernelIdeal.Fold.Y2 m c, ?_, ?_⟩
  · exact (θ_run Cert.KernelIdeal.defs _ _).mono
      (fun r h c => ⟨(h c).1.trans (Cert.KernelIdeal.Fold.W12_v25 m ρ c), (h c).2.1.trans (Cert.KernelIdeal.Fold.W12_v47 m ρ c), (h c).2.2⟩)
      (Cert.KernelIdeal.Run.results_at_last (F := Ideal) m ρ)
  · refine (θ_run Cert.ReferenceIdeal.defs _ _).mono (fun r h c => ⟨(h c).1.trans ?_, (h c).2.1.trans ?_, (h c).2.2⟩)
      (Cert.ReferenceIdeal.RefValue.run m' ρ')
    · obtain ⟨e0, e1, e2, e3, e4, e5, e6, e7, e8, e9, e10, e11, e12, e13⟩ := hagree c
      rw [e0, e1, e2, e3, e4, e5, e6, e7]
      exact (Cert.KernelIdeal.Fold.Y1_eq m c).symm
    · obtain ⟨e0, e1, e2, e3, e4, e5, e6, e7, e8, e9, e10, e11, e12, e13⟩ := hagree c
      rw [e0, e1, e2, e3, e4, e5, e6, e7, e8, e9, e10, e11, e12, e13]
      exact ((Cert.KernelIdeal.Fold.Y2_eq m c).trans (by rw [Cert.KernelIdeal.Fold.Y1_eq])).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
